-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v139)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v139) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v153) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x1152 : Shape := ⟨2, ![50000, 1152]⟩
abbrev S2x800000 : Shape := ⟨2, ![2, 800000]⟩
abbrev S800000 : Shape := ⟨1, ![800000]⟩
abbrev S50000 : Shape := ⟨1, ![50000]⟩
abbrev S1152x256 : Shape := ⟨2, ![1152, 256]⟩
abbrev S256 : Shape := ⟨1, ![256]⟩
abbrev S256x256 : Shape := ⟨2, ![256, 256]⟩
abbrev S256x2 : Shape := ⟨2, ![256, 2]⟩
abbrev S2 : Shape := ⟨1, ![2]⟩
abbrev S_ : Shape := ⟨0, ![]⟩

class Facts : Prop where
  bcast_S_S50000x1152 : S_.BroadcastsInDim S50000x1152 (![] : Fin 0 → Fin S50000x1152.rank)
  reducesTo_S50000x1152_S_d0_1 : S50000x1152.ReducesTo [0, 1] S_
  h_S_ : 0 < S_.numel
  bcast_S_S800000 : S_.BroadcastsInDim S800000 (![] : Fin 0 → Fin S800000.rank)
  reducesTo_S800000_S_d0 : S800000.ReducesTo [0] S_
  bcast_S_S1152x256 : S_.BroadcastsInDim S1152x256 (![] : Fin 0 → Fin S1152x256.rank)
  reducesTo_S1152x256_S_d0_1 : S1152x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x2 : S_.BroadcastsInDim S256x2 (![] : Fin 0 → Fin S256x2.rank)
  reducesTo_S256x2_S_d0_1 : S256x2.ReducesTo [0, 1] S_
  bcast_S_S2 : S_.BroadcastsInDim S2 (![] : Fin 0 → Fin S2.rank)
  reducesTo_S2_S_d0 : S2.ReducesTo [0] S_

variable [Facts]

def fn_part2 {F : FTy → Type} [FloatOps F] (main_arg9 : FVec F S256 .f32) (main_arg10 : FVec F S256x2 .f32) (main_arg11 : FVec F S2 .f32) (main_v33 : IVec S_ 1) : IVec S_ 1 :=
  let main_v34 : FVec F S256 .f32 := Host.absf main_arg9
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256x2 .f32 := Host.absf main_arg10
  let main_cst_14 : FVec F S_ .f32 := constant S_ .f32 0x7F800000#32
  let main_v40 : FVec F S256x2 .f32 := broadcastInDim S256x2 ![] bcast_S_S256x2 main_cst_14
  let main_v41 : IVec S256x2 1 := cmpf .olt main_v39 main_v40
  let main_c_15 : IVec S_ 1 := constantI S_ 1 1#1
  let main_v42 : IVec S_ 1 := (fun x v => Host.reduce IntOp.andi x v reducesTo_S256x2_S_d0_1 h_S_) main_v41 main_c_15
  let main_v43 : IVec S_ 1 := andi main_v38 main_v42
  let main_v44 : FVec F S2 .f32 := Host.absf main_arg11
  let main_cst_16 : FVec F S_ .f32 := constant S_ .f32 0x7F800000#32
  let main_v45 : FVec F S2 .f32 := broadcastInDim S2 ![] bcast_S_S2 main_cst_16
  let main_v46 : IVec S2 1 := cmpf .olt main_v44 main_v45
  let main_c_17 : IVec S_ 1 := constantI S_ 1 1#1
  let main_v47 : IVec S_ 1 := (fun x v => Host.reduce IntOp.andi x v reducesTo_S2_S_d0 h_S_) main_v46 main_c_17
  let main_v48 : IVec S_ 1 := andi main_v43 main_v47
  main_v48

def fn_part1 {F : FTy → Type} [FloatOps F] (main_arg6 : FVec F S256x256 .f32) (main_arg7 : FVec F S256 .f32) (main_arg8 : FVec F S256x256 .f32) (main_arg9 : FVec F S256 .f32) (main_arg10 : FVec F S256x2 .f32) (main_arg11 : FVec F S2 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg6
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg7
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x256 .f32 := Host.absf main_arg8
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg9 main_arg10 main_arg11 main_v33

def fn {F : FTy → Type} [FloatOps F] (main_arg0 : FVec F S50000x1152 .f32) (main_arg1 : IVec S2x800000 32) (main_arg2 : FVec F S800000 .f32) (main_arg3 : IVec S50000 32) (main_arg4 : FVec F S1152x256 .f32) (main_arg5 : FVec F S256 .f32) (main_arg6 : FVec F S256x256 .f32) (main_arg7 : FVec F S256 .f32) (main_arg8 : FVec F S256x256 .f32) (main_arg9 : FVec F S256 .f32) (main_arg10 : FVec F S256x2 .f32) (main_arg11 : FVec F S2 .f32) : IVec S_ 1 :=
  let main_v0 : FVec F S50000x1152 .f32 := Host.absf main_arg0
  let main_cst : FVec F S_ .f32 := constant S_ .f32 0x7F800000#32
  let main_v1 : FVec F S50000x1152 .f32 := broadcastInDim S50000x1152 ![] bcast_S_S50000x1152 main_cst
  let main_v2 : IVec S50000x1152 1 := cmpf .olt main_v0 main_v1
  let main_c : IVec S_ 1 := constantI S_ 1 1#1
  let main_v3 : IVec S_ 1 := (fun x v => Host.reduce IntOp.andi x v reducesTo_S50000x1152_S_d0_1 h_S_) main_v2 main_c
  let main_v4 : FVec F S800000 .f32 := Host.absf main_arg2
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S1152x256 .f32 := Host.absf main_arg4
  let main_cst_2 : FVec F S_ .f32 := constant S_ .f32 0x7F800000#32
  let main_v10 : FVec F S1152x256 .f32 := broadcastInDim S1152x256 ![] bcast_S_S1152x256 main_cst_2
  let main_v11 : IVec S1152x256 1 := cmpf .olt main_v9 main_v10
  let main_c_3 : IVec S_ 1 := constantI S_ 1 1#1
  let main_v12 : IVec S_ 1 := (fun x v => Host.reduce IntOp.andi x v reducesTo_S1152x256_S_d0_1 h_S_) main_v11 main_c_3
  let main_v13 : IVec S_ 1 := andi main_v8 main_v12
  let main_v14 : FVec F S256 .f32 := Host.absf main_arg5
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg6 main_arg7 main_arg8 main_arg9 main_arg10 main_arg11 main_v13 main_v16
-- ==== Kernel.lean ====
abbrev S50000x1152 : Shape := ⟨2, ![50000, 1152]⟩
abbrev S2x800000 : Shape := ⟨2, ![2, 800000]⟩
abbrev S800000 : Shape := ⟨1, ![800000]⟩
abbrev S50000 : Shape := ⟨1, ![50000]⟩
abbrev S1152x256 : Shape := ⟨2, ![1152, 256]⟩
abbrev S256 : Shape := ⟨1, ![256]⟩
abbrev S256x256 : Shape := ⟨2, ![256, 256]⟩
abbrev S256x2 : Shape := ⟨2, ![256, 2]⟩
abbrev S2 : Shape := ⟨1, ![2]⟩
abbrev S1x800000 : Shape := ⟨2, ![1, 800000]⟩
abbrev S_ : Shape := ⟨0, ![]⟩
abbrev S800000x1 : Shape := ⟨2, ![800000, 1]⟩
abbrev S50000x1 : Shape := ⟨2, ![50000, 1]⟩
abbrev S1x256 : Shape := ⟨2, ![1, 256]⟩
abbrev S50000x256 : Shape := ⟨2, ![50000, 256]⟩
abbrev S1000x1152 : Shape := ⟨2, ![1000, 1152]⟩
abbrev S1000x1 : Shape := ⟨2, ![1000, 1]⟩
abbrev S1000x256 : Shape := ⟨2, ![1000, 256]⟩
abbrev S800000x256 : Shape := ⟨2, ![800000, 256]⟩
abbrev S8x256 : Shape := ⟨2, ![8, 256]⟩
abbrev S8 : Shape := ⟨1, ![8]⟩
abbrev S8x1 : Shape := ⟨2, ![8, 1]⟩
abbrev S8x2 : Shape := ⟨2, ![8, 2]⟩
abbrev S1x2 : Shape := ⟨2, ![1, 2]⟩

abbrev nBuf : Space → Nat
  | .hbm => 186
  | .vmem => 48
  | .smem => 0
  | _ => 0

abbrev hbmTy0_0 (i : Nat) : BufTy := match i % 128 with
  | 0 => ⟨S50000x1152, .f32⟩
  | 1 => ⟨S2x800000, .i32⟩
  | 2 => ⟨S800000, .f32⟩
  | 3 => ⟨S50000, .i32⟩
  | 4 => ⟨S1152x256, .f32⟩
  | 5 => ⟨S256, .f32⟩
  | 6 => ⟨S256x256, .f32⟩
  | 7 => ⟨S256, .f32⟩
  | 8 => ⟨S256x256, .f32⟩
  | 9 => ⟨S256, .f32⟩
  | 10 => ⟨S256x2, .f32⟩
  | 11 => ⟨S2, .f32⟩
  | 12 => ⟨S1x800000, .i32⟩
  | 13 => ⟨S800000, .i32⟩
  | 14 => ⟨S1x800000, .i32⟩
  | 15 => ⟨S800000, .i32⟩
  | 16 => ⟨S_, .f32⟩
  | 17 => ⟨S50000, .f32⟩
  | 18 => ⟨S800000x1, .i32⟩
  | 19 => ⟨S50000, .f32⟩
  | 20 => ⟨S_, .f32⟩
  | 21 => ⟨S50000, .f32⟩
  | 22 => ⟨S50000, .f32⟩
  | 23 => ⟨S50000, .f32⟩
  | 24 => ⟨S50000, .f32⟩
  | 25 => ⟨S50000x1, .f32⟩
  | 26 => ⟨S_, .i32⟩
  | 27 => ⟨S800000, .i32⟩
  | 28 => ⟨S800000, .i1⟩
  | 29 => ⟨S_, .i32⟩
  | 30 => ⟨S800000, .i32⟩
  | 31 => ⟨S800000, .i32⟩
  | 32 => ⟨S800000, .i32⟩
  | 33 => ⟨S800000x1, .i32⟩
  | 34 => ⟨S800000, .f32⟩
  | 35 => ⟨S800000, .f32⟩
  | 36 => ⟨S_, .i32⟩
  | 37 => ⟨S800000, .i32⟩
  | 38 => ⟨S800000, .i1⟩
  | 39 => ⟨S_, .i32⟩
  | 40 => ⟨S800000, .i32⟩
  | 41 => ⟨S800000, .i32⟩
  | 42 => ⟨S800000, .i32⟩
  | 43 => ⟨S800000x1, .i32⟩
  | 44 => ⟨S800000, .f32⟩
  | 45 => ⟨S800000, .f32⟩
  | 46 => ⟨S1x256, .f32⟩
  | 47 => ⟨S50000x256, .f32⟩
  | 48 => ⟨S50000x256, .f32⟩
  | 49 => ⟨S800000x1, .f32⟩
  | 50 => ⟨S_, .i32⟩
  | 51 => ⟨S800000, .i32⟩
  | 52 => ⟨S800000, .i1⟩
  | 53 => ⟨S_, .i32⟩
  | 54 => ⟨S800000, .i32⟩
  | 55 => ⟨S800000, .i32⟩
  | 56 => ⟨S800000, .i32⟩
  | 57 => ⟨S800000x1, .i32⟩
  | 58 => ⟨S800000x256, .f32⟩
  | 59 => ⟨S800000x256, .f32⟩
  | 60 => ⟨S800000x256, .f32⟩
  | 61 => ⟨S_, .f32⟩
  | 62 => ⟨S50000x256, .f32⟩
  | 63 => ⟨S800000x1, .i32⟩
  | 64 => ⟨S50000x256, .f32⟩
  | 65 => ⟨S50000x256, .f32⟩
  | 66 => ⟨S_, .f32⟩
  | 67 => ⟨S50000, .f32⟩
  | 68 => ⟨S800000x1, .i32⟩
  | 69 => ⟨S50000, .f32⟩
  | 70 => ⟨S_, .f32⟩
  | 71 => ⟨S50000, .f32⟩
  | 72 => ⟨S50000, .f32⟩
  | 73 => ⟨S50000, .f32⟩
  | 74 => ⟨S50000, .f32⟩
  | 75 => ⟨S50000x1, .f32⟩
  | 76 => ⟨S_, .i32⟩
  | 77 => ⟨S800000, .i32⟩
  | 78 => ⟨S800000, .i1⟩
  | 79 => ⟨S_, .i32⟩
  | 80 => ⟨S800000, .i32⟩
  | 81 => ⟨S800000, .i32⟩
  | 82 => ⟨S800000, .i32⟩
  | 83 => ⟨S800000x1, .i32⟩
  | 84 => ⟨S800000, .f32⟩
  | 85 => ⟨S800000, .f32⟩
  | 86 => ⟨S_, .i32⟩
  | 87 => ⟨S800000, .i32⟩
  | 88 => ⟨S800000, .i1⟩
  | 89 => ⟨S_, .i32⟩
  | 90 => ⟨S800000, .i32⟩
  | 91 => ⟨S800000, .i32⟩
  | 92 => ⟨S800000, .i32⟩
  | 93 => ⟨S800000x1, .i32⟩
  | 94 => ⟨S800000, .f32⟩
  | 95 => ⟨S800000, .f32⟩
  | 96 => ⟨S1x256, .f32⟩
  | 97 => ⟨S50000x256, .f32⟩
  | 98 => ⟨S50000x256, .f32⟩
  | 99 => ⟨S800000x1, .f32⟩
  | 100 => ⟨S_, .i32⟩
  | 101 => ⟨S800000, .i32⟩
  | 102 => ⟨S800000, .i1⟩
  | 103 => ⟨S_, .i32⟩
  | 104 => ⟨S800000, .i32⟩
  | 105 => ⟨S800000, .i32⟩
  | 106 => ⟨S800000, .i32⟩
  | 107 => ⟨S800000x1, .i32⟩
  | 108 => ⟨S800000x256, .f32⟩
  | 109 => ⟨S800000x256, .f32⟩
  | 110 => ⟨S800000x256, .f32⟩
  | 111 => ⟨S_, .f32⟩
  | 112 => ⟨S50000x256, .f32⟩
  | 113 => ⟨S800000x1, .i32⟩
  | 114 => ⟨S50000x256, .f32⟩
  | 115 => ⟨S50000x256, .f32⟩
  | 116 => ⟨S_, .f32⟩
  | 117 => ⟨S50000, .f32⟩
  | 118 => ⟨S800000x1, .i32⟩
  | 119 => ⟨S50000, .f32⟩
  | 120 => ⟨S_, .f32⟩
  | 121 => ⟨S50000, .f32⟩
  | 122 => ⟨S50000, .f32⟩
  | 123 => ⟨S50000, .f32⟩
  | 124 => ⟨S50000, .f32⟩
  | 125 => ⟨S50000x1, .f32⟩
  | 126 => ⟨S_, .i32⟩
  | 127 => ⟨S800000, .i32⟩
  | _ => ⟨S50000x1152, .f32⟩

abbrev hbmTy0_1 (i : Nat) : BufTy := match i % 128 with
  | 0 => ⟨S800000, .i1⟩
  | 1 => ⟨S_, .i32⟩
  | 2 => ⟨S800000, .i32⟩
  | 3 => ⟨S800000, .i32⟩
  | 4 => ⟨S800000, .i32⟩
  | 5 => ⟨S800000x1, .i32⟩
  | 6 => ⟨S800000, .f32⟩
  | 7 => ⟨S800000, .f32⟩
  | 8 => ⟨S_, .i32⟩
  | 9 => ⟨S800000, .i32⟩
  | 10 => ⟨S800000, .i1⟩
  | 11 => ⟨S_, .i32⟩
  | 12 => ⟨S800000, .i32⟩
  | 13 => ⟨S800000, .i32⟩
  | 14 => ⟨S800000, .i32⟩
  | 15 => ⟨S800000x1, .i32⟩
  | 16 => ⟨S800000, .f32⟩
  | 17 => ⟨S800000, .f32⟩
  | 18 => ⟨S1x256, .f32⟩
  | 19 => ⟨S50000x256, .f32⟩
  | 20 => ⟨S50000x256, .f32⟩
  | 21 => ⟨S800000x1, .f32⟩
  | 22 => ⟨S_, .i32⟩
  | 23 => ⟨S800000, .i32⟩
  | 24 => ⟨S800000, .i1⟩
  | 25 => ⟨S_, .i32⟩
  | 26 => ⟨S800000, .i32⟩
  | 27 => ⟨S800000, .i32⟩
  | 28 => ⟨S800000, .i32⟩
  | 29 => ⟨S800000x1, .i32⟩
  | 30 => ⟨S800000x256, .f32⟩
  | 31 => ⟨S800000x256, .f32⟩
  | 32 => ⟨S800000x256, .f32⟩
  | 33 => ⟨S_, .f32⟩
  | 34 => ⟨S50000x256, .f32⟩
  | 35 => ⟨S800000x1, .i32⟩
  | 36 => ⟨S50000x256, .f32⟩
  | 37 => ⟨S50000x256, .f32⟩
  | 38 => ⟨S_, .f32⟩
  | 39 => ⟨S8x256, .f32⟩
  | 40 => ⟨S50000x1, .i32⟩
  | 41 => ⟨S8x256, .f32⟩
  | 42 => ⟨S_, .f32⟩
  | 43 => ⟨S50000, .f32⟩
  | 44 => ⟨S_, .f32⟩
  | 45 => ⟨S8, .f32⟩
  | 46 => ⟨S50000x1, .i32⟩
  | 47 => ⟨S8, .f32⟩
  | 48 => ⟨S_, .f32⟩
  | 49 => ⟨S8, .f32⟩
  | 50 => ⟨S8, .f32⟩
  | 51 => ⟨S8x1, .f32⟩
  | 52 => ⟨S8x256, .f32⟩
  | 53 => ⟨S8x256, .f32⟩
  | 54 => ⟨S8x2, .f32⟩
  | 55 => ⟨S1x2, .f32⟩
  | 56 => ⟨S8x2, .f32⟩
  | 57 => ⟨S8x2, .f32⟩
  | _ => ⟨S50000x1152, .f32⟩

abbrev hbmTy (i : Nat) : BufTy := match i / 128 with
  | 0 => hbmTy0_0 i
  | 1 => hbmTy0_1 i
  | _ => ⟨S50000x1152, .f32⟩

abbrev bufTy : (tb : Table) → Fin (tcTables nBuf tb) → BufTy
  | .hbm, ⟨i, _⟩ => hbmTy i
  | .local _ .vmem, ⟨0, _⟩ => ⟨S1000x1152, .f32⟩
  | .local _ .vmem, ⟨1, _⟩ => ⟨S1000x1152, .f32⟩
  | .local _ .vmem, ⟨2, _⟩ => ⟨S1152x256, .f32⟩
  | .local _ .vmem, ⟨3, _⟩ => ⟨S1000x1, .f32⟩
  | .local _ .vmem, ⟨4, _⟩ => ⟨S1000x1, .f32⟩
  | .local _ .vmem, ⟨5, _⟩ => ⟨S1x256, .f32⟩
  | .local _ .vmem, ⟨6, _⟩ => ⟨S1000x256, .f32⟩
  | .local _ .vmem, ⟨7, _⟩ => ⟨S1000x256, .f32⟩
  | .local _ .vmem, ⟨8, _⟩ => ⟨S1000x256, .f32⟩
  | .local _ .vmem, ⟨9, _⟩ => ⟨S1000x256, .f32⟩
  | .local _ .vmem, ⟨10, _⟩ => ⟨S1000x256, .f32⟩
  | .local _ .vmem, ⟨11, _⟩ => ⟨S1000x256, .f32⟩
  | .local _ .vmem, ⟨12, _⟩ => ⟨S1000x256, .f32⟩
  | .local _ .vmem, ⟨13, _⟩ => ⟨S1000x256, .f32⟩
  | .local _ .vmem, ⟨14, _⟩ => ⟨S1000x256, .f32⟩
  | .local _ .vmem, ⟨15, _⟩ => ⟨S1000x256, .f32⟩
  | .local _ .vmem, ⟨16, _⟩ => ⟨S1000x256, .f32⟩
  | .local _ .vmem, ⟨17, _⟩ => ⟨S1000x256, .f32⟩
  | .local _ .vmem, ⟨18, _⟩ => ⟨S256x256, .f32⟩
  | .local _ .vmem, ⟨19, _⟩ => ⟨S1000x1, .f32⟩
  | .local _ .vmem, ⟨20, _⟩ => ⟨S1000x1, .f32⟩
  | .local _ .vmem, ⟨21, _⟩ => ⟨S1x256, .f32⟩
  | .local _ .vmem, ⟨22, _⟩ => ⟨S1000x256, .f32⟩
  | .local _ .vmem, ⟨23, _⟩ => ⟨S1000x256, .f32⟩
  | .local _ .vmem, ⟨24, _⟩ => ⟨S1000x256, .f32⟩
  | .local _ .vmem, ⟨25, _⟩ => ⟨S1000x256, .f32⟩
  | .local _ .vmem, ⟨26, _⟩ => ⟨S1000x256, .f32⟩
  | .local _ .vmem, ⟨27, _⟩ => ⟨S1000x256, .f32⟩
  | .local _ .vmem, ⟨28, _⟩ => ⟨S1000x256, .f32⟩
  | .local _ .vmem, ⟨29, _⟩ => ⟨S1000x256, .f32⟩
  | .local _ .vmem, ⟨30, _⟩ => ⟨S1000x256, .f32⟩
  | .local _ .vmem, ⟨31, _⟩ => ⟨S1000x256, .f32⟩
  | .local _ .vmem, ⟨32, _⟩ => ⟨S1000x256, .f32⟩
  | .local _ .vmem, ⟨33, _⟩ => ⟨S1000x256, .f32⟩
  | .local _ .vmem, ⟨34, _⟩ => ⟨S256x256, .f32⟩
  | .local _ .vmem, ⟨35, _⟩ => ⟨S1000x1, .f32⟩
  | .local _ .vmem, ⟨36, _⟩ => ⟨S1000x1, .f32⟩
  | .local _ .vmem, ⟨37, _⟩ => ⟨S1x256, .f32⟩
  | .local _ .vmem, ⟨38, _⟩ => ⟨S1000x256, .f32⟩
  | .local _ .vmem, ⟨39, _⟩ => ⟨S1000x256, .f32⟩
  | .local _ .vmem, ⟨40, _⟩ => ⟨S1000x256, .f32⟩
  | .local _ .vmem, ⟨41, _⟩ => ⟨S1000x256, .f32⟩
  | .local _ .vmem, ⟨42, _⟩ => ⟨S1000x256, .f32⟩
  | .local _ .vmem, ⟨43, _⟩ => ⟨S1000x256, .f32⟩
  | .local _ .vmem, ⟨44, _⟩ => ⟨S1000x256, .f32⟩
  | .local _ .vmem, ⟨45, _⟩ => ⟨S1000x256, .f32⟩
  | .local _ .vmem, ⟨46, _⟩ => ⟨S1000x256, .f32⟩
  | .local _ .vmem, ⟨47, _⟩ => ⟨S1000x256, .f32⟩
  | _, _ => ⟨S50000x1152, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst_0 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_c : Ref sig .tc := ⟨.hbm, 26, rfl⟩
abbrev main_v12 : Ref sig .tc := ⟨.hbm, 27, rfl⟩
abbrev main_v13 : Ref sig .tc := ⟨.hbm, 28, rfl⟩
abbrev main_c_1 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_c_2 : Ref sig .tc := ⟨.hbm, 36, rfl⟩
abbrev main_v20 : Ref sig .tc := ⟨.hbm, 37, rfl⟩
abbrev main_v21 : Ref sig .tc := ⟨.hbm, 38, rfl⟩
abbrev main_c_3 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29_0 : Ref sig .tc := ⟨.hbm, 47, rfl⟩
abbrev main_v29_1 : Ref sig .tc := ⟨.hbm, 48, rfl⟩
abbrev main_v30 : Ref sig .tc := ⟨.hbm, 49, rfl⟩
abbrev main_c_4 : Ref sig .tc := ⟨.hbm, 50, rfl⟩
abbrev main_v31 : Ref sig .tc := ⟨.hbm, 51, rfl⟩
abbrev main_v32 : Ref sig .tc := ⟨.hbm, 52, rfl⟩
abbrev main_c_5 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_6 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_cst_7 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_cst_8 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_c_9 : Ref sig .tc := ⟨.hbm, 76, rfl⟩
abbrev main_v52 : Ref sig .tc := ⟨.hbm, 77, rfl⟩
abbrev main_v53 : Ref sig .tc := ⟨.hbm, 78, rfl⟩
abbrev main_c_10 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_c_11 : Ref sig .tc := ⟨.hbm, 86, rfl⟩
abbrev main_v60 : Ref sig .tc := ⟨.hbm, 87, rfl⟩
abbrev main_v61 : Ref sig .tc := ⟨.hbm, 88, rfl⟩
abbrev main_c_12 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69_0 : Ref sig .tc := ⟨.hbm, 97, rfl⟩
abbrev main_v69_1 : Ref sig .tc := ⟨.hbm, 98, rfl⟩
abbrev main_v70 : Ref sig .tc := ⟨.hbm, 99, rfl⟩
abbrev main_c_13 : Ref sig .tc := ⟨.hbm, 100, rfl⟩
abbrev main_v71 : Ref sig .tc := ⟨.hbm, 101, rfl⟩
abbrev main_v72 : Ref sig .tc := ⟨.hbm, 102, rfl⟩
abbrev main_c_14 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_cst_15 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_cst_16 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_cst_17 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_c_18 : Ref sig .tc := ⟨.hbm, 126, rfl⟩
abbrev main_v92 : Ref sig .tc := ⟨.hbm, 127, rfl⟩
abbrev main_v93 : Ref sig .tc := ⟨.hbm, 128, rfl⟩
abbrev main_c_19 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_c_20 : Ref sig .tc := ⟨.hbm, 136, rfl⟩
abbrev main_v100 : Ref sig .tc := ⟨.hbm, 137, rfl⟩
abbrev main_v101 : Ref sig .tc := ⟨.hbm, 138, rfl⟩
abbrev main_c_21 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109_0 : Ref sig .tc := ⟨.hbm, 147, rfl⟩
abbrev main_v109_1 : Ref sig .tc := ⟨.hbm, 148, rfl⟩
abbrev main_v110 : Ref sig .tc := ⟨.hbm, 149, rfl⟩
abbrev main_c_22 : Ref sig .tc := ⟨.hbm, 150, rfl⟩
abbrev main_v111 : Ref sig .tc := ⟨.hbm, 151, rfl⟩
abbrev main_v112 : Ref sig .tc := ⟨.hbm, 152, rfl⟩
abbrev main_c_23 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_v118 : Ref sig .tc := ⟨.hbm, 159, rfl⟩
abbrev main_v119 : Ref sig .tc := ⟨.hbm, 160, rfl⟩
abbrev main_cst_24 : Ref sig .tc := ⟨.hbm, 161, rfl⟩
abbrev main_v120 : Ref sig .tc := ⟨.hbm, 162, rfl⟩
abbrev main_v121 : Ref sig .tc := ⟨.hbm, 163, rfl⟩
abbrev main_v122 : Ref sig .tc := ⟨.hbm, 164, rfl⟩
abbrev main_v123 : Ref sig .tc := ⟨.hbm, 165, rfl⟩
abbrev main_cst_25 : Ref sig .tc := ⟨.hbm, 166, rfl⟩
abbrev main_v124 : Ref sig .tc := ⟨.hbm, 167, rfl⟩
abbrev main_v125 : Ref sig .tc := ⟨.hbm, 168, rfl⟩
abbrev main_v126 : Ref sig .tc := ⟨.hbm, 169, rfl⟩
abbrev main_cst_26 : Ref sig .tc := ⟨.hbm, 170, rfl⟩
abbrev main_v127 : Ref sig .tc := ⟨.hbm, 171, rfl⟩
abbrev main_cst_27 : Ref sig .tc := ⟨.hbm, 172, rfl⟩
abbrev main_v128 : Ref sig .tc := ⟨.hbm, 173, rfl⟩
abbrev main_v129 : Ref sig .tc := ⟨.hbm, 174, rfl⟩
abbrev main_v130 : Ref sig .tc := ⟨.hbm, 175, rfl⟩
abbrev main_cst_28 : Ref sig .tc := ⟨.hbm, 176, rfl⟩
abbrev main_v131 : Ref sig .tc := ⟨.hbm, 177, rfl⟩
abbrev main_v132 : Ref sig .tc := ⟨.hbm, 178, rfl⟩
abbrev main_v133 : Ref sig .tc := ⟨.hbm, 179, rfl⟩
abbrev main_v134 : Ref sig .tc := ⟨.hbm, 180, rfl⟩
abbrev main_v135 : Ref sig .tc := ⟨.hbm, 181, rfl⟩
abbrev main_v136 : Ref sig .tc := ⟨.hbm, 182, rfl⟩
abbrev main_v137 : Ref sig .tc := ⟨.hbm, 183, rfl⟩
abbrev main_v138 : Ref sig .tc := ⟨.hbm, 184, rfl⟩
abbrev main_v139 : Ref sig .tc := ⟨.hbm, 185, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg2_1 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg4_1 : Ref sig .tc := ⟨.vmem, 23, rfl⟩
abbrev cc2_stg5_0 : Ref sig .tc := ⟨.vmem, 24, rfl⟩
abbrev cc2_stg5_1 : Ref sig .tc := ⟨.vmem, 25, rfl⟩
abbrev cc3_stg0_0 : Ref sig .tc := ⟨.vmem, 26, rfl⟩
abbrev cc3_stg0_1 : Ref sig .tc := ⟨.vmem, 27, rfl⟩
abbrev cc3_stg1_0 : Ref sig .tc := ⟨.vmem, 28, rfl⟩
abbrev cc3_stg1_1 : Ref sig .tc := ⟨.vmem, 29, rfl⟩
abbrev cc3_stg2_0 : Ref sig .tc := ⟨.vmem, 30, rfl⟩
abbrev cc3_stg2_1 : Ref sig .tc := ⟨.vmem, 31, rfl⟩
abbrev cc4_stg0_0 : Ref sig .tc := ⟨.vmem, 32, rfl⟩
abbrev cc4_stg0_1 : Ref sig .tc := ⟨.vmem, 33, rfl⟩
abbrev cc4_stg1_0 : Ref sig .tc := ⟨.vmem, 34, rfl⟩
abbrev cc4_stg2_0 : Ref sig .tc := ⟨.vmem, 35, rfl⟩
abbrev cc4_stg2_1 : Ref sig .tc := ⟨.vmem, 36, rfl⟩
abbrev cc4_stg3_0 : Ref sig .tc := ⟨.vmem, 37, rfl⟩
abbrev cc4_stg4_0 : Ref sig .tc := ⟨.vmem, 38, rfl⟩
abbrev cc4_stg4_1 : Ref sig .tc := ⟨.vmem, 39, rfl⟩
abbrev cc4_stg5_0 : Ref sig .tc := ⟨.vmem, 40, rfl⟩
abbrev cc4_stg5_1 : Ref sig .tc := ⟨.vmem, 41, rfl⟩
abbrev cc5_stg0_0 : Ref sig .tc := ⟨.vmem, 42, rfl⟩
abbrev cc5_stg0_1 : Ref sig .tc := ⟨.vmem, 43, rfl⟩
abbrev cc5_stg1_0 : Ref sig .tc := ⟨.vmem, 44, rfl⟩
abbrev cc5_stg1_1 : Ref sig .tc := ⟨.vmem, 45, rfl⟩
abbrev cc5_stg2_0 : Ref sig .tc := ⟨.vmem, 46, rfl⟩
abbrev cc5_stg2_1 : Ref sig .tc := ⟨.vmem, 47, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem2_1 : DmaSem sig := 20
abbrev cc2_sem3_0 : DmaSem sig := 21
abbrev cc2_sem4_0 : DmaSem sig := 22
abbrev cc2_sem4_1 : DmaSem sig := 23
abbrev cc2_sem5_0 : DmaSem sig := 24
abbrev cc2_sem5_1 : DmaSem sig := 25
abbrev cc3_sem0_0 : DmaSem sig := 26
abbrev cc3_sem0_1 : DmaSem sig := 27
abbrev cc3_sem1_0 : DmaSem sig := 28
abbrev cc3_sem1_1 : DmaSem sig := 29
abbrev cc3_sem2_0 : DmaSem sig := 30
abbrev cc3_sem2_1 : DmaSem sig := 31
abbrev cc4_sem0_0 : DmaSem sig := 32
abbrev cc4_sem0_1 : DmaSem sig := 33
abbrev cc4_sem1_0 : DmaSem sig := 34
abbrev cc4_sem2_0 : DmaSem sig := 35
abbrev cc4_sem2_1 : DmaSem sig := 36
abbrev cc4_sem3_0 : DmaSem sig := 37
abbrev cc4_sem4_0 : DmaSem sig := 38
abbrev cc4_sem4_1 : DmaSem sig := 39
abbrev cc4_sem5_0 : DmaSem sig := 40
abbrev cc4_sem5_1 : DmaSem sig := 41
abbrev cc5_sem0_0 : DmaSem sig := 42
abbrev cc5_sem0_1 : DmaSem sig := 43
abbrev cc5_sem1_0 : DmaSem sig := 44
abbrev cc5_sem1_1 : DmaSem sig := 45
abbrev cc5_sem2_0 : DmaSem sig := 46
abbrev cc5_sem2_1 : DmaSem sig := 47

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x1152 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1152x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1000x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1000x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1000x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S1000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S1000x256 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S1000x256 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1000x256 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S1000x256 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S1000x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S256x256 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S1000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S1x256 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S1000x256 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev stage4_5 : Fin 2 → Memref sig .tc .vmem S1000x256 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev grid5 : Pipeline.Grid := ⟨1, ![50], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S1000x256 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S1000x256 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S1000x256 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  bcast_S_S800000 : S_.BroadcastsInDim S800000 (![] : Fin 0 → Fin S800000.rank)
  shapeCasts_S256_S1x256 : S256.ShapeCasts S1x256
  inb_S1000x1152_S1000x1152_0_0 : ∀ a, (![0, 0] : Fin 2 → Nat) a + S1000x1152.size a ≤ S1000x1152.size a
  h_S1000x1152 : 0 < S1000x1152.numel
  bitsLt_bf16_f32 : FTy.bits .bf16 < FTy.bits .f32
  inb_S1152x256_S1152x256_0_0 : ∀ a, (![0, 0] : Fin 2 → Nat) a + S1152x256.size a ≤ S1152x256.size a
  h_S1152x256 : 0 < S1152x256.numel
  inb_S1000x256_S1000x256_0_0 : ∀ a, (![0, 0] : Fin 2 → Nat) a + S1000x256.size a ≤ S1000x256.size a
  h_S1000x256 : 0 < S1000x256.numel
  inb_S1000x1_S1000x1_0_0 : ∀ a, (![0, 0] : Fin 2 → Nat) a + S1000x1.size a ≤ S1000x1.size a
  h_S1000x1 : 0 < S1000x1.numel
  shapeCasts_S1000x1_S1000x1 : S1000x1.ShapeCasts S1000x1
  broadcasts_S1000x1_S1000x256 : S1000x1.Broadcasts S1000x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1000x256 : S1x256.Broadcasts S1000x256
  bcast_S800000x1_S800000x256_0_1 : S800000x1.BroadcastsInDim S800000x256 (![0, 1] : Fin 2 → Fin S800000x256.rank)
  bcast_S_S50000x256 : S_.BroadcastsInDim S50000x256 (![] : Fin 0 → Fin S50000x256.rank)
  shapeCasts_S1000x256_S1000x256 : S1000x256.ShapeCasts S1000x256
  inb_S256x256_S256x256_0_0 : ∀ a, (![0, 0] : Fin 2 → Nat) a + S256x256.size a ≤ S256x256.size a
  h_S256x256 : 0 < S256x256.numel
  bcast_S_S8x256 : S_.BroadcastsInDim S8x256 (![] : Fin 0 → Fin S8x256.rank)
  bcast_S50000_S50000x1_0 : S50000.BroadcastsInDim S50000x1 (![0] : Fin 1 → Fin S50000x1.rank)
  bcast_S_S8 : S_.BroadcastsInDim S8 (![] : Fin 0 → Fin S8.rank)
  bcast_S8_S8x1_0 : S8.BroadcastsInDim S8x1 (![0] : Fin 1 → Fin S8x1.rank)
  bcast_S8x1_S8x256_0_1 : S8x1.BroadcastsInDim S8x256 (![0, 1] : Fin 2 → Fin S8x256.rank)
  bcast_S2_S1x2_1 : S2.BroadcastsInDim S1x2 (![1] : Fin 1 → Fin S1x2.rank)
  bcast_S1x2_S8x2_0_1 : S1x2.BroadcastsInDim S8x2 (![0, 1] : Fin 2 → Fin S8x2.rank)
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  dot_S1000x1152_S1152x256_S1000x256_1_0_0_1_n_n_wf : DotDims.WF S1000x1152 S1152x256 S1000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S1000x256_S256x256_S1000x256_1_0_0_1_n_n_wf : DotDims.WF S1000x256 S256x256 S1000x256 [1] [0] [0] [1] [] []
  scatter_S8x256_S50000x1_S50000x256_1_0_0_1_wf : ScatterDims.WF S8x256 S50000x1 S50000x256 [1] [0] [0] 1
  scatter_S8_S50000x1_S50000_n_0_0_1_wf : ScatterDims.WF S8 S50000x1 S50000 [] [0] [0] 1
  dot_S8x256_S256x2_S8x2_1_0_0_1_n_n_wf : DotDims.WF S8x256 S256x2 S8x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x1152.size a ≤ S50000x1152.size a
  hwx0_0 : ∀ i : grid0.Coords, EltTy.bits .f32 = 32 ∨ (Rect.block (s := S50000x1152) S1000x1152.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1152x256.size a ≤ S1152x256.size a
  hwx0_1 : ∀ i : grid0.Coords, EltTy.bits .f32 = 32 ∨ (Rect.block (s := S1152x256) S1152x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x1.size a ≤ S50000x1.size a
  hwx0_2 : ∀ i : grid0.Coords, EltTy.bits .f32 = 32 ∨ (Rect.block (s := S50000x1) S1000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1000x256.size a ≤ S50000x256.size a
  hwx0_4 : ∀ i : grid0.Coords, EltTy.bits .f32 = 32 ∨ (Rect.block (s := S50000x256) S1000x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1000x256.size a ≤ S50000x256.size a
  hwx0_5 : ∀ i : grid0.Coords, EltTy.bits .f32 = 32 ∨ (Rect.block (s := S50000x256) S1000x256.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x256.size a ≤ S50000x256.size a
  hwx1_0 : ∀ i : grid1.Coords, EltTy.bits .f32 = 32 ∨ (Rect.block (s := S50000x256) S1000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1000x256.size a ≤ S50000x256.size a
  hwx1_1 : ∀ i : grid1.Coords, EltTy.bits .f32 = 32 ∨ (Rect.block (s := S50000x256) S1000x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1000x256.size a ≤ S50000x256.size a
  hwx1_2 : ∀ i : grid1.Coords, EltTy.bits .f32 = 32 ∨ (Rect.block (s := S50000x256) S1000x256.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1000x256.size a ≤ S50000x256.size a
  hwx2_0 : ∀ i : grid2.Coords, EltTy.bits .f32 = 32 ∨ (Rect.block (s := S50000x256) S1000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x256.size a ≤ S256x256.size a
  hwx2_1 : ∀ i : grid2.Coords, EltTy.bits .f32 = 32 ∨ (Rect.block (s := S256x256) S256x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1000x1.size a ≤ S50000x1.size a
  hwx2_2 : ∀ i : grid2.Coords, EltTy.bits .f32 = 32 ∨ (Rect.block (s := S50000x1) S1000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x256.size a ≤ S1x256.size a
  hwx2_3 : ∀ i : grid2.Coords, EltTy.bits .f32 = 32 ∨ (Rect.block (s := S1x256) S1x256.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1000x256.size a ≤ S50000x256.size a
  hwx2_4 : ∀ i : grid2.Coords, EltTy.bits .f32 = 32 ∨ (Rect.block (s := S50000x256) S1000x256.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S1000x256.size a ≤ S50000x256.size a
  hwx2_5 : ∀ i : grid2.Coords, EltTy.bits .f32 = 32 ∨ (Rect.block (s := S50000x256) S1000x256.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1000x256.size a ≤ S50000x256.size a
  hwx3_0 : ∀ i : grid3.Coords, EltTy.bits .f32 = 32 ∨ (Rect.block (s := S50000x256) S1000x256.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1000x256.size a ≤ S50000x256.size a
  hwx3_1 : ∀ i : grid3.Coords, EltTy.bits .f32 = 32 ∨ (Rect.block (s := S50000x256) S1000x256.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1000x256.size a ≤ S50000x256.size a
  hwx3_2 : ∀ i : grid3.Coords, EltTy.bits .f32 = 32 ∨ (Rect.block (s := S50000x256) S1000x256.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1000x256.size a ≤ S50000x256.size a
  hwx4_0 : ∀ i : grid4.Coords, EltTy.bits .f32 = 32 ∨ (Rect.block (s := S50000x256) S1000x256.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S256x256.size a ≤ S256x256.size a
  hwx4_1 : ∀ i : grid4.Coords, EltTy.bits .f32 = 32 ∨ (Rect.block (s := S256x256) S256x256.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S1000x1.size a ≤ S50000x1.size a
  hwx4_2 : ∀ i : grid4.Coords, EltTy.bits .f32 = 32 ∨ (Rect.block (s := S50000x1) S1000x1.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x256.size a ≤ S1x256.size a
  hwx4_3 : ∀ i : grid4.Coords, EltTy.bits .f32 = 32 ∨ (Rect.block (s := S1x256) S1x256.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S1000x256.size a ≤ S50000x256.size a
  hwx4_4 : ∀ i : grid4.Coords, EltTy.bits .f32 = 32 ∨ (Rect.block (s := S50000x256) S1000x256.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S1000x256.size a ≤ S50000x256.size a
  hwx4_5 : ∀ i : grid4.Coords, EltTy.bits .f32 = 32 ∨ (Rect.block (s := S50000x256) S1000x256.size (cc4_transform_5 i) (hinb4_5 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S1000x256.size a ≤ S50000x256.size a
  hwx5_0 : ∀ i : grid5.Coords, EltTy.bits .f32 = 32 ∨ (Rect.block (s := S50000x256) S1000x256.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S1000x256.size a ≤ S50000x256.size a
  hwx5_1 : ∀ i : grid5.Coords, EltTy.bits .f32 = 32 ∨ (Rect.block (s := S50000x256) S1000x256.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S1000x256.size a ≤ S50000x256.size a
  hwx5_2 : ∀ i : grid5.Coords, EltTy.bits .f32 = 32 ∨ (Rect.block (s := S50000x256) S1000x256.size (cc5_transform_2 i) (hinb5_2 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S1000x1152_S1152x256_S1000x256_1_0_0_1_n_n : DotDims S1000x1152 S1152x256 S1000x256 where
  lhsContracting := [1]
  rhsContracting := [0]
  lhsNonContracting := [0]
  rhsNonContracting := [1]
  lhsBatch := []
  rhsBatch := []
  wf := dot_S1000x1152_S1152x256_S1000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S1000x256_S256x256_S1000x256_1_0_0_1_n_n : DotDims S1000x256 S256x256 S1000x256 where
  lhsContracting := [1]
  rhsContracting := [0]
  lhsNonContracting := [0]
  rhsNonContracting := [1]
  lhsBatch := []
  rhsBatch := []
  wf := dot_S1000x256_S256x256_S1000x256_1_0_0_1_n_n_wf
def scatter_S8x256_S50000x1_S50000x256_1_0_0_1 : ScatterDims S8x256 S50000x1 S50000x256 where
  updateWindowDims := [1]
  insertedWindowDims := [0]
  scatterDimsToOperandDims := [0]
  indexVectorDim := 1
  wf := scatter_S8x256_S50000x1_S50000x256_1_0_0_1_wf
def scatter_S8_S50000x1_S50000_n_0_0_1 : ScatterDims S8 S50000x1 S50000 where
  updateWindowDims := []
  insertedWindowDims := [0]
  scatterDimsToOperandDims := [0]
  indexVectorDim := 1
  wf := scatter_S8_S50000x1_S50000_n_0_0_1_wf
def dot_S8x256_S256x2_S8x2_1_0_0_1_n_n : DotDims S8x256 S256x2 S8x2 where
  lhsContracting := [1]
  rhsContracting := [0]
  lhsNonContracting := [0]
  rhsNonContracting := [1]
  lhsBatch := []
  rhsBatch := []
  wf := dot_S8x256_S256x2_S8x2_1_0_0_1_n_n_wf

abbrev win0_0 : Pipeline.Window sig grid0 :=
  Pipeline.Window.ofSpec (Memref.whole main_arg0) S1000x1152.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S1152x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S1000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v28) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v29_0) S1000x256.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v29_1) S1000x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v42) S1000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v29_1) S1000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v43) S1000x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v43) S1000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S256x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v51) S1000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v68) S1x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v69_0) S1000x256.size cc2_transform_4 reads2_4 true false 2 stage2_4 sem2_4
    hrank2 hreads2_4 hinb2_4 nbuf2_4 (Memref.isWhole_whole _) hwx2_4 hstage2_4

abbrev win2_5 : Pipeline.Window sig grid2 :=
  Pipeline.Window.ofSpec (Memref.whole main_v69_1) S1000x256.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v82) S1000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v69_1) S1000x256.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v83) S1000x256.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v83) S1000x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg8) S256x256.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v91) S1000x1.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v108) S1x256.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v109_0) S1000x256.size cc4_transform_4 reads4_4 true false 2 stage4_4 sem4_4
    hrank4 hreads4_4 hinb4_4 nbuf4_4 (Memref.isWhole_whole _) hwx4_4 hstage4_4

abbrev win4_5 : Pipeline.Window sig grid4 :=
  Pipeline.Window.ofSpec (Memref.whole main_v109_1) S1000x256.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_v122) S1000x256.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v109_1) S1000x256.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v123) S1000x256.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S50000x1152 : Shape := ⟨2, ![50000, 1152]⟩
abbrev S2x800000 : Shape := ⟨2, ![2, 800000]⟩
abbrev S800000 : Shape := ⟨1, ![800000]⟩
abbrev S50000 : Shape := ⟨1, ![50000]⟩
abbrev S1152x256 : Shape := ⟨2, ![1152, 256]⟩
abbrev S256 : Shape := ⟨1, ![256]⟩
abbrev S256x256 : Shape := ⟨2, ![256, 256]⟩
abbrev S256x2 : Shape := ⟨2, ![256, 2]⟩
abbrev S2 : Shape := ⟨1, ![2]⟩
abbrev S1x800000 : Shape := ⟨2, ![1, 800000]⟩
abbrev S50000x256 : Shape := ⟨2, ![50000, 256]⟩
abbrev S_ : Shape := ⟨0, ![]⟩
abbrev S800000x1 : Shape := ⟨2, ![800000, 1]⟩
abbrev S800000x256 : Shape := ⟨2, ![800000, 256]⟩
abbrev S50000x1 : Shape := ⟨2, ![50000, 1]⟩
abbrev S1x256 : Shape := ⟨2, ![1, 256]⟩
abbrev S8x256 : Shape := ⟨2, ![8, 256]⟩
abbrev S8 : Shape := ⟨1, ![8]⟩
abbrev S8x1 : Shape := ⟨2, ![8, 1]⟩
abbrev S8x2 : Shape := ⟨2, ![8, 2]⟩
abbrev S1x2 : Shape := ⟨2, ![1, 2]⟩

abbrev nBuf : Space → Nat
  | .hbm => 201
  | .vmem => 0
  | .smem => 0
  | _ => 0

abbrev hbmTy0_0 (i : Nat) : BufTy := match i % 128 with
  | 0 => ⟨S50000x1152, .f32⟩
  | 1 => ⟨S2x800000, .i32⟩
  | 2 => ⟨S800000, .f32⟩
  | 3 => ⟨S50000, .i32⟩
  | 4 => ⟨S1152x256, .f32⟩
  | 5 => ⟨S256, .f32⟩
  | 6 => ⟨S256x256, .f32⟩
  | 7 => ⟨S256, .f32⟩
  | 8 => ⟨S256x256, .f32⟩
  | 9 => ⟨S256, .f32⟩
  | 10 => ⟨S256x2, .f32⟩
  | 11 => ⟨S2, .f32⟩
  | 12 => ⟨S1x800000, .i32⟩
  | 13 => ⟨S800000, .i32⟩
  | 14 => ⟨S1x800000, .i32⟩
  | 15 => ⟨S800000, .i32⟩
  | 16 => ⟨S50000x256, .f32⟩
  | 17 => ⟨S_, .f32⟩
  | 18 => ⟨S50000, .f32⟩
  | 19 => ⟨S800000x1, .i32⟩
  | 20 => ⟨S50000, .f32⟩
  | 21 => ⟨S_, .f32⟩
  | 22 => ⟨S50000, .f32⟩
  | 23 => ⟨S50000, .f32⟩
  | 24 => ⟨S50000, .f32⟩
  | 25 => ⟨S_, .i32⟩
  | 26 => ⟨S800000, .i32⟩
  | 27 => ⟨S800000, .i1⟩
  | 28 => ⟨S_, .i32⟩
  | 29 => ⟨S800000, .i32⟩
  | 30 => ⟨S800000, .i32⟩
  | 31 => ⟨S800000, .i32⟩
  | 32 => ⟨S800000x1, .i32⟩
  | 33 => ⟨S800000, .f32⟩
  | 34 => ⟨S800000, .f32⟩
  | 35 => ⟨S_, .i32⟩
  | 36 => ⟨S800000, .i32⟩
  | 37 => ⟨S800000, .i1⟩
  | 38 => ⟨S_, .i32⟩
  | 39 => ⟨S800000, .i32⟩
  | 40 => ⟨S800000, .i32⟩
  | 41 => ⟨S800000, .i32⟩
  | 42 => ⟨S800000x1, .i32⟩
  | 43 => ⟨S800000, .f32⟩
  | 44 => ⟨S800000, .f32⟩
  | 45 => ⟨S800000x1, .f32⟩
  | 46 => ⟨S_, .i32⟩
  | 47 => ⟨S800000, .i32⟩
  | 48 => ⟨S800000, .i1⟩
  | 49 => ⟨S_, .i32⟩
  | 50 => ⟨S800000, .i32⟩
  | 51 => ⟨S800000, .i32⟩
  | 52 => ⟨S800000, .i32⟩
  | 53 => ⟨S800000x1, .i32⟩
  | 54 => ⟨S800000x256, .f32⟩
  | 55 => ⟨S800000x256, .f32⟩
  | 56 => ⟨S800000x256, .f32⟩
  | 57 => ⟨S_, .f32⟩
  | 58 => ⟨S50000x256, .f32⟩
  | 59 => ⟨S800000x1, .i32⟩
  | 60 => ⟨S50000x256, .f32⟩
  | 61 => ⟨S50000, .f32⟩
  | 62 => ⟨S50000x1, .f32⟩
  | 63 => ⟨S50000x256, .f32⟩
  | 64 => ⟨S50000x256, .f32⟩
  | 65 => ⟨S50000x256, .f32⟩
  | 66 => ⟨S1x256, .f32⟩
  | 67 => ⟨S50000x256, .f32⟩
  | 68 => ⟨S50000x256, .f32⟩
  | 69 => ⟨S_, .f32⟩
  | 70 => ⟨S50000x256, .f32⟩
  | 71 => ⟨S50000x256, .f32⟩
  | 72 => ⟨S50000x256, .f32⟩
  | 73 => ⟨S_, .f32⟩
  | 74 => ⟨S50000, .f32⟩
  | 75 => ⟨S800000x1, .i32⟩
  | 76 => ⟨S50000, .f32⟩
  | 77 => ⟨S_, .f32⟩
  | 78 => ⟨S50000, .f32⟩
  | 79 => ⟨S50000, .f32⟩
  | 80 => ⟨S50000, .f32⟩
  | 81 => ⟨S_, .i32⟩
  | 82 => ⟨S800000, .i32⟩
  | 83 => ⟨S800000, .i1⟩
  | 84 => ⟨S_, .i32⟩
  | 85 => ⟨S800000, .i32⟩
  | 86 => ⟨S800000, .i32⟩
  | 87 => ⟨S800000, .i32⟩
  | 88 => ⟨S800000x1, .i32⟩
  | 89 => ⟨S800000, .f32⟩
  | 90 => ⟨S800000, .f32⟩
  | 91 => ⟨S_, .i32⟩
  | 92 => ⟨S800000, .i32⟩
  | 93 => ⟨S800000, .i1⟩
  | 94 => ⟨S_, .i32⟩
  | 95 => ⟨S800000, .i32⟩
  | 96 => ⟨S800000, .i32⟩
  | 97 => ⟨S800000, .i32⟩
  | 98 => ⟨S800000x1, .i32⟩
  | 99 => ⟨S800000, .f32⟩
  | 100 => ⟨S800000, .f32⟩
  | 101 => ⟨S800000x1, .f32⟩
  | 102 => ⟨S_, .i32⟩
  | 103 => ⟨S800000, .i32⟩
  | 104 => ⟨S800000, .i1⟩
  | 105 => ⟨S_, .i32⟩
  | 106 => ⟨S800000, .i32⟩
  | 107 => ⟨S800000, .i32⟩
  | 108 => ⟨S800000, .i32⟩
  | 109 => ⟨S800000x1, .i32⟩
  | 110 => ⟨S800000x256, .f32⟩
  | 111 => ⟨S800000x256, .f32⟩
  | 112 => ⟨S800000x256, .f32⟩
  | 113 => ⟨S_, .f32⟩
  | 114 => ⟨S50000x256, .f32⟩
  | 115 => ⟨S800000x1, .i32⟩
  | 116 => ⟨S50000x256, .f32⟩
  | 117 => ⟨S50000, .f32⟩
  | 118 => ⟨S50000x1, .f32⟩
  | 119 => ⟨S50000x256, .f32⟩
  | 120 => ⟨S50000x256, .f32⟩
  | 121 => ⟨S50000x256, .f32⟩
  | 122 => ⟨S1x256, .f32⟩
  | 123 => ⟨S50000x256, .f32⟩
  | 124 => ⟨S50000x256, .f32⟩
  | 125 => ⟨S_, .f32⟩
  | 126 => ⟨S50000x256, .f32⟩
  | 127 => ⟨S50000x256, .f32⟩
  | _ => ⟨S50000x1152, .f32⟩

abbrev hbmTy0_1 (i : Nat) : BufTy := match i % 128 with
  | 0 => ⟨S50000x256, .f32⟩
  | 1 => ⟨S_, .f32⟩
  | 2 => ⟨S50000, .f32⟩
  | 3 => ⟨S800000x1, .i32⟩
  | 4 => ⟨S50000, .f32⟩
  | 5 => ⟨S_, .f32⟩
  | 6 => ⟨S50000, .f32⟩
  | 7 => ⟨S50000, .f32⟩
  | 8 => ⟨S50000, .f32⟩
  | 9 => ⟨S_, .i32⟩
  | 10 => ⟨S800000, .i32⟩
  | 11 => ⟨S800000, .i1⟩
  | 12 => ⟨S_, .i32⟩
  | 13 => ⟨S800000, .i32⟩
  | 14 => ⟨S800000, .i32⟩
  | 15 => ⟨S800000, .i32⟩
  | 16 => ⟨S800000x1, .i32⟩
  | 17 => ⟨S800000, .f32⟩
  | 18 => ⟨S800000, .f32⟩
  | 19 => ⟨S_, .i32⟩
  | 20 => ⟨S800000, .i32⟩
  | 21 => ⟨S800000, .i1⟩
  | 22 => ⟨S_, .i32⟩
  | 23 => ⟨S800000, .i32⟩
  | 24 => ⟨S800000, .i32⟩
  | 25 => ⟨S800000, .i32⟩
  | 26 => ⟨S800000x1, .i32⟩
  | 27 => ⟨S800000, .f32⟩
  | 28 => ⟨S800000, .f32⟩
  | 29 => ⟨S800000x1, .f32⟩
  | 30 => ⟨S_, .i32⟩
  | 31 => ⟨S800000, .i32⟩
  | 32 => ⟨S800000, .i1⟩
  | 33 => ⟨S_, .i32⟩
  | 34 => ⟨S800000, .i32⟩
  | 35 => ⟨S800000, .i32⟩
  | 36 => ⟨S800000, .i32⟩
  | 37 => ⟨S800000x1, .i32⟩
  | 38 => ⟨S800000x256, .f32⟩
  | 39 => ⟨S800000x256, .f32⟩
  | 40 => ⟨S800000x256, .f32⟩
  | 41 => ⟨S_, .f32⟩
  | 42 => ⟨S50000x256, .f32⟩
  | 43 => ⟨S800000x1, .i32⟩
  | 44 => ⟨S50000x256, .f32⟩
  | 45 => ⟨S50000, .f32⟩
  | 46 => ⟨S50000x1, .f32⟩
  | 47 => ⟨S50000x256, .f32⟩
  | 48 => ⟨S50000x256, .f32⟩
  | 49 => ⟨S50000x256, .f32⟩
  | 50 => ⟨S1x256, .f32⟩
  | 51 => ⟨S50000x256, .f32⟩
  | 52 => ⟨S50000x256, .f32⟩
  | 53 => ⟨S_, .f32⟩
  | 54 => ⟨S8x256, .f32⟩
  | 55 => ⟨S50000x1, .i32⟩
  | 56 => ⟨S8x256, .f32⟩
  | 57 => ⟨S_, .f32⟩
  | 58 => ⟨S50000, .f32⟩
  | 59 => ⟨S_, .f32⟩
  | 60 => ⟨S8, .f32⟩
  | 61 => ⟨S50000x1, .i32⟩
  | 62 => ⟨S8, .f32⟩
  | 63 => ⟨S_, .f32⟩
  | 64 => ⟨S8, .f32⟩
  | 65 => ⟨S8, .f32⟩
  | 66 => ⟨S8x1, .f32⟩
  | 67 => ⟨S8x256, .f32⟩
  | 68 => ⟨S8x256, .f32⟩
  | 69 => ⟨S8x2, .f32⟩
  | 70 => ⟨S1x2, .f32⟩
  | 71 => ⟨S8x2, .f32⟩
  | 72 => ⟨S8x2, .f32⟩
  | _ => ⟨S50000x1152, .f32⟩

abbrev hbmTy (i : Nat) : BufTy := match i / 128 with
  | 0 => hbmTy0_0 i
  | 1 => hbmTy0_1 i
  | _ => ⟨S50000x1152, .f32⟩

abbrev bufTy : (tb : Table) → Fin (tcTables nBuf tb) → BufTy
  | .hbm, ⟨i, _⟩ => hbmTy i
  | _, _ => ⟨S50000x1152, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_cst : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_c : Ref sig .tc := ⟨.hbm, 25, rfl⟩
abbrev main_v11 : Ref sig .tc := ⟨.hbm, 26, rfl⟩
abbrev main_v12 : Ref sig .tc := ⟨.hbm, 27, rfl⟩
abbrev main_c_1 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_c_2 : Ref sig .tc := ⟨.hbm, 35, rfl⟩
abbrev main_v19 : Ref sig .tc := ⟨.hbm, 36, rfl⟩
abbrev main_v20 : Ref sig .tc := ⟨.hbm, 37, rfl⟩
abbrev main_c_3 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_c_4 : Ref sig .tc := ⟨.hbm, 46, rfl⟩
abbrev main_v28 : Ref sig .tc := ⟨.hbm, 47, rfl⟩
abbrev main_v29 : Ref sig .tc := ⟨.hbm, 48, rfl⟩
abbrev main_c_5 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_6 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_call0_cst : Ref sig .tc := ⟨.hbm, 69, rfl⟩
abbrev main_call0_v0 : Ref sig .tc := ⟨.hbm, 70, rfl⟩
abbrev main_v48 : Ref sig .tc := ⟨.hbm, 71, rfl⟩
abbrev main_v49 : Ref sig .tc := ⟨.hbm, 72, rfl⟩
abbrev main_cst_7 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_cst_8 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_c_9 : Ref sig .tc := ⟨.hbm, 81, rfl⟩
abbrev main_v56 : Ref sig .tc := ⟨.hbm, 82, rfl⟩
abbrev main_v57 : Ref sig .tc := ⟨.hbm, 83, rfl⟩
abbrev main_c_10 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_c_11 : Ref sig .tc := ⟨.hbm, 91, rfl⟩
abbrev main_v64 : Ref sig .tc := ⟨.hbm, 92, rfl⟩
abbrev main_v65 : Ref sig .tc := ⟨.hbm, 93, rfl⟩
abbrev main_c_12 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_c_13 : Ref sig .tc := ⟨.hbm, 102, rfl⟩
abbrev main_v73 : Ref sig .tc := ⟨.hbm, 103, rfl⟩
abbrev main_v74 : Ref sig .tc := ⟨.hbm, 104, rfl⟩
abbrev main_c_14 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_cst_15 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_call1_cst : Ref sig .tc := ⟨.hbm, 125, rfl⟩
abbrev main_call1_v0 : Ref sig .tc := ⟨.hbm, 126, rfl⟩
abbrev main_v93 : Ref sig .tc := ⟨.hbm, 127, rfl⟩
abbrev main_v94 : Ref sig .tc := ⟨.hbm, 128, rfl⟩
abbrev main_cst_16 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_cst_17 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_c_18 : Ref sig .tc := ⟨.hbm, 137, rfl⟩
abbrev main_v101 : Ref sig .tc := ⟨.hbm, 138, rfl⟩
abbrev main_v102 : Ref sig .tc := ⟨.hbm, 139, rfl⟩
abbrev main_c_19 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_c_20 : Ref sig .tc := ⟨.hbm, 147, rfl⟩
abbrev main_v109 : Ref sig .tc := ⟨.hbm, 148, rfl⟩
abbrev main_v110 : Ref sig .tc := ⟨.hbm, 149, rfl⟩
abbrev main_c_21 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_v116 : Ref sig .tc := ⟨.hbm, 156, rfl⟩
abbrev main_v117 : Ref sig .tc := ⟨.hbm, 157, rfl⟩
abbrev main_c_22 : Ref sig .tc := ⟨.hbm, 158, rfl⟩
abbrev main_v118 : Ref sig .tc := ⟨.hbm, 159, rfl⟩
abbrev main_v119 : Ref sig .tc := ⟨.hbm, 160, rfl⟩
abbrev main_c_23 : Ref sig .tc := ⟨.hbm, 161, rfl⟩
abbrev main_v120 : Ref sig .tc := ⟨.hbm, 162, rfl⟩
abbrev main_v121 : Ref sig .tc := ⟨.hbm, 163, rfl⟩
abbrev main_v122 : Ref sig .tc := ⟨.hbm, 164, rfl⟩
abbrev main_v123 : Ref sig .tc := ⟨.hbm, 165, rfl⟩
abbrev main_v124 : Ref sig .tc := ⟨.hbm, 166, rfl⟩
abbrev main_v125 : Ref sig .tc := ⟨.hbm, 167, rfl⟩
abbrev main_v126 : Ref sig .tc := ⟨.hbm, 168, rfl⟩
abbrev main_cst_24 : Ref sig .tc := ⟨.hbm, 169, rfl⟩
abbrev main_v127 : Ref sig .tc := ⟨.hbm, 170, rfl⟩
abbrev main_v128 : Ref sig .tc := ⟨.hbm, 171, rfl⟩
abbrev main_v129 : Ref sig .tc := ⟨.hbm, 172, rfl⟩
abbrev main_v130 : Ref sig .tc := ⟨.hbm, 173, rfl⟩
abbrev main_v131 : Ref sig .tc := ⟨.hbm, 174, rfl⟩
abbrev main_v132 : Ref sig .tc := ⟨.hbm, 175, rfl⟩
abbrev main_v133 : Ref sig .tc := ⟨.hbm, 176, rfl⟩
abbrev main_v134 : Ref sig .tc := ⟨.hbm, 177, rfl⟩
abbrev main_v135 : Ref sig .tc := ⟨.hbm, 178, rfl⟩
abbrev main_v136 : Ref sig .tc := ⟨.hbm, 179, rfl⟩
abbrev main_v137 : Ref sig .tc := ⟨.hbm, 180, rfl⟩
abbrev main_cst_25 : Ref sig .tc := ⟨.hbm, 181, rfl⟩
abbrev main_v138 : Ref sig .tc := ⟨.hbm, 182, rfl⟩
abbrev main_v139 : Ref sig .tc := ⟨.hbm, 183, rfl⟩
abbrev main_v140 : Ref sig .tc := ⟨.hbm, 184, rfl⟩
abbrev main_cst_26 : Ref sig .tc := ⟨.hbm, 185, rfl⟩
abbrev main_v141 : Ref sig .tc := ⟨.hbm, 186, rfl⟩
abbrev main_cst_27 : Ref sig .tc := ⟨.hbm, 187, rfl⟩
abbrev main_v142 : Ref sig .tc := ⟨.hbm, 188, rfl⟩
abbrev main_v143 : Ref sig .tc := ⟨.hbm, 189, rfl⟩
abbrev main_v144 : Ref sig .tc := ⟨.hbm, 190, rfl⟩
abbrev main_cst_28 : Ref sig .tc := ⟨.hbm, 191, rfl⟩
abbrev main_v145 : Ref sig .tc := ⟨.hbm, 192, rfl⟩
abbrev main_v146 : Ref sig .tc := ⟨.hbm, 193, rfl⟩
abbrev main_v147 : Ref sig .tc := ⟨.hbm, 194, rfl⟩
abbrev main_v148 : Ref sig .tc := ⟨.hbm, 195, rfl⟩
abbrev main_v149 : Ref sig .tc := ⟨.hbm, 196, rfl⟩
abbrev main_v150 : Ref sig .tc := ⟨.hbm, 197, rfl⟩
abbrev main_v151 : Ref sig .tc := ⟨.hbm, 198, rfl⟩
abbrev main_v152 : Ref sig .tc := ⟨.hbm, 199, rfl⟩
abbrev main_v153 : Ref sig .tc := ⟨.hbm, 200, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S50000 : S_.BroadcastsInDim S50000 (![] : Fin 0 → Fin S50000.rank)
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x256_0_1 : S800000x1.BroadcastsInDim S800000x256 (![0, 1] : Fin 2 → Fin S800000x256.rank)
  bcast_S_S50000x256 : S_.BroadcastsInDim S50000x256 (![] : Fin 0 → Fin S50000x256.rank)
  bcast_S50000_S50000x1_0 : S50000.BroadcastsInDim S50000x1 (![0] : Fin 1 → Fin S50000x1.rank)
  bcast_S50000x1_S50000x256_0_1 : S50000x1.BroadcastsInDim S50000x256 (![0, 1] : Fin 2 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S8x256 : S_.BroadcastsInDim S8x256 (![] : Fin 0 → Fin S8x256.rank)
  bcast_S_S8 : S_.BroadcastsInDim S8 (![] : Fin 0 → Fin S8.rank)
  bcast_S8_S8x1_0 : S8.BroadcastsInDim S8x1 (![0] : Fin 1 → Fin S8x1.rank)
  bcast_S8x1_S8x256_0_1 : S8x1.BroadcastsInDim S8x256 (![0, 1] : Fin 2 → Fin S8x256.rank)
  bcast_S2_S1x2_1 : S2.BroadcastsInDim S1x2 (![1] : Fin 1 → Fin S1x2.rank)
  bcast_S1x2_S8x2_0_1 : S1x2.BroadcastsInDim S8x2 (![0, 1] : Fin 2 → Fin S8x2.rank)
  dot_S50000x1152_S1152x256_S50000x256_1_0_0_1_n_n_wf : DotDims.WF S50000x1152 S1152x256 S50000x256 [1] [0] [0] [1] [] []
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x256_S50000x256_1_0_0_1_n_n_wf : DotDims.WF S50000x256 S256x256 S50000x256 [1] [0] [0] [1] [] []
  scatter_S8x256_S50000x1_S50000x256_1_0_0_1_wf : ScatterDims.WF S8x256 S50000x1 S50000x256 [1] [0] [0] 1
  scatter_S8_S50000x1_S50000_n_0_0_1_wf : ScatterDims.WF S8 S50000x1 S50000 [] [0] [0] 1
  dot_S8x256_S256x2_S8x2_1_0_0_1_n_n_wf : DotDims.WF S8x256 S256x2 S8x2 [1] [0] [0] [1] [] []

variable [Facts₀]

def dot_S50000x1152_S1152x256_S50000x256_1_0_0_1_n_n : DotDims S50000x1152 S1152x256 S50000x256 where
  lhsContracting := [1]
  rhsContracting := [0]
  lhsNonContracting := [0]
  rhsNonContracting := [1]
  lhsBatch := []
  rhsBatch := []
  wf := dot_S50000x1152_S1152x256_S50000x256_1_0_0_1_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def scatter_S8x256_S50000x1_S50000x256_1_0_0_1 : ScatterDims S8x256 S50000x1 S50000x256 where
  updateWindowDims := [1]
  insertedWindowDims := [0]
  scatterDimsToOperandDims := [0]
  indexVectorDim := 1
  wf := scatter_S8x256_S50000x1_S50000x256_1_0_0_1_wf
def scatter_S8_S50000x1_S50000_n_0_0_1 : ScatterDims S8 S50000x1 S50000 where
  updateWindowDims := []
  insertedWindowDims := [0]
  scatterDimsToOperandDims := [0]
  indexVectorDim := 1
  wf := scatter_S8_S50000x1_S50000_n_0_0_1_wf
def dot_S8x256_S256x2_S8x2_1_0_0_1_n_n : DotDims S8x256 S256x2 S8x2 where
  lhsContracting := [1]
  rhsContracting := [0]
  lhsNonContracting := [0]
  rhsNonContracting := [1]
  lhsBatch := []
  rhsBatch := []
  wf := dot_S8x256_S256x2_S8x2_1_0_0_1_n_n_wf

class Facts : Prop extends Facts₀ where

variable [Facts]
-- ==== Proof.KRun.lean ====
/-
  The idealized kernel's run with its result named.

  The program is six pipelined regions among seven stretches of host operations. The buffer contents at each segment
  boundary are a fold from the launch memory: a stretch applies its operations, a region replaces its arrays by what
  its write-backs leave. Every weakly fair execution terminates without a fault, and the final memory holds, at every
  unscoped buffer, the last boundary's contents; read at the result buffer and at the twelve argument buffers this is
  the statement below: the result is the fold's value at the result buffer, the arguments are as launched.
-/
import proofs.«140916_j89816356094415_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the fold's
    last boundary contents and the argument arrays as launched. -/
theorem run : θ_run defs (onTc (τ := τ) (main (F := F))) ⟨m, fun _ => 0, ρ⟩ (fun r => ∀ c : Dev nD,
      r.2.mem ((c.tc : Thread nD τ).loc main_v139) = W13 m ρ c (Proc.devRef .tc main_v139)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h c =>
      ⟨h c _ (mem_uc main_v139 (by decide)),
       (h c _ (mem_uc main_arg0 (by decide))).trans (W13_main_arg0 m ρ c),
       (h c _ (mem_uc main_arg1 (by decide))).trans (W13_main_arg1 m ρ c),
       (h c _ (mem_uc main_arg2 (by decide))).trans (W13_main_arg2 m ρ c),
       (h c _ (mem_uc main_arg3 (by decide))).trans (W13_main_arg3 m ρ c),
       (h c _ (mem_uc main_arg4 (by decide))).trans (W13_main_arg4 m ρ c),
       (h c _ (mem_uc main_arg5 (by decide))).trans (W13_main_arg5 m ρ c),
       (h c _ (mem_uc main_arg6 (by decide))).trans (W13_main_arg6 m ρ c),
       (h c _ (mem_uc main_arg7 (by decide))).trans (W13_main_arg7 m ρ c),
       (h c _ (mem_uc main_arg8 (by decide))).trans (W13_main_arg8 m ρ c),
       (h c _ (mem_uc main_arg9 (by decide))).trans (W13_main_arg9 m ρ c),
       (h c _ (mem_uc main_arg10 (by decide))).trans (W13_main_arg10 m ρ c),
       (h c _ (mem_uc main_arg11 (by decide))).trans (W13_main_arg11 m ρ c)⟩)

end Cert.KernelIdeal.KRun

end
-- ==== Proof.LibPlainDot.lean ====
/-
  A plain matrix product read at an index.

  The dimension numbers of an [a, c] × [c, b] → [a, b] product contract the left operand's axis 1 with the right
  operand's axis 0 and have no batch axis. At result index (p, q) and contraction position k the left operand is
  read at (p, k) and the right operand at (k, q), so the sum over the contraction shape's one-axis index set is the
  sum over k : Fin c of lhs (p, k) * rhs (k, q) — in any commutative additive monoid with a product, the extended
  reals included. The statement is over variable extents; a printed record with these six lists is this one by
  reflexivity.
-/
import Idealize.ShloMosaic.Lib.ValueIdx
import Idealize.ShloMosaic.PureOps.Ideal.Laws

noncomputable section

namespace Cert.Lib.PlainDot

open Idealize.ShloMosaic Idealize.ShloMosaic.ValueIdx
open scoped BigOperators

variable {a c b : Nat}

/-- The dimension numbers of the plain product [a, c] × [c, b] → [a, b]. -/
abbrev dims (wf : DotDims.WF ⟨2, ![a, c]⟩ ⟨2, ![c, b]⟩ ⟨2, ![a, b]⟩ [1] [0] [0] [1] [] []) :
    DotDims ⟨2, ![a, c]⟩ ⟨2, ![c, b]⟩ ⟨2, ![a, b]⟩ where
  lhsContracting := [1]
  rhsContracting := [0]
  lhsNonContracting := [0]
  rhsNonContracting := [1]
  lhsBatch := []
  rhsBatch := []
  wf := wf

variable (wf : DotDims.WF ⟨2, ![a, c]⟩ ⟨2, ![c, b]⟩ ⟨2, ![a, b]⟩ [1] [0] [0] [1] [] [])

/-- The left operand's row is the result's row. -/
theorem lhs_row (i : (⟨2, ![a, b]⟩ : Shape).Idx) (k : (dims wf).contr.Idx) :
    ((dims wf).lhsIdx i k 0).val = (i 0).val := by
  unfold DotDims.lhsIdx
  rw [dif_neg (show ¬(0 : Fin 2) ∈ (dims wf).lhsBatch from List.not_mem_nil),
    dif_pos (show (0 : Fin 2) ∈ (dims wf).lhsNonContracting from List.mem_singleton.mpr rfl)]
  rfl

/-- The left operand's column is the contraction position. -/
theorem lhs_col (i : (⟨2, ![a, b]⟩ : Shape).Idx) (k : (dims wf).contr.Idx) :
    ((dims wf).lhsIdx i k 1).val = (k ⟨0, Nat.one_pos⟩).val :=
  (dims wf).lhsIdx_val_of_single rfl i k

/-- The right operand's row is the contraction position. -/
theorem rhs_row (i : (⟨2, ![a, b]⟩ : Shape).Idx) (k : (dims wf).contr.Idx) :
    ((dims wf).rhsIdx i k 0).val = (k ⟨0, Nat.one_pos⟩).val :=
  (dims wf).rhsIdx_val_of_single rfl i k

/-- The right operand's column is the result's column. -/
theorem rhs_col (i : (⟨2, ![a, b]⟩ : Shape).Idx) (k : (dims wf).contr.Idx) :
    ((dims wf).rhsIdx i k 1).val = (i 1).val := by
  unfold DotDims.rhsIdx
  rw [dif_neg (show ¬(1 : Fin 2) ∈ (dims wf).rhsBatch from List.not_mem_nil),
    dif_pos (show (1 : Fin 2) ∈ (dims wf).rhsNonContracting from List.mem_singleton.mpr rfl)]
  rfl

/-- The product's sum at (p, q): over k, the left operand at (p, k) times the right operand at (k, q). -/
theorem sum_apply {M : Type*} [AddCommMonoid M] [Mul M] (lhs : (⟨2, ![a, c]⟩ : Shape).Idx → M)
    (rhs : (⟨2, ![c, b]⟩ : Shape).Idx → M) (p : Fin a) (q : Fin b) :
    ∑ k : (dims wf).contr.Idx, lhs ((dims wf).lhsIdx (ix2 p q) k) * rhs ((dims wf).rhsIdx (ix2 p q) k)
      = ∑ k : Fin c, lhs (ix2 p k) * rhs (ix2 k q) := by
  rw [← Equiv.sum_comp (contrEquiv1 (dims wf) c rfl rfl).symm]
  refine Finset.sum_congr rfl fun k _ => ?_
  have hk := contrEquiv1_symm_val (dims wf) c rfl rfl k
  have el : (dims wf).lhsIdx (ix2 p q) ((contrEquiv1 (dims wf) c rfl rfl).symm k) = ix2 p k :=
    funext fun ax => Fin.ext (by
      match ax with
      | ⟨0, _⟩ => exact lhs_row wf _ _
      | ⟨1, _⟩ => exact (lhs_col wf _ _).trans hk)
  have er : (dims wf).rhsIdx (ix2 p q) ((contrEquiv1 (dims wf) c rfl rfl).symm k) = ix2 k q :=
    funext fun ax => Fin.ext (by
      match ax with
      | ⟨0, _⟩ => exact (rhs_row wf _ _).trans hk
      | ⟨1, _⟩ => exact rhs_col wf _ _)
  rw [el, er]

/-- A kernel's product into a zero accumulator, at the exact values, read at (p, q). -/
theorem matmul_zero_apply {φ₁ φ₂ : FTy} (prec : Option ContractPrecision) (lhs : FVec Ideal ⟨2, ![a, c]⟩ φ₁)
    (rhs : FVec Ideal ⟨2, ![c, b]⟩ φ₂) (p : Fin a) (q : Fin b) :
    matmul (dims wf) prec lhs rhs (constant ⟨2, ![a, b]⟩ .f32 0x00000000#32) (ix2 p q)
      = ∑ k : Fin c, lhs (ix2 p k) * rhs (ix2 k q) :=
  (Ideal.matmul_constant_zero_apply (dims wf) prec lhs rhs (ix2 p q)).trans (sum_apply wf lhs rhs p q)

/-- The host's product, at the exact values, read at (p, q). -/
theorem dotGeneral_apply {φ₁ φ₂ : FTy} (prec : Option ContractPrecision) (lhs : FVec Ideal ⟨2, ![a, c]⟩ φ₁)
    (rhs : FVec Ideal ⟨2, ![c, b]⟩ φ₂) (p : Fin a) (q : Fin b) :
    Host.dotGeneral (dims wf) prec lhs rhs (ix2 p q) = ∑ k : Fin c, lhs (ix2 p k) * rhs (ix2 k q) :=
  (Ideal.dotGeneral_apply (dims wf) prec _ lhs rhs (ix2 p q)).trans (sum_apply wf lhs rhs p q)

end Cert.Lib.PlainDot

end
-- ==== Proof.LibKeepdims.lean ====
/-
  Keepdims columns read at an index.

  A reduction along the rows of an `a × b` array that keeps the reduced axis leaves an `a × 1` column: the length-`a`
  vector of row statistics cast to that shape holds, at `(i, ·)`, the vector's entry `i` (both have row-major position
  `i`); and the column broadcast back along the rows holds, at `(p, c)`, the column's entry `p` (the unit axis is read at
  0, the other at the same coordinate). For any element type and any extents.
-/
import Idealize.ShloMosaic.Lib.Pipeline.Value
import Idealize.ShloMosaic.Lib.ValueIdx

noncomputable section

namespace Cert.Lib.Keepdims

open Idealize.ShloMosaic Idealize.ShloMosaic.ValueIdx

/-- A length-`a` vector cast to an `a × 1` column reads, at `(i, ·)`, the vector at `i`. -/
theorem col_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `a × 1` column broadcast along its rows reads, at `(p, c)`, the column at `p`. -/
theorem bcastCol_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.Keepdims

end
-- ==== Proof.LibRowBroadcasts.lean ====
/-
  Rows, columns and bias vectors broadcast, read at an index.

  The complements of the keepdims column forms: a `1 × b` row broadcast down `a` rows as a vector broadcast and as a
  dimension broadcast, an `a × 1` column broadcast across `c` columns as a dimension broadcast — each reads, at
  `(p, q)`, the operand at its one free coordinate — and the fact that a length-`b` vector cast to a `1 × b` row is the
  same array as that vector broadcast along dimension 1 (two spellings of "add a leading unit axis"). For any element
  type and any extents.
-/
import Idealize.ShloMosaic.Lib.Pipeline.Value
import Idealize.ShloMosaic.Lib.ValueIdx

noncomputable section

namespace Cert.Lib.Rows

open Idealize.ShloMosaic Idealize.ShloMosaic.ValueIdx

variable {a c b : Nat}

/-- A `1 × b` row broadcast down the rows reads, at `(p, q)`, the row at `q`. -/
theorem bcastRow_apply {α : Type} (v : (⟨2, ![1, b]⟩ : Shape).Idx → α)
    (h : (⟨2, ![1, b]⟩ : Shape).Broadcasts ⟨2, ![a, b]⟩) (p : Fin a) (q : Fin b) :
    broadcastTo ⟨2, ![a, b]⟩ v h (ix2 p q) = v (ix2 (0 : Fin 1) q) := by
  refine broadcastTo_apply v h (ix2 p q) (ix2 (0 : Fin 1) q) fun ax => ?_
  match ax with
  | ⟨0, _⟩ =>
    show (0 : Nat) = if (1 : Nat) = 1 then 0 else p.val
    rw [if_pos rfl]
  | ⟨1, _⟩ =>
    show q.val = if b = 1 then 0 else q.val
    split
    · have := q.isLt; omega
    · rfl

/-- An `a × 1` column broadcast in dimensions `[0, 1]` reads, at `(p, k)`, the column at `p`. -/
theorem dimCol_apply {α : Type} (v : (⟨2, ![a, 1]⟩ : Shape).Idx → α)
    (h : (⟨2, ![a, 1]⟩ : Shape).BroadcastsInDim ⟨2, ![a, c]⟩ ![0, 1]) (p : Fin a) (k : Fin c) :
    broadcastInDim ⟨2, ![a, c]⟩ ![0, 1] h v (ix2 p k) = v (ix2 p (0 : Fin 1)) := by
  refine broadcastInDim_apply _ h v (ix2 p k) (ix2 p (0 : Fin 1)) fun ax => ?_
  match ax with
  | ⟨0, _⟩ =>
    show p.val = if a = 1 then 0 else p.val
    split
    · have := p.isLt; omega
    · rfl
  | ⟨1, _⟩ =>
    show (0 : Nat) = if (1 : Nat) = 1 then 0 else k.val
    rw [if_pos rfl]

/-- A `1 × b` row broadcast in dimensions `[0, 1]` reads, at `(p, q)`, the row at `q`. -/
theorem dimRow_apply {α : Type} (v : (⟨2, ![1, b]⟩ : Shape).Idx → α)
    (h : (⟨2, ![1, b]⟩ : Shape).BroadcastsInDim ⟨2, ![a, b]⟩ ![0, 1]) (p : Fin a) (q : Fin b) :
    broadcastInDim ⟨2, ![a, b]⟩ ![0, 1] h v (ix2 p q) = v (ix2 (0 : Fin 1) q) := by
  refine broadcastInDim_apply _ h v (ix2 p q) (ix2 (0 : Fin 1) q) fun ax => ?_
  match ax with
  | ⟨0, _⟩ =>
    show (0 : Nat) = if (1 : Nat) = 1 then 0 else p.val
    rw [if_pos rfl]
  | ⟨1, _⟩ =>
    show q.val = if b = 1 then 0 else q.val
    split
    · have := q.isLt; omega
    · rfl

/-- A length-`b` vector cast to a `1 × b` row is the vector broadcast along dimension 1: both read, at `(·, q)`, the
    vector at `q`. -/
theorem castRow_eq_dimRow {α : Type} (v : (⟨1, ![b]⟩ : Shape).Idx → α)
    (hc : (⟨1, ![b]⟩ : Shape).ShapeCasts ⟨2, ![1, b]⟩)
    (hb : (⟨1, ![b]⟩ : Shape).BroadcastsInDim ⟨2, ![1, b]⟩ ![1]) :
    shapeCast ⟨2, ![1, b]⟩ v hc = broadcastInDim ⟨2, ![1, b]⟩ ![1] hb v := by
  funext j
  obtain ⟨u, q, rfl⟩ : ∃ (u : Fin 1) (q : Fin b), j = ix2 u q := ⟨j 0, j 1, eq_ix2 j⟩
  have hu : u.val = 0 := by omega
  have e1 : shapeCast ⟨2, ![1, b]⟩ v hc (ix2 u q) = v (ix1 q) :=
    shapeCast_apply v hc _ _ (by
      rw [Shape.rowMajor_val_two, Shape.rowMajor_val_one]
      show q.val = u.val * b + q.val
      rw [hu, Nat.zero_mul, Nat.zero_add])
  have e2 : broadcastInDim ⟨2, ![1, b]⟩ ![1] hb v (ix2 u q) = v (ix1 q) :=
    broadcastInDim_apply _ hb v (ix2 u q) (ix1 q) fun ax => by
      match ax with
      | ⟨0, _⟩ =>
        show q.val = if b = 1 then 0 else q.val
        split
        · have := q.isLt; omega
        · rfl
  rw [e1, e2]

end Cert.Lib.Rows

end
-- ==== Proof.Spec.lean ====
/-
  One graph-convolution layer's epilogue, entry by entry, in the two groupings the two programs use.

  With A the aggregated messages, H the dense projection, d the vector of squared inverse square-root degrees and b the
  bias, one program forms the self-loop term H (r, q) · d r + b q first and adds the aggregate to it, the other adds
  the scaled projection to the aggregate and then the bias: A + (H·d + b) against (A + H·d) + b. Addition of extended
  reals is associative, so the two agree whatever the entries are, infinite ones included; the rectifier that follows
  (a maximum with zero) is applied to equal numbers.
-/
import Idealize.ShloMosaic.Lib.Pipeline.Value
import Idealize.ShloMosaic.Lib.ValueIdx
import Idealize.ShloMosaic.PureOps.Ideal.Laws
import proofs.«140916_j89816356094415_2_alg».proof.Proof.LibKeepdims
import proofs.«140916_j89816356094415_2_alg».proof.Proof.LibRowBroadcasts

noncomputable section

namespace Cert.Spec

open Idealize.ShloMosaic Idealize.ShloMosaic.ValueIdx

/-- The node-by-feature shape, the degree column's and the bias row's, and the vectors they come from. -/
abbrev NF : Shape := ⟨2, ![50000, 256]⟩
abbrev Col : Shape := ⟨2, ![50000, 1]⟩
abbrev Row : Shape := ⟨2, ![1, 256]⟩
abbrev NV : Shape := ⟨1, ![50000]⟩
abbrev FV : Shape := ⟨1, ![256]⟩
abbrev S0 : Shape := ⟨0, ![]⟩

/-- The self-loop term of a projection `H`: entry (r, q) is `H (r, q) · D (r, 0) + B (0, q)`. -/
def selfTerm (H : NF.Idx → EReal) (D : Col.Idx → EReal) (B : Row.Idx → EReal) : NF.Idx → EReal :=
  fun i => H i * D (ix2 (⟨(i 0).val, (i 0).isLt⟩ : Fin 50000) (0 : Fin 1)) + B (ix2 (0 : Fin 1) (⟨(i 1).val, (i 1).isLt⟩ : Fin 256))

theorem selfTerm_apply (H : NF.Idx → EReal) (D : Col.Idx → EReal) (B : Row.Idx → EReal) (r : Fin 50000) (q : Fin 256) :
    selfTerm H D B (ix2 r q) = H (ix2 r q) * D (ix2 r (0 : Fin 1)) + B (ix2 (0 : Fin 1) q) := rfl

/-- The sum of the aggregate and the self-loop term, rectified. -/
def combineRelu (A B : NF.Idx → EReal) : NF.Idx → EReal :=
  fun i => max (A i + B i) (Ideal.ofBits .f32 0x00000000#32)

/-- The sum of the aggregate and the self-loop term. -/
def combine (A B : NF.Idx → EReal) : NF.Idx → EReal := fun i => A i + B i

/-- A vector broadcast to a column reads, at (r, ·), the vector at r. -/
theorem dimVec_apply {α : Type} (d : NV.Idx → α) (h : NV.BroadcastsInDim Col ![0]) (r : Fin 50000) (u : Fin 1) :
    broadcastInDim Col ![0] h d (ix2 r u) = d (ix1 r) :=
  broadcastInDim_apply _ h d (ix2 r u) (ix1 r) fun a => by
    match a with
    | ⟨0, _⟩ =>
      show r.val = if (50000 : Nat) = 1 then 0 else r.val
      rw [if_neg (by decide)]

/-- A scalar broadcast everywhere reads the scalar. -/
theorem dimScalar_apply {α : Type} (z : S0.Idx → α) (h : S0.BroadcastsInDim NF ![]) (i : NF.Idx) :
    broadcastInDim NF ![] h z i = z (fun a => a.elim0) :=
  broadcastInDim_apply _ h z i (fun a => a.elim0) fun a => a.elim0

variable (A H : FVec Ideal NF .f32) (d : FVec Ideal NV .f32) (b : FVec Ideal FV .f32)
  (hc : NV.ShapeCasts Col) (hr : FV.ShapeCasts Row)
  (h1 : Col.BroadcastsInDim NF ![0, 1]) (h2 : NV.BroadcastsInDim Col ![0])
  (h3 : Row.BroadcastsInDim NF ![0, 1]) (h4 : FV.BroadcastsInDim Row ![1]) (h5 : S0.BroadcastsInDim NF ![])

/-- The two groupings of a layer's epilogue before the rectifier are the same array. -/
theorem epilogue_eq :
    combine A (selfTerm H (shapeCast Col d hc) (shapeCast Row b hr))
      = addf (addf A (mulf H (broadcastInDim NF ![0, 1] h1 (broadcastInDim Col ![0] h2 d))))
          (broadcastInDim NF ![0, 1] h3 (broadcastInDim Row ![1] h4 b)) := by
  funext i
  obtain ⟨r, q, rfl⟩ : ∃ (r : Fin 50000) (q : Fin 256), i = ix2 r q := ⟨i 0, i 1, eq_ix2 i⟩
  rw [addf_apply, addf_apply, mulf_apply, Cert.Lib.Rows.dimCol_apply, dimVec_apply, Cert.Lib.Rows.dimRow_apply,
    ← Cert.Lib.Rows.castRow_eq_dimRow b hr h4]
  show A (ix2 r q) + (H (ix2 r q) * shapeCast Col d hc (ix2 r (0 : Fin 1)) + shapeCast Row b hr (ix2 (0 : Fin 1) q)) = _
  rw [Cert.Lib.Keepdims.col_apply, add_assoc]

/-- The same with the rectifier: a maximum with the zero word, broadcast from a scalar on the one side. -/
theorem epilogue_relu_eq :
    combineRelu A (selfTerm H (shapeCast Col d hc) (shapeCast Row b hr))
      = maximumf (addf (addf A (mulf H (broadcastInDim NF ![0, 1] h1 (broadcastInDim Col ![0] h2 d))))
          (broadcastInDim NF ![0, 1] h3 (broadcastInDim Row ![1] h4 b)))
          (broadcastInDim NF ![] h5 (constant (F := Ideal) S0 .f32 0x00000000#32)) := by
  rw [← epilogue_eq A H d b hc hr h1 h2 h3 h4]
  funext i
  rw [maximumf_apply, dimScalar_apply, constant_apply]
  rfl

end Cert.Spec

end
-- ==== Proof.Region4.lean ====
/-
  Region 4: a block of 1000 rows of a dense projection and of its self-loop term.

  Grid point t stages rows 1000·t … 1000·t + 999 of the layer's input, the whole weight matrix, the same rows of the
  column of squared inverse square-root degrees and the bias row, and writes back the same rows of two arrays: the
  product of the input rows with the weights, and that product scaled row by row by the degree column plus the bias.
  At the exact values the rounding of the operands to bfloat16 is the identity and the product into a zero accumulator is
  the sum over the inner axis. The fifty blocks tile the 50000 rows, so after the region the first array is the whole
  product and the second is the product times the degree column plus the bias, entry by entry.
-/
import proofs.«140916_j89816356094415_2_alg».proof.Proof.Gen.KernelIdeal.Frame
import proofs.«140916_j89816356094415_2_alg».proof.Proof.Gen.ReferenceIdeal
import proofs.«140916_j89816356094415_2_alg».proof.Proof.LibPlainDot
import proofs.«140916_j89816356094415_2_alg».proof.Proof.Spec
import Idealize.ShloMosaic.Lib.Pipeline.Value
import Idealize.ShloMosaic.Lib.ValueIdx

set_option maxRecDepth 16384

noncomputable section

namespace Cert.KernelIdeal.Region4

open Cert.KernelIdeal Cert.KernelIdeal.Gen
open Idealize.ShloMosaic Idealize.ShloMosaic.TcCoe Idealize.SL.Sem Idealize.ShloMosaic.ValueIdx
open Idealize.ShloMosaic.Pipeline (Dat)
open Cert.Spec
open scoped BigOperators

theorem hz : (![0, 0] : Fin 2 → Nat) = fun _ => 0 := funext fun a => by fin_cases a <;> rfl

/-- The whole projection: the host's product of the two whole arrays. -/
abbrev proj (X : FVec Ideal ⟨2, ![50000, 256]⟩ .f32) (W : FVec Ideal ⟨2, ![256, 256]⟩ .f32) : FVec Ideal NF .f32 :=
  Host.dotGeneral (F := Ideal) Cert.ReferenceIdeal.dot_S50000x256_S256x256_S50000x256_1_0_0_1_n_n none X W

/-! ## The body's two stored values at an index -/

/-- The product block at (p, q): the sum over the inner axis. -/
theorem pay1_apply (x0 : FVec Ideal S1000x256 .f32) (x1 : FVec Ideal S256x256 .f32) (p : Fin 1000) (q : Fin 256) :
    k4_pay1 (F := Ideal) x0 x1 (ix2 p q) = ∑ k : Fin 256, x0 (ix2 p k) * x1 (ix2 k q) := by
  unfold k4_pay1
  refine (Cert.Lib.PlainDot.matmul_zero_apply dot_S1000x256_S256x256_S1000x256_1_0_0_1_n_n_wf none _ _ p q).trans ?_
  refine Finset.sum_congr rfl fun k _ => ?_
  show shapeCast S1000x256 x0 shapeCasts_S1000x256_S1000x256 (ix2 p k) * x1 (ix2 k q) = _
  rw [shapeCast_self]

/-- The self-loop block at (p, q): the product entry times the degree column's row p, plus the bias at q. -/
theorem pay2_apply (x0 : FVec Ideal S1000x256 .f32) (x1 : FVec Ideal S256x256 .f32) (x2 : FVec Ideal S1000x1 .f32)
    (x3 : FVec Ideal S1x256 .f32) (p : Fin 1000) (q : Fin 256) :
    k4_pay2 (F := Ideal) x0 x1 x2 x3 (ix2 p q)
      = (∑ k : Fin 256, x0 (ix2 p k) * x1 (ix2 k q)) * x2 (ix2 p (0 : Fin 1)) + x3 (ix2 (0 : Fin 1) q) := by
  unfold k4_pay2
  show k4_pay1 (F := Ideal) x0 x1 (ix2 p q)
      * broadcastTo S1000x256 (shapeCast S1000x1 x2 shapeCasts_S1000x1_S1000x1) broadcasts_S1000x1_S1000x256 (ix2 p q)
      + broadcastTo S1000x256 (shapeCast S1x256 x3 shapeCasts_S1x256_S1x256) broadcasts_S1x256_S1000x256 (ix2 p q) = _
  rw [pay1_apply, Cert.Lib.Keepdims.bcastCol_apply, Cert.Lib.Rows.bcastRow_apply, shapeCast_self, shapeCast_self]

/-- A product block whose operand rows are rows of whole arrays is the whole product at the corresponding row. -/
theorem prod_at (x0 : FVec Ideal S1000x256 .f32) (x1 : FVec Ideal S256x256 .f32)
    (X : FVec Ideal ⟨2, ![50000, 256]⟩ .f32) (W : FVec Ideal ⟨2, ![256, 256]⟩ .f32)
    (r : Fin 50000) (p : Fin 1000) (q : Fin 256)
    (h0 : ∀ k : Fin 256, x0 (ix2 p k) = X (ix2 r k)) (h1 : ∀ k : Fin 256, x1 (ix2 k q) = W (ix2 k q)) :
    (∑ k : Fin 256, x0 (ix2 p k) * x1 (ix2 k q)) = proj X W (ix2 r q) := by
  refine (Finset.sum_congr rfl fun k _ => ?_).trans
    (Cert.Lib.PlainDot.dotGeneral_apply Cert.ReferenceIdeal.Gen.dot_S50000x256_S256x256_S50000x256_1_0_0_1_n_n_wf none X W r q).symm
  rw [h0 k, h1 k]

/-! ## The windows' blocks -/

variable (V : (c : Dev nD) → (b : Ref sig .tc) → Buf (Elt Ideal) ((c : Thread nD τ).loc b)) (c : Dev nD)

/-- The printed index maps over the grid: a row-blocked window's block t starts at row block t, the whole-array
    windows stay at block 0. -/
theorem idx_facts : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0
    ∧ win4_3.index t (0 : Fin 2) = 0 ∧ win4_3.index t (1 : Fin 2) = 0
    ∧ win4_4.index t (0 : Fin 2) = t.val ∧ win4_4.index t (1 : Fin 2) = 0
    ∧ win4_5.index t (0 : Fin 2) = t.val ∧ win4_5.index t (1 : Fin 2) = 0 :=
  (by decide +kernel : ∀ t : Fin grid4.N, _)

/-- The input block at point t holds rows 1000·t … of the input array. -/
theorem blk_x (t : Fin cfg4.N) (p : Fin 1000) (k : Fin 256) (r : Fin 50000) (hr : r.val = t.val * 1000 + p.val) :
    iblk4 V c 0 t (ix2 p k) = V c main_v83 (ix2 r k) := by
  show V c main_v83 (((cfg4.win 0).blk t).view.emb (ix2 p k)) = V c main_v83 (ix2 r k)
  obtain ⟨e0, e1, -⟩ := idx_facts t
  refine congrArg (V c main_v83) (funext fun a => Fin.ext ?_)
  match a with
  | ⟨0, _⟩ => show win4_0.index t (0 : Fin 2) * 1000 + 1 * p.val = r.val; omega
  | ⟨1, _⟩ => show win4_0.index t (1 : Fin 2) * 256 + 1 * k.val = k.val; omega

/-- The weight block at every point is the whole weight matrix. -/
theorem blk_w (t : Fin cfg4.N) (k : Fin 256) (q : Fin 256) :
    iblk4 V c 1 t (ix2 k q) = V c main_arg8 (ix2 k q) := by
  show V c main_arg8 (((cfg4.win 1).blk t).view.emb (ix2 k q)) = V c main_arg8 (ix2 k q)
  obtain ⟨-, -, e0, e1, -⟩ := idx_facts t
  refine congrArg (V c main_arg8) (funext fun a => Fin.ext ?_)
  match a with
  | ⟨0, _⟩ => show win4_1.index t (0 : Fin 2) * 256 + 1 * k.val = k.val; omega
  | ⟨1, _⟩ => show win4_1.index t (1 : Fin 2) * 256 + 1 * q.val = q.val; omega

/-- The degree-column block at point t holds rows 1000·t … of the column. -/
theorem blk_d (t : Fin cfg4.N) (p : Fin 1000) (r : Fin 50000) (hr : r.val = t.val * 1000 + p.val) :
    iblk4 V c 2 t (ix2 p (0 : Fin 1)) = V c main_v91 (ix2 r (0 : Fin 1)) := by
  show V c main_v91 (((cfg4.win 2).blk t).view.emb (ix2 p (0 : Fin 1))) = V c main_v91 (ix2 r (0 : Fin 1))
  obtain ⟨-, -, -, -, e0, e1, -⟩ := idx_facts t
  refine congrArg (V c main_v91) (funext fun a => Fin.ext ?_)
  match a with
  | ⟨0, _⟩ => show win4_2.index t (0 : Fin 2) * 1000 + 1 * p.val = r.val; omega
  | ⟨1, _⟩ => show win4_2.index t (1 : Fin 2) * 1 + 1 * 0 = 0; omega

/-- The bias block at every point is the whole bias row. -/
theorem blk_b (t : Fin cfg4.N) (q : Fin 256) :
    iblk4 V c 3 t (ix2 (0 : Fin 1) q) = V c main_v108 (ix2 (0 : Fin 1) q) := by
  show V c main_v108 (((cfg4.win 3).blk t).view.emb (ix2 (0 : Fin 1) q)) = V c main_v108 (ix2 (0 : Fin 1) q)
  obtain ⟨-, -, -, -, -, -, e0, e1, -⟩ := idx_facts t
  refine congrArg (V c main_v108) (funext fun a => Fin.ext ?_)
  match a with
  | ⟨0, _⟩ => show win4_3.index t (0 : Fin 2) * 1 + 1 * 0 = 0; omega
  | ⟨1, _⟩ => show win4_3.index t (1 : Fin 2) * 256 + 1 * q.val = q.val; omega

/-! ## What a point writes back -/

/-- Point t writes back block t of the whole product. -/
theorem flushed4_eq (t : Fin cfg4.N) :
    (dat4 V c).flushed 4 t
      = ((cfg4.win 4).blk t).view.read (Elt Ideal) (proj (V c main_v83) (V c main_arg8)) := by
  show (cfg4.win 4).cut (grid4.coords t) ((dat4 V c).after 4 t) = _
  rw [after4_4]
  unfold out4_4
  rw [View.canon_unit_zero hz]
  simp only [View.ld_unit_zero (S := S1000x256) hz, View.ld_unit_zero (S := S256x256) hz]
  refine funext fun (j : S1000x256.Idx) => ?_
  obtain ⟨p, q, rfl⟩ : ∃ (p : Fin 1000) (q : Fin 256), j = ix2 p q := ⟨j 0, j 1, eq_ix2 j⟩
  have ht : t.val < 50 := t.isLt
  have he : ((cfg4.win 4).blk t).view.emb (ix2 p q) = ix2 (⟨t.val * 1000 + p.val, by omega⟩ : Fin 50000) q := by
    obtain ⟨-, -, -, -, -, -, -, -, e0, e1, -⟩ := idx_facts t
    refine funext fun a => Fin.ext ?_
    match a with
    | ⟨0, _⟩ => show win4_4.index t (0 : Fin 2) * 1000 + 1 * p.val = t.val * 1000 + p.val; omega
    | ⟨1, _⟩ => show win4_4.index t (1 : Fin 2) * 256 + 1 * q.val = q.val; omega
  show k4_pay1 (F := Ideal) (iblk4 V c 0 t) (iblk4 V c 1 t) (ix2 p q)
      = proj (V c main_v83) (V c main_arg8) (((cfg4.win 4).blk t).view.emb (ix2 p q))
  rw [he, pay1_apply]
  exact prod_at (iblk4 V c 0 t) (iblk4 V c 1 t) (V c main_v83) (V c main_arg8) ⟨t.val * 1000 + p.val, by omega⟩ p q
    (fun k => blk_x V c t p k _ rfl) (fun k => blk_w V c t k q)

/-- Point t writes back block t of the self-loop term of the whole product. -/
theorem flushed5_eq (t : Fin cfg4.N) :
    (dat4 V c).flushed 5 t
      = ((cfg4.win 5).blk t).view.read (Elt Ideal)
          (selfTerm (proj (V c main_v83) (V c main_arg8)) (V c main_v91) (V c main_v108)) := by
  show (cfg4.win 5).cut (grid4.coords t) ((dat4 V c).after 5 t) = _
  rw [after4_5]
  unfold out4_5
  rw [View.canon_unit_zero hz]
  simp only [View.ld_unit_zero (S := S1000x256) hz, View.ld_unit_zero (S := S256x256) hz,
    View.ld_unit_zero (S := S1000x1) hz, View.ld_unit_zero (S := S1x256) hz]
  refine funext fun (j : S1000x256.Idx) => ?_
  obtain ⟨p, q, rfl⟩ : ∃ (p : Fin 1000) (q : Fin 256), j = ix2 p q := ⟨j 0, j 1, eq_ix2 j⟩
  have ht : t.val < 50 := t.isLt
  have he : ((cfg4.win 5).blk t).view.emb (ix2 p q) = ix2 (⟨t.val * 1000 + p.val, by omega⟩ : Fin 50000) q := by
    obtain ⟨-, -, -, -, -, -, -, -, -, -, e0, e1⟩ := idx_facts t
    refine funext fun a => Fin.ext ?_
    match a with
    | ⟨0, _⟩ => show win4_5.index t (0 : Fin 2) * 1000 + 1 * p.val = t.val * 1000 + p.val; omega
    | ⟨1, _⟩ => show win4_5.index t (1 : Fin 2) * 256 + 1 * q.val = q.val; omega
  show k4_pay2 (F := Ideal) (iblk4 V c 0 t) (iblk4 V c 1 t) (iblk4 V c 2 t) (iblk4 V c 3 t) (ix2 p q)
      = selfTerm (proj (V c main_v83) (V c main_arg8)) (V c main_v91) (V c main_v108)
          (((cfg4.win 5).blk t).view.emb (ix2 p q))
  rw [he, pay2_apply, selfTerm_apply,
    prod_at (iblk4 V c 0 t) (iblk4 V c 1 t) (V c main_v83) (V c main_arg8) ⟨t.val * 1000 + p.val, by omega⟩ p q
      (fun k => blk_x V c t p k _ rfl) (fun k => blk_w V c t k q),
    blk_d V c t p ⟨t.val * 1000 + p.val, by omega⟩ rfl, blk_b V c t q]

/-! ## The blocks tile the arrays -/

theorem mem_blk4 (t : Fin cfg4.N) (i : S50000x256.Idx) :
    i ∈ ((cfg4.win 4).blk t).view.set ↔ ∀ a : Fin 2, win4_4.index t a * S1000x256.size a ≤ (i a).val
      ∧ (i a).val < win4_4.index t a * S1000x256.size a + S1000x256.size a := by
  show i ∈ ((View.whole main_v109_0).slice (win4_4.rect t)).set ↔ _
  rw [View.set_slice_whole, Rect.mem_set_unit]
  exact Iff.rfl

theorem mem_blk5 (t : Fin cfg4.N) (i : S50000x256.Idx) :
    i ∈ ((cfg4.win 5).blk t).view.set ↔ ∀ a : Fin 2, win4_5.index t a * S1000x256.size a ≤ (i a).val
      ∧ (i a).val < win4_5.index t a * S1000x256.size a + S1000x256.size a := by
  show i ∈ ((View.whole main_v109_1).slice (win4_5.rect t)).set ↔ _
  rw [View.set_slice_whole, Rect.mem_set_unit]
  exact Iff.rfl

/-- Row r lies in the block of point r / 1000. -/
theorem cover4 (i : S50000x256.Idx) :
    ∃ t : Fin cfg4.N, (cfg4.win 4).flush t = true ∧ i ∈ ((cfg4.win 4).blk t).view.set := by
  have hi0 : (i 0).val < 50000 := (i 0).isLt
  have hi1 : (i 1).val < 256 := (i 1).isLt
  have hlt : (i 0).val / 1000 < 50 := by omega
  refine ⟨⟨(i 0).val / 1000, hlt⟩, flush4_4 _, ?_⟩
  rw [mem_blk4]
  obtain ⟨-, -, -, -, -, -, -, -, e0, e1, -⟩ := idx_facts ⟨(i 0).val / 1000, hlt⟩
  have e0' : win4_4.index ⟨(i 0).val / 1000, hlt⟩ (0 : Fin 2) = (i 0).val / 1000 := e0
  intro a
  match a with
  | ⟨0, _⟩ =>
    show win4_4.index ⟨(i 0).val / 1000, hlt⟩ (0 : Fin 2) * 1000 ≤ (i 0).val
      ∧ (i 0).val < win4_4.index ⟨(i 0).val / 1000, hlt⟩ (0 : Fin 2) * 1000 + 1000
    omega
  | ⟨1, _⟩ =>
    show win4_4.index ⟨(i 0).val / 1000, hlt⟩ (1 : Fin 2) * 256 ≤ (i 1).val
      ∧ (i 1).val < win4_4.index ⟨(i 0).val / 1000, hlt⟩ (1 : Fin 2) * 256 + 256
    omega

theorem cover5 (i : S50000x256.Idx) :
    ∃ t : Fin cfg4.N, (cfg4.win 5).flush t = true ∧ i ∈ ((cfg4.win 5).blk t).view.set := by
  have hi0 : (i 0).val < 50000 := (i 0).isLt
  have hi1 : (i 1).val < 256 := (i 1).isLt
  have hlt : (i 0).val / 1000 < 50 := by omega
  refine ⟨⟨(i 0).val / 1000, hlt⟩, flush4_5 _, ?_⟩
  rw [mem_blk5]
  obtain ⟨-, -, -, -, -, -, -, -, -, -, e0, e1⟩ := idx_facts ⟨(i 0).val / 1000, hlt⟩
  have e0' : win4_5.index ⟨(i 0).val / 1000, hlt⟩ (0 : Fin 2) = (i 0).val / 1000 := e0
  intro a
  match a with
  | ⟨0, _⟩ =>
    show win4_5.index ⟨(i 0).val / 1000, hlt⟩ (0 : Fin 2) * 1000 ≤ (i 0).val
      ∧ (i 0).val < win4_5.index ⟨(i 0).val / 1000, hlt⟩ (0 : Fin 2) * 1000 + 1000
    omega
  | ⟨1, _⟩ =>
    show win4_5.index ⟨(i 0).val / 1000, hlt⟩ (1 : Fin 2) * 256 ≤ (i 1).val
      ∧ (i 1).val < win4_5.index ⟨(i 0).val / 1000, hlt⟩ (1 : Fin 2) * 256 + 256
    omega

/-! ## The arrays after the region -/

/-- After the region the first output array is the whole product. -/
theorem out4 : (dat4 V c).arrAt 4 cfg4.N = proj (V c main_v83) (V c main_arg8) :=
  (dat4 V c).arrAt_eq_of_cover 4 _ (fun t _ => flushed4_eq V c t) cover4

/-- After the region the second output array is the self-loop term of the whole product. -/
theorem out5 : (dat4 V c).arrAt 5 cfg4.N
    = selfTerm (proj (V c main_v83) (V c main_arg8)) (V c main_v91) (V c main_v108) :=
  (dat4 V c).arrAt_eq_of_cover 5 _ (fun t _ => flushed5_eq V c t) cover5

end Cert.KernelIdeal.Region4

end
-- ==== Proof.Region5.lean ====
/-
  Region 5: the aggregate and the self-loop term added, 1000 rows at a time.

  Grid point t stages rows 1000·t … 1000·t + 999 of the aggregated messages and of the self-loop term and writes back
  the same rows of their entrywise sum. The three windows move together, so an entry
  of the output block is that function of the same entry of the two input arrays, and the fifty blocks tile the 50000 rows.
-/
import proofs.«140916_j89816356094415_2_alg».proof.Proof.Gen.KernelIdeal.Frame
import proofs.«140916_j89816356094415_2_alg».proof.Proof.Spec
import Idealize.ShloMosaic.Lib.Pipeline.Value
import Idealize.ShloMosaic.Lib.ValueIdx

set_option maxRecDepth 16384

noncomputable section

namespace Cert.KernelIdeal.Region5

open Cert.KernelIdeal Cert.KernelIdeal.Gen
open Idealize.ShloMosaic Idealize.ShloMosaic.TcCoe Idealize.SL.Sem Idealize.ShloMosaic.ValueIdx
open Idealize.ShloMosaic.Pipeline (Dat)
open Cert.Spec

theorem hz : (![0, 0] : Fin 2 → Nat) = fun _ => 0 := funext fun a => by fin_cases a <;> rfl

/-- The body's stored value at an index. -/
theorem pay_apply (x0 x1 : FVec Ideal S1000x256 .f32) (j : S1000x256.Idx) :
    k5_pay1 (F := Ideal) x0 x1 j = x0 j + x1 j := by
  unfold k5_pay1
  show shapeCast S1000x256 x0 shapeCasts_S1000x256_S1000x256 j + shapeCast S1000x256 x1 shapeCasts_S1000x256_S1000x256 j = _
  rw [shapeCast_self, shapeCast_self]

/-- An output block entry whose two operands are entries of whole arrays is the combined array's entry there. -/
theorem comb_at (x0 x1 : FVec Ideal S1000x256 .f32) (A B : FVec Ideal NF .f32) (j : S1000x256.Idx) (i : NF.Idx)
    (h0 : x0 j = A i) (h1 : x1 j = B i) : k5_pay1 (F := Ideal) x0 x1 j = combine A B i := by
  rw [pay_apply, h0, h1]
  rfl

variable (V : (c : Dev nD) → (b : Ref sig .tc) → Buf (Elt Ideal) ((c : Thread nD τ).loc b)) (c : Dev nD)

/-- The printed index maps over the grid: every window's block t starts at row block t. -/
theorem idx_facts : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0 :=
  (by decide +kernel : ∀ t : Fin grid5.N, _)

/-- The aggregate's block entry is the aggregate at the output block's position. -/
theorem blk_a (t : Fin cfg5.N) (j : S1000x256.Idx) :
    iblk5 V c 0 t j = V c main_v122 (((cfg5.win 2).blk t).view.emb j) := by
  show V c main_v122 (((cfg5.win 0).blk t).view.emb j) = V c main_v122 (((cfg5.win 2).blk t).view.emb j)
  obtain ⟨e0, e1, e2, e3, e4, e5⟩ := idx_facts t
  refine congrArg (V c main_v122) (funext fun a => Fin.ext ?_)
  match a with
  | ⟨0, _⟩ => show win5_0.index t (0 : Fin 2) * 1000 + 1 * (j 0).val = win5_2.index t (0 : Fin 2) * 1000 + 1 * (j 0).val; omega
  | ⟨1, _⟩ => show win5_0.index t (1 : Fin 2) * 256 + 1 * (j 1).val = win5_2.index t (1 : Fin 2) * 256 + 1 * (j 1).val; omega

/-- The self-loop term's block entry is the term at the output block's position. -/
theorem blk_s (t : Fin cfg5.N) (j : S1000x256.Idx) :
    iblk5 V c 1 t j = V c main_v109_1 (((cfg5.win 2).blk t).view.emb j) := by
  show V c main_v109_1 (((cfg5.win 1).blk t).view.emb j) = V c main_v109_1 (((cfg5.win 2).blk t).view.emb j)
  obtain ⟨e0, e1, e2, e3, e4, e5⟩ := idx_facts t
  refine congrArg (V c main_v109_1) (funext fun a => Fin.ext ?_)
  match a with
  | ⟨0, _⟩ => show win5_1.index t (0 : Fin 2) * 1000 + 1 * (j 0).val = win5_2.index t (0 : Fin 2) * 1000 + 1 * (j 0).val; omega
  | ⟨1, _⟩ => show win5_1.index t (1 : Fin 2) * 256 + 1 * (j 1).val = win5_2.index t (1 : Fin 2) * 256 + 1 * (j 1).val; omega

/-- Point t writes back block t of the combined array. -/
theorem flushed2_eq (t : Fin cfg5.N) :
    (dat5 V c).flushed 2 t
      = ((cfg5.win 2).blk t).view.read (Elt Ideal) (combine (V c main_v122) (V c main_v109_1)) := by
  show (cfg5.win 2).cut (grid5.coords t) ((dat5 V c).after 2 t) = _
  rw [after5_2]
  unfold out5_2
  rw [View.canon_unit_zero hz]
  simp only [View.ld_unit_zero (S := S1000x256) hz]
  refine funext fun (j : S1000x256.Idx) => ?_
  exact comb_at (iblk5 V c 0 t) (iblk5 V c 1 t) (V c main_v122) (V c main_v109_1) j (((cfg5.win 2).blk t).view.emb j)
    (blk_a V c t j) (blk_s V c t j)

theorem mem_blk2 (t : Fin cfg5.N) (i : S50000x256.Idx) :
    i ∈ ((cfg5.win 2).blk t).view.set ↔ ∀ a : Fin 2, win5_2.index t a * S1000x256.size a ≤ (i a).val
      ∧ (i a).val < win5_2.index t a * S1000x256.size a + S1000x256.size a := by
  show i ∈ ((View.whole main_v123).slice (win5_2.rect t)).set ↔ _
  rw [View.set_slice_whole, Rect.mem_set_unit]
  exact Iff.rfl

/-- Row r lies in the block of point r / 1000. -/
theorem cover2 (i : S50000x256.Idx) :
    ∃ t : Fin cfg5.N, (cfg5.win 2).flush t = true ∧ i ∈ ((cfg5.win 2).blk t).view.set := by
  have hi0 : (i 0).val < 50000 := (i 0).isLt
  have hi1 : (i 1).val < 256 := (i 1).isLt
  have hlt : (i 0).val / 1000 < 50 := by omega
  refine ⟨⟨(i 0).val / 1000, hlt⟩, flush5_2 _, ?_⟩
  rw [mem_blk2]
  obtain ⟨-, -, -, -, e0, e1⟩ := idx_facts ⟨(i 0).val / 1000, hlt⟩
  have e0' : win5_2.index ⟨(i 0).val / 1000, hlt⟩ (0 : Fin 2) = (i 0).val / 1000 := e0
  intro a
  match a with
  | ⟨0, _⟩ =>
    show win5_2.index ⟨(i 0).val / 1000, hlt⟩ (0 : Fin 2) * 1000 ≤ (i 0).val
      ∧ (i 0).val < win5_2.index ⟨(i 0).val / 1000, hlt⟩ (0 : Fin 2) * 1000 + 1000
    omega
  | ⟨1, _⟩ =>
    show win5_2.index ⟨(i 0).val / 1000, hlt⟩ (1 : Fin 2) * 256 ≤ (i 1).val
      ∧ (i 1).val < win5_2.index ⟨(i 0).val / 1000, hlt⟩ (1 : Fin 2) * 256 + 256
    omega

/-- After the region the output array is the combined array. -/
theorem out2 : (dat5 V c).arrAt 2 cfg5.N = combine (V c main_v122) (V c main_v109_1) :=
  (dat5 V c).arrAt_eq_of_cover 2 _ (fun t _ => flushed2_eq V c t) cover2

end Cert.KernelIdeal.Region5

end
-- ==== Proof.KPre1.lean ====
/-
  Values that ride unchanged through the fold of the program's segments: the two rows of the edge list.

  A stretch of host operations leaves a buffer it does not write as it found it, and a pipelined region leaves every
  buffer that is not one of its arrays as it found it; so a value computed early, or an argument, is read later at what
  it was when written.
-/
import proofs.«140916_j89816356094415_2_alg».proof.Proof.Gen.KernelIdeal.Frame
import proofs.«140916_j89816356094415_2_alg».proof.Proof.Gen.ReferenceIdeal.Read

set_option maxRecDepth 16384

noncomputable section

namespace Cert.KernelIdeal.KPre1

open Cert.KernelIdeal Cert.KernelIdeal.Gen
open Idealize.ShloMosaic Idealize.ShloMosaic.TcCoe Idealize.SL.Sem Idealize.ShloMosaic.StableHlo
open Cert.ReferenceIdeal.Read

variable (m : (ℓ : Loc nD τ sig) → Buf (Elt Ideal) ℓ) (ρ : Dev nD → PrngReg) (c : Dev nD)

set_option quotPrecheck false
local notation "a0" => m ((c : Thread nD τ).loc main_arg0)
local notation "a1" => m ((c : Thread nD τ).loc main_arg1)
local notation "a2" => m ((c : Thread nD τ).loc main_arg2)
local notation "a3" => m ((c : Thread nD τ).loc main_arg3)
local notation "a4" => m ((c : Thread nD τ).loc main_arg4)
local notation "a5" => m ((c : Thread nD τ).loc main_arg5)
local notation "a6" => m ((c : Thread nD τ).loc main_arg6)
local notation "a7" => m ((c : Thread nD τ).loc main_arg7)
local notation "a8" => m ((c : Thread nD τ).loc main_arg8)
local notation "a9" => m ((c : Thread nD τ).loc main_arg9)
local notation "a10" => m ((c : Thread nD τ).loc main_arg10)
local notation "a11" => m ((c : Thread nD τ).loc main_arg11)

/-! ### `main_v1` through the fold -/

theorem at1_v1 : W1 m ρ c (Proc.devRef .tc main_v1) = val_main_v1 (F := Ideal) a1 := by
  show StableHlo.after hostOps0 (W0 m ρ c) (Proc.devRef .tc main_v1) = _
  after_results_simp
  try rfl

theorem at2_v1 : W2 m ρ c (Proc.devRef .tc main_v1) = val_main_v1 (F := Ideal) a1 :=
  (W2_of_ne m ρ c main_v1 (by decide)).trans (at1_v1 m ρ c)

theorem at3_v1 : W3 m ρ c (Proc.devRef .tc main_v1) = val_main_v1 (F := Ideal) a1 := by
  refine Eq.trans ?_ (at2_v1 m ρ c)
  show StableHlo.after hostOps1 (W2 m ρ c) (Proc.devRef .tc main_v1) = _
  after_results_simp

theorem at4_v1 : W4 m ρ c (Proc.devRef .tc main_v1) = val_main_v1 (F := Ideal) a1 :=
  (W4_of_ne m ρ c main_v1 (by decide)).trans (at3_v1 m ρ c)

theorem at5_v1 : W5 m ρ c (Proc.devRef .tc main_v1) = val_main_v1 (F := Ideal) a1 := by
  refine Eq.trans ?_ (at4_v1 m ρ c)
  show StableHlo.after hostOps2 (W4 m ρ c) (Proc.devRef .tc main_v1) = _
  after_results_simp

theorem at6_v1 : W6 m ρ c (Proc.devRef .tc main_v1) = val_main_v1 (F := Ideal) a1 :=
  (W6_of_ne m ρ c main_v1 (by decide)).trans (at5_v1 m ρ c)

theorem at7_v1 : W7 m ρ c (Proc.devRef .tc main_v1) = val_main_v1 (F := Ideal) a1 := by
  refine Eq.trans ?_ (at6_v1 m ρ c)
  show StableHlo.after hostOps3 (W6 m ρ c) (Proc.devRef .tc main_v1) = _
  after_results_simp

theorem at8_v1 : W8 m ρ c (Proc.devRef .tc main_v1) = val_main_v1 (F := Ideal) a1 :=
  (W8_of_ne m ρ c main_v1 (by decide)).trans (at7_v1 m ρ c)

theorem at9_v1 : W9 m ρ c (Proc.devRef .tc main_v1) = val_main_v1 (F := Ideal) a1 := by
  refine Eq.trans ?_ (at8_v1 m ρ c)
  show StableHlo.after hostOps4 (W8 m ρ c) (Proc.devRef .tc main_v1) = _
  after_results_simp

theorem at10_v1 : W10 m ρ c (Proc.devRef .tc main_v1) = val_main_v1 (F := Ideal) a1 :=
  (W10_of_ne m ρ c main_v1 (by decide)).trans (at9_v1 m ρ c)

/-! ### `main_v3` through the fold -/

theorem at1_v3 : W1 m ρ c (Proc.devRef .tc main_v3) = val_main_v3 (F := Ideal) a1 := by
  show StableHlo.after hostOps0 (W0 m ρ c) (Proc.devRef .tc main_v3) = _
  after_results_simp
  try rfl

theorem at2_v3 : W2 m ρ c (Proc.devRef .tc main_v3) = val_main_v3 (F := Ideal) a1 :=
  (W2_of_ne m ρ c main_v3 (by decide)).trans (at1_v3 m ρ c)

theorem at3_v3 : W3 m ρ c (Proc.devRef .tc main_v3) = val_main_v3 (F := Ideal) a1 := by
  refine Eq.trans ?_ (at2_v3 m ρ c)
  show StableHlo.after hostOps1 (W2 m ρ c) (Proc.devRef .tc main_v3) = _
  after_results_simp

theorem at4_v3 : W4 m ρ c (Proc.devRef .tc main_v3) = val_main_v3 (F := Ideal) a1 :=
  (W4_of_ne m ρ c main_v3 (by decide)).trans (at3_v3 m ρ c)

theorem at5_v3 : W5 m ρ c (Proc.devRef .tc main_v3) = val_main_v3 (F := Ideal) a1 := by
  refine Eq.trans ?_ (at4_v3 m ρ c)
  show StableHlo.after hostOps2 (W4 m ρ c) (Proc.devRef .tc main_v3) = _
  after_results_simp

theorem at6_v3 : W6 m ρ c (Proc.devRef .tc main_v3) = val_main_v3 (F := Ideal) a1 :=
  (W6_of_ne m ρ c main_v3 (by decide)).trans (at5_v3 m ρ c)

theorem at7_v3 : W7 m ρ c (Proc.devRef .tc main_v3) = val_main_v3 (F := Ideal) a1 := by
  refine Eq.trans ?_ (at6_v3 m ρ c)
  show StableHlo.after hostOps3 (W6 m ρ c) (Proc.devRef .tc main_v3) = _
  after_results_simp

theorem at8_v3 : W8 m ρ c (Proc.devRef .tc main_v3) = val_main_v3 (F := Ideal) a1 :=
  (W8_of_ne m ρ c main_v3 (by decide)).trans (at7_v3 m ρ c)

theorem at9_v3 : W9 m ρ c (Proc.devRef .tc main_v3) = val_main_v3 (F := Ideal) a1 := by
  refine Eq.trans ?_ (at8_v3 m ρ c)
  show StableHlo.after hostOps4 (W8 m ρ c) (Proc.devRef .tc main_v3) = _
  after_results_simp

theorem at10_v3 : W10 m ρ c (Proc.devRef .tc main_v3) = val_main_v3 (F := Ideal) a1 :=
  (W10_of_ne m ρ c main_v3 (by decide)).trans (at9_v3 m ρ c)

end Cert.KernelIdeal.KPre1

end
-- ==== Proof.KPre2.lean ====
/-
  Values that ride unchanged through the fold of the program's segments: the edge weights, the weight matrices and the biases.

  A stretch of host operations leaves a buffer it does not write as it found it, and a pipelined region leaves every
  buffer that is not one of its arrays as it found it; so a value computed early, or an argument, is read later at what
  it was when written.
-/
import proofs.«140916_j89816356094415_2_alg».proof.Proof.Gen.KernelIdeal.Frame
import proofs.«140916_j89816356094415_2_alg».proof.Proof.Gen.ReferenceIdeal.Read

set_option maxRecDepth 16384

noncomputable section

namespace Cert.KernelIdeal.KPre2

open Cert.KernelIdeal Cert.KernelIdeal.Gen
open Idealize.ShloMosaic Idealize.ShloMosaic.TcCoe Idealize.SL.Sem Idealize.ShloMosaic.StableHlo
open Cert.ReferenceIdeal.Read

variable (m : (ℓ : Loc nD τ sig) → Buf (Elt Ideal) ℓ) (ρ : Dev nD → PrngReg) (c : Dev nD)

set_option quotPrecheck false
local notation "a0" => m ((c : Thread nD τ).loc main_arg0)
local notation "a1" => m ((c : Thread nD τ).loc main_arg1)
local notation "a2" => m ((c : Thread nD τ).loc main_arg2)
local notation "a3" => m ((c : Thread nD τ).loc main_arg3)
local notation "a4" => m ((c : Thread nD τ).loc main_arg4)
local notation "a5" => m ((c : Thread nD τ).loc main_arg5)
local notation "a6" => m ((c : Thread nD τ).loc main_arg6)
local notation "a7" => m ((c : Thread nD τ).loc main_arg7)
local notation "a8" => m ((c : Thread nD τ).loc main_arg8)
local notation "a9" => m ((c : Thread nD τ).loc main_arg9)
local notation "a10" => m ((c : Thread nD τ).loc main_arg10)
local notation "a11" => m ((c : Thread nD τ).loc main_arg11)

/-! ### `main_arg0` through the fold -/

theorem at1_arg0 : W1 m ρ c (Proc.devRef .tc main_arg0) = a0 := by
  show StableHlo.after hostOps0 (W0 m ρ c) (Proc.devRef .tc main_arg0) = _
  after_results_simp
  try rfl

/-! ### `main_arg4` through the fold -/

theorem at1_arg4 : W1 m ρ c (Proc.devRef .tc main_arg4) = a4 := by
  show StableHlo.after hostOps0 (W0 m ρ c) (Proc.devRef .tc main_arg4) = _
  after_results_simp
  try rfl

/-! ### `main_arg2` through the fold -/

theorem at1_arg2 : W1 m ρ c (Proc.devRef .tc main_arg2) = a2 := by
  show StableHlo.after hostOps0 (W0 m ρ c) (Proc.devRef .tc main_arg2) = _
  after_results_simp
  try rfl

theorem at2_arg2 : W2 m ρ c (Proc.devRef .tc main_arg2) = a2 :=
  (W2_of_ne m ρ c main_arg2 (by decide)).trans (at1_arg2 m ρ c)

theorem at3_arg2 : W3 m ρ c (Proc.devRef .tc main_arg2) = a2 := by
  refine Eq.trans ?_ (at2_arg2 m ρ c)
  show StableHlo.after hostOps1 (W2 m ρ c) (Proc.devRef .tc main_arg2) = _
  after_results_simp

theorem at4_arg2 : W4 m ρ c (Proc.devRef .tc main_arg2) = a2 :=
  (W4_of_ne m ρ c main_arg2 (by decide)).trans (at3_arg2 m ρ c)

theorem at5_arg2 : W5 m ρ c (Proc.devRef .tc main_arg2) = a2 := by
  refine Eq.trans ?_ (at4_arg2 m ρ c)
  show StableHlo.after hostOps2 (W4 m ρ c) (Proc.devRef .tc main_arg2) = _
  after_results_simp

theorem at6_arg2 : W6 m ρ c (Proc.devRef .tc main_arg2) = a2 :=
  (W6_of_ne m ρ c main_arg2 (by decide)).trans (at5_arg2 m ρ c)

theorem at7_arg2 : W7 m ρ c (Proc.devRef .tc main_arg2) = a2 := by
  refine Eq.trans ?_ (at6_arg2 m ρ c)
  show StableHlo.after hostOps3 (W6 m ρ c) (Proc.devRef .tc main_arg2) = _
  after_results_simp

theorem at8_arg2 : W8 m ρ c (Proc.devRef .tc main_arg2) = a2 :=
  (W8_of_ne m ρ c main_arg2 (by decide)).trans (at7_arg2 m ρ c)

/-! ### `main_arg7` through the fold -/

theorem at1_arg7 : W1 m ρ c (Proc.devRef .tc main_arg7) = a7 := by
  show StableHlo.after hostOps0 (W0 m ρ c) (Proc.devRef .tc main_arg7) = _
  after_results_simp
  try rfl

theorem at2_arg7 : W2 m ρ c (Proc.devRef .tc main_arg7) = a7 :=
  (W2_of_ne m ρ c main_arg7 (by decide)).trans (at1_arg7 m ρ c)

theorem at3_arg7 : W3 m ρ c (Proc.devRef .tc main_arg7) = a7 := by
  refine Eq.trans ?_ (at2_arg7 m ρ c)
  show StableHlo.after hostOps1 (W2 m ρ c) (Proc.devRef .tc main_arg7) = _
  after_results_simp

theorem at4_arg7 : W4 m ρ c (Proc.devRef .tc main_arg7) = a7 :=
  (W4_of_ne m ρ c main_arg7 (by decide)).trans (at3_arg7 m ρ c)

/-! ### `main_arg9` through the fold -/

theorem at1_arg9 : W1 m ρ c (Proc.devRef .tc main_arg9) = a9 := by
  show StableHlo.after hostOps0 (W0 m ρ c) (Proc.devRef .tc main_arg9) = _
  after_results_simp
  try rfl

theorem at2_arg9 : W2 m ρ c (Proc.devRef .tc main_arg9) = a9 :=
  (W2_of_ne m ρ c main_arg9 (by decide)).trans (at1_arg9 m ρ c)

theorem at3_arg9 : W3 m ρ c (Proc.devRef .tc main_arg9) = a9 := by
  refine Eq.trans ?_ (at2_arg9 m ρ c)
  show StableHlo.after hostOps1 (W2 m ρ c) (Proc.devRef .tc main_arg9) = _
  after_results_simp

theorem at4_arg9 : W4 m ρ c (Proc.devRef .tc main_arg9) = a9 :=
  (W4_of_ne m ρ c main_arg9 (by decide)).trans (at3_arg9 m ρ c)

theorem at5_arg9 : W5 m ρ c (Proc.devRef .tc main_arg9) = a9 := by
  refine Eq.trans ?_ (at4_arg9 m ρ c)
  show StableHlo.after hostOps2 (W4 m ρ c) (Proc.devRef .tc main_arg9) = _
  after_results_simp

theorem at6_arg9 : W6 m ρ c (Proc.devRef .tc main_arg9) = a9 :=
  (W6_of_ne m ρ c main_arg9 (by decide)).trans (at5_arg9 m ρ c)

theorem at7_arg9 : W7 m ρ c (Proc.devRef .tc main_arg9) = a9 := by
  refine Eq.trans ?_ (at6_arg9 m ρ c)
  show StableHlo.after hostOps3 (W6 m ρ c) (Proc.devRef .tc main_arg9) = _
  after_results_simp

theorem at8_arg9 : W8 m ρ c (Proc.devRef .tc main_arg9) = a9 :=
  (W8_of_ne m ρ c main_arg9 (by decide)).trans (at7_arg9 m ρ c)

/-! ### `main_arg6` through the fold -/

theorem at1_arg6 : W1 m ρ c (Proc.devRef .tc main_arg6) = a6 := by
  show StableHlo.after hostOps0 (W0 m ρ c) (Proc.devRef .tc main_arg6) = _
  after_results_simp
  try rfl

theorem at2_arg6 : W2 m ρ c (Proc.devRef .tc main_arg6) = a6 :=
  (W2_of_ne m ρ c main_arg6 (by decide)).trans (at1_arg6 m ρ c)

theorem at3_arg6 : W3 m ρ c (Proc.devRef .tc main_arg6) = a6 := by
  refine Eq.trans ?_ (at2_arg6 m ρ c)
  show StableHlo.after hostOps1 (W2 m ρ c) (Proc.devRef .tc main_arg6) = _
  after_results_simp

theorem at4_arg6 : W4 m ρ c (Proc.devRef .tc main_arg6) = a6 :=
  (W4_of_ne m ρ c main_arg6 (by decide)).trans (at3_arg6 m ρ c)

theorem at5_arg6 : W5 m ρ c (Proc.devRef .tc main_arg6) = a6 := by
  refine Eq.trans ?_ (at4_arg6 m ρ c)
  show StableHlo.after hostOps2 (W4 m ρ c) (Proc.devRef .tc main_arg6) = _
  after_results_simp

/-! ### `main_arg8` through the fold -/

theorem at1_arg8 : W1 m ρ c (Proc.devRef .tc main_arg8) = a8 := by
  show StableHlo.after hostOps0 (W0 m ρ c) (Proc.devRef .tc main_arg8) = _
  after_results_simp
  try rfl

theorem at2_arg8 : W2 m ρ c (Proc.devRef .tc main_arg8) = a8 :=
  (W2_of_ne m ρ c main_arg8 (by decide)).trans (at1_arg8 m ρ c)

theorem at3_arg8 : W3 m ρ c (Proc.devRef .tc main_arg8) = a8 := by
  refine Eq.trans ?_ (at2_arg8 m ρ c)
  show StableHlo.after hostOps1 (W2 m ρ c) (Proc.devRef .tc main_arg8) = _
  after_results_simp

theorem at4_arg8 : W4 m ρ c (Proc.devRef .tc main_arg8) = a8 :=
  (W4_of_ne m ρ c main_arg8 (by decide)).trans (at3_arg8 m ρ c)

theorem at5_arg8 : W5 m ρ c (Proc.devRef .tc main_arg8) = a8 := by
  refine Eq.trans ?_ (at4_arg8 m ρ c)
  show StableHlo.after hostOps2 (W4 m ρ c) (Proc.devRef .tc main_arg8) = _
  after_results_simp

theorem at6_arg8 : W6 m ρ c (Proc.devRef .tc main_arg8) = a8 :=
  (W6_of_ne m ρ c main_arg8 (by decide)).trans (at5_arg8 m ρ c)

theorem at7_arg8 : W7 m ρ c (Proc.devRef .tc main_arg8) = a8 := by
  refine Eq.trans ?_ (at6_arg8 m ρ c)
  show StableHlo.after hostOps3 (W6 m ρ c) (Proc.devRef .tc main_arg8) = _
  after_results_simp

theorem at8_arg8 : W8 m ρ c (Proc.devRef .tc main_arg8) = a8 :=
  (W8_of_ne m ρ c main_arg8 (by decide)).trans (at7_arg8 m ρ c)

theorem at9_arg8 : W9 m ρ c (Proc.devRef .tc main_arg8) = a8 := by
  refine Eq.trans ?_ (at8_arg8 m ρ c)
  show StableHlo.after hostOps4 (W8 m ρ c) (Proc.devRef .tc main_arg8) = _
  after_results_simp

end Cert.KernelIdeal.KPre2

end
-- ==== Proof.Region2.lean ====
/-
  Region 2: a block of 1000 rows of a dense projection and of its self-loop term.

  Grid point t stages rows 1000·t … 1000·t + 999 of the layer's input, the whole weight matrix, the same rows of the
  column of squared inverse square-root degrees and the bias row, and writes back the same rows of two arrays: the
  product of the input rows with the weights, and that product scaled row by row by the degree column plus the bias.
  At the exact values the rounding of the operands to bfloat16 is the identity and the product into a zero accumulator is
  the sum over the inner axis. The fifty blocks tile the 50000 rows, so after the region the first array is the whole
  product and the second is the product times the degree column plus the bias, entry by entry.
-/
import proofs.«140916_j89816356094415_2_alg».proof.Proof.Gen.KernelIdeal.Frame
import proofs.«140916_j89816356094415_2_alg».proof.Proof.Gen.ReferenceIdeal
import proofs.«140916_j89816356094415_2_alg».proof.Proof.LibPlainDot
import proofs.«140916_j89816356094415_2_alg».proof.Proof.Spec
import Idealize.ShloMosaic.Lib.Pipeline.Value
import Idealize.ShloMosaic.Lib.ValueIdx

set_option maxRecDepth 16384

noncomputable section

namespace Cert.KernelIdeal.Region2

open Cert.KernelIdeal Cert.KernelIdeal.Gen
open Idealize.ShloMosaic Idealize.ShloMosaic.TcCoe Idealize.SL.Sem Idealize.ShloMosaic.ValueIdx
open Idealize.ShloMosaic.Pipeline (Dat)
open Cert.Spec
open scoped BigOperators

theorem hz : (![0, 0] : Fin 2 → Nat) = fun _ => 0 := funext fun a => by fin_cases a <;> rfl

/-- The whole projection: the host's product of the two whole arrays. -/
abbrev proj (X : FVec Ideal ⟨2, ![50000, 256]⟩ .f32) (W : FVec Ideal ⟨2, ![256, 256]⟩ .f32) : FVec Ideal NF .f32 :=
  Host.dotGeneral (F := Ideal) Cert.ReferenceIdeal.dot_S50000x256_S256x256_S50000x256_1_0_0_1_n_n none X W

/-! ## The body's two stored values at an index -/

/-- The product block at (p, q): the sum over the inner axis. -/
theorem pay1_apply (x0 : FVec Ideal S1000x256 .f32) (x1 : FVec Ideal S256x256 .f32) (p : Fin 1000) (q : Fin 256) :
    k2_pay1 (F := Ideal) x0 x1 (ix2 p q) = ∑ k : Fin 256, x0 (ix2 p k) * x1 (ix2 k q) := by
  unfold k2_pay1
  refine (Cert.Lib.PlainDot.matmul_zero_apply dot_S1000x256_S256x256_S1000x256_1_0_0_1_n_n_wf none _ _ p q).trans ?_
  refine Finset.sum_congr rfl fun k _ => ?_
  show shapeCast S1000x256 x0 shapeCasts_S1000x256_S1000x256 (ix2 p k) * x1 (ix2 k q) = _
  rw [shapeCast_self]

/-- The self-loop block at (p, q): the product entry times the degree column's row p, plus the bias at q. -/
theorem pay2_apply (x0 : FVec Ideal S1000x256 .f32) (x1 : FVec Ideal S256x256 .f32) (x2 : FVec Ideal S1000x1 .f32)
    (x3 : FVec Ideal S1x256 .f32) (p : Fin 1000) (q : Fin 256) :
    k2_pay2 (F := Ideal) x0 x1 x2 x3 (ix2 p q)
      = (∑ k : Fin 256, x0 (ix2 p k) * x1 (ix2 k q)) * x2 (ix2 p (0 : Fin 1)) + x3 (ix2 (0 : Fin 1) q) := by
  unfold k2_pay2
  show k2_pay1 (F := Ideal) x0 x1 (ix2 p q)
      * broadcastTo S1000x256 (shapeCast S1000x1 x2 shapeCasts_S1000x1_S1000x1) broadcasts_S1000x1_S1000x256 (ix2 p q)
      + broadcastTo S1000x256 (shapeCast S1x256 x3 shapeCasts_S1x256_S1x256) broadcasts_S1x256_S1000x256 (ix2 p q) = _
  rw [pay1_apply, Cert.Lib.Keepdims.bcastCol_apply, Cert.Lib.Rows.bcastRow_apply, shapeCast_self, shapeCast_self]

/-- A product block whose operand rows are rows of whole arrays is the whole product at the corresponding row. -/
theorem prod_at (x0 : FVec Ideal S1000x256 .f32) (x1 : FVec Ideal S256x256 .f32)
    (X : FVec Ideal ⟨2, ![50000, 256]⟩ .f32) (W : FVec Ideal ⟨2, ![256, 256]⟩ .f32)
    (r : Fin 50000) (p : Fin 1000) (q : Fin 256)
    (h0 : ∀ k : Fin 256, x0 (ix2 p k) = X (ix2 r k)) (h1 : ∀ k : Fin 256, x1 (ix2 k q) = W (ix2 k q)) :
    (∑ k : Fin 256, x0 (ix2 p k) * x1 (ix2 k q)) = proj X W (ix2 r q) := by
  refine (Finset.sum_congr rfl fun k _ => ?_).trans
    (Cert.Lib.PlainDot.dotGeneral_apply Cert.ReferenceIdeal.Gen.dot_S50000x256_S256x256_S50000x256_1_0_0_1_n_n_wf none X W r q).symm
  rw [h0 k, h1 k]

/-! ## The windows' blocks -/

variable (V : (c : Dev nD) → (b : Ref sig .tc) → Buf (Elt Ideal) ((c : Thread nD τ).loc b)) (c : Dev nD)

/-- The printed index maps over the grid: a row-blocked window's block t starts at row block t, the whole-array
    windows stay at block 0. -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0
    ∧ win2_5.index t (0 : Fin 2) = t.val ∧ win2_5.index t (1 : Fin 2) = 0 :=
  (by decide +kernel : ∀ t : Fin grid2.N, _)

/-- The input block at point t holds rows 1000·t … of the input array. -/
theorem blk_x (t : Fin cfg2.N) (p : Fin 1000) (k : Fin 256) (r : Fin 50000) (hr : r.val = t.val * 1000 + p.val) :
    iblk2 V c 0 t (ix2 p k) = V c main_v43 (ix2 r k) := by
  show V c main_v43 (((cfg2.win 0).blk t).view.emb (ix2 p k)) = V c main_v43 (ix2 r k)
  obtain ⟨e0, e1, -⟩ := idx_facts t
  refine congrArg (V c main_v43) (funext fun a => Fin.ext ?_)
  match a with
  | ⟨0, _⟩ => show win2_0.index t (0 : Fin 2) * 1000 + 1 * p.val = r.val; omega
  | ⟨1, _⟩ => show win2_0.index t (1 : Fin 2) * 256 + 1 * k.val = k.val; omega

/-- The weight block at every point is the whole weight matrix. -/
theorem blk_w (t : Fin cfg2.N) (k : Fin 256) (q : Fin 256) :
    iblk2 V c 1 t (ix2 k q) = V c main_arg6 (ix2 k q) := by
  show V c main_arg6 (((cfg2.win 1).blk t).view.emb (ix2 k q)) = V c main_arg6 (ix2 k q)
  obtain ⟨-, -, e0, e1, -⟩ := idx_facts t
  refine congrArg (V c main_arg6) (funext fun a => Fin.ext ?_)
  match a with
  | ⟨0, _⟩ => show win2_1.index t (0 : Fin 2) * 256 + 1 * k.val = k.val; omega
  | ⟨1, _⟩ => show win2_1.index t (1 : Fin 2) * 256 + 1 * q.val = q.val; omega

/-- The degree-column block at point t holds rows 1000·t … of the column. -/
theorem blk_d (t : Fin cfg2.N) (p : Fin 1000) (r : Fin 50000) (hr : r.val = t.val * 1000 + p.val) :
    iblk2 V c 2 t (ix2 p (0 : Fin 1)) = V c main_v51 (ix2 r (0 : Fin 1)) := by
  show V c main_v51 (((cfg2.win 2).blk t).view.emb (ix2 p (0 : Fin 1))) = V c main_v51 (ix2 r (0 : Fin 1))
  obtain ⟨-, -, -, -, e0, e1, -⟩ := idx_facts t
  refine congrArg (V c main_v51) (funext fun a => Fin.ext ?_)
  match a with
  | ⟨0, _⟩ => show win2_2.index t (0 : Fin 2) * 1000 + 1 * p.val = r.val; omega
  | ⟨1, _⟩ => show win2_2.index t (1 : Fin 2) * 1 + 1 * 0 = 0; omega

/-- The bias block at every point is the whole bias row. -/
theorem blk_b (t : Fin cfg2.N) (q : Fin 256) :
    iblk2 V c 3 t (ix2 (0 : Fin 1) q) = V c main_v68 (ix2 (0 : Fin 1) q) := by
  show V c main_v68 (((cfg2.win 3).blk t).view.emb (ix2 (0 : Fin 1) q)) = V c main_v68 (ix2 (0 : Fin 1) q)
  obtain ⟨-, -, -, -, -, -, e0, e1, -⟩ := idx_facts t
  refine congrArg (V c main_v68) (funext fun a => Fin.ext ?_)
  match a with
  | ⟨0, _⟩ => show win2_3.index t (0 : Fin 2) * 1 + 1 * 0 = 0; omega
  | ⟨1, _⟩ => show win2_3.index t (1 : Fin 2) * 256 + 1 * q.val = q.val; omega

/-! ## What a point writes back -/

/-- Point t writes back block t of the whole product. -/
theorem flushed4_eq (t : Fin cfg2.N) :
    (dat2 V c).flushed 4 t
      = ((cfg2.win 4).blk t).view.read (Elt Ideal) (proj (V c main_v43) (V c main_arg6)) := by
  show (cfg2.win 4).cut (grid2.coords t) ((dat2 V c).after 4 t) = _
  rw [after2_4]
  unfold out2_4
  rw [View.canon_unit_zero hz]
  simp only [View.ld_unit_zero (S := S1000x256) hz, View.ld_unit_zero (S := S256x256) hz]
  refine funext fun (j : S1000x256.Idx) => ?_
  obtain ⟨p, q, rfl⟩ : ∃ (p : Fin 1000) (q : Fin 256), j = ix2 p q := ⟨j 0, j 1, eq_ix2 j⟩
  have ht : t.val < 50 := t.isLt
  have he : ((cfg2.win 4).blk t).view.emb (ix2 p q) = ix2 (⟨t.val * 1000 + p.val, by omega⟩ : Fin 50000) q := by
    obtain ⟨-, -, -, -, -, -, -, -, e0, e1, -⟩ := idx_facts t
    refine funext fun a => Fin.ext ?_
    match a with
    | ⟨0, _⟩ => show win2_4.index t (0 : Fin 2) * 1000 + 1 * p.val = t.val * 1000 + p.val; omega
    | ⟨1, _⟩ => show win2_4.index t (1 : Fin 2) * 256 + 1 * q.val = q.val; omega
  show k2_pay1 (F := Ideal) (iblk2 V c 0 t) (iblk2 V c 1 t) (ix2 p q)
      = proj (V c main_v43) (V c main_arg6) (((cfg2.win 4).blk t).view.emb (ix2 p q))
  rw [he, pay1_apply]
  exact prod_at (iblk2 V c 0 t) (iblk2 V c 1 t) (V c main_v43) (V c main_arg6) ⟨t.val * 1000 + p.val, by omega⟩ p q
    (fun k => blk_x V c t p k _ rfl) (fun k => blk_w V c t k q)

/-- Point t writes back block t of the self-loop term of the whole product. -/
theorem flushed5_eq (t : Fin cfg2.N) :
    (dat2 V c).flushed 5 t
      = ((cfg2.win 5).blk t).view.read (Elt Ideal)
          (selfTerm (proj (V c main_v43) (V c main_arg6)) (V c main_v51) (V c main_v68)) := by
  show (cfg2.win 5).cut (grid2.coords t) ((dat2 V c).after 5 t) = _
  rw [after2_5]
  unfold out2_5
  rw [View.canon_unit_zero hz]
  simp only [View.ld_unit_zero (S := S1000x256) hz, View.ld_unit_zero (S := S256x256) hz,
    View.ld_unit_zero (S := S1000x1) hz, View.ld_unit_zero (S := S1x256) hz]
  refine funext fun (j : S1000x256.Idx) => ?_
  obtain ⟨p, q, rfl⟩ : ∃ (p : Fin 1000) (q : Fin 256), j = ix2 p q := ⟨j 0, j 1, eq_ix2 j⟩
  have ht : t.val < 50 := t.isLt
  have he : ((cfg2.win 5).blk t).view.emb (ix2 p q) = ix2 (⟨t.val * 1000 + p.val, by omega⟩ : Fin 50000) q := by
    obtain ⟨-, -, -, -, -, -, -, -, -, -, e0, e1⟩ := idx_facts t
    refine funext fun a => Fin.ext ?_
    match a with
    | ⟨0, _⟩ => show win2_5.index t (0 : Fin 2) * 1000 + 1 * p.val = t.val * 1000 + p.val; omega
    | ⟨1, _⟩ => show win2_5.index t (1 : Fin 2) * 256 + 1 * q.val = q.val; omega
  show k2_pay2 (F := Ideal) (iblk2 V c 0 t) (iblk2 V c 1 t) (iblk2 V c 2 t) (iblk2 V c 3 t) (ix2 p q)
      = selfTerm (proj (V c main_v43) (V c main_arg6)) (V c main_v51) (V c main_v68)
          (((cfg2.win 5).blk t).view.emb (ix2 p q))
  rw [he, pay2_apply, selfTerm_apply,
    prod_at (iblk2 V c 0 t) (iblk2 V c 1 t) (V c main_v43) (V c main_arg6) ⟨t.val * 1000 + p.val, by omega⟩ p q
      (fun k => blk_x V c t p k _ rfl) (fun k => blk_w V c t k q),
    blk_d V c t p ⟨t.val * 1000 + p.val, by omega⟩ rfl, blk_b V c t q]

/-! ## The blocks tile the arrays -/

theorem mem_blk4 (t : Fin cfg2.N) (i : S50000x256.Idx) :
    i ∈ ((cfg2.win 4).blk t).view.set ↔ ∀ a : Fin 2, win2_4.index t a * S1000x256.size a ≤ (i a).val
      ∧ (i a).val < win2_4.index t a * S1000x256.size a + S1000x256.size a := by
  show i ∈ ((View.whole main_v69_0).slice (win2_4.rect t)).set ↔ _
  rw [View.set_slice_whole, Rect.mem_set_unit]
  exact Iff.rfl

theorem mem_blk5 (t : Fin cfg2.N) (i : S50000x256.Idx) :
    i ∈ ((cfg2.win 5).blk t).view.set ↔ ∀ a : Fin 2, win2_5.index t a * S1000x256.size a ≤ (i a).val
      ∧ (i a).val < win2_5.index t a * S1000x256.size a + S1000x256.size a := by
  show i ∈ ((View.whole main_v69_1).slice (win2_5.rect t)).set ↔ _
  rw [View.set_slice_whole, Rect.mem_set_unit]
  exact Iff.rfl

/-- Row r lies in the block of point r / 1000. -/
theorem cover4 (i : S50000x256.Idx) :
    ∃ t : Fin cfg2.N, (cfg2.win 4).flush t = true ∧ i ∈ ((cfg2.win 4).blk t).view.set := by
  have hi0 : (i 0).val < 50000 := (i 0).isLt
  have hi1 : (i 1).val < 256 := (i 1).isLt
  have hlt : (i 0).val / 1000 < 50 := by omega
  refine ⟨⟨(i 0).val / 1000, hlt⟩, flush2_4 _, ?_⟩
  rw [mem_blk4]
  obtain ⟨-, -, -, -, -, -, -, -, e0, e1, -⟩ := idx_facts ⟨(i 0).val / 1000, hlt⟩
  have e0' : win2_4.index ⟨(i 0).val / 1000, hlt⟩ (0 : Fin 2) = (i 0).val / 1000 := e0
  intro a
  match a with
  | ⟨0, _⟩ =>
    show win2_4.index ⟨(i 0).val / 1000, hlt⟩ (0 : Fin 2) * 1000 ≤ (i 0).val
      ∧ (i 0).val < win2_4.index ⟨(i 0).val / 1000, hlt⟩ (0 : Fin 2) * 1000 + 1000
    omega
  | ⟨1, _⟩ =>
    show win2_4.index ⟨(i 0).val / 1000, hlt⟩ (1 : Fin 2) * 256 ≤ (i 1).val
      ∧ (i 1).val < win2_4.index ⟨(i 0).val / 1000, hlt⟩ (1 : Fin 2) * 256 + 256
    omega

theorem cover5 (i : S50000x256.Idx) :
    ∃ t : Fin cfg2.N, (cfg2.win 5).flush t = true ∧ i ∈ ((cfg2.win 5).blk t).view.set := by
  have hi0 : (i 0).val < 50000 := (i 0).isLt
  have hi1 : (i 1).val < 256 := (i 1).isLt
  have hlt : (i 0).val / 1000 < 50 := by omega
  refine ⟨⟨(i 0).val / 1000, hlt⟩, flush2_5 _, ?_⟩
  rw [mem_blk5]
  obtain ⟨-, -, -, -, -, -, -, -, -, -, e0, e1⟩ := idx_facts ⟨(i 0).val / 1000, hlt⟩
  have e0' : win2_5.index ⟨(i 0).val / 1000, hlt⟩ (0 : Fin 2) = (i 0).val / 1000 := e0
  intro a
  match a with
  | ⟨0, _⟩ =>
    show win2_5.index ⟨(i 0).val / 1000, hlt⟩ (0 : Fin 2) * 1000 ≤ (i 0).val
      ∧ (i 0).val < win2_5.index ⟨(i 0).val / 1000, hlt⟩ (0 : Fin 2) * 1000 + 1000
    omega
  | ⟨1, _⟩ =>
    show win2_5.index ⟨(i 0).val / 1000, hlt⟩ (1 : Fin 2) * 256 ≤ (i 1).val
      ∧ (i 1).val < win2_5.index ⟨(i 0).val / 1000, hlt⟩ (1 : Fin 2) * 256 + 256
    omega

/-! ## The arrays after the region -/

/-- After the region the first output array is the whole product. -/
theorem out4 : (dat2 V c).arrAt 4 cfg2.N = proj (V c main_v43) (V c main_arg6) :=
  (dat2 V c).arrAt_eq_of_cover 4 _ (fun t _ => flushed4_eq V c t) cover4

/-- After the region the second output array is the self-loop term of the whole product. -/
theorem out5 : (dat2 V c).arrAt 5 cfg2.N
    = selfTerm (proj (V c main_v43) (V c main_arg6)) (V c main_v51) (V c main_v68) :=
  (dat2 V c).arrAt_eq_of_cover 5 _ (fun t _ => flushed5_eq V c t) cover5

end Cert.KernelIdeal.Region2

end
-- ==== Proof.Region3.lean ====
/-
  Region 3: the aggregate and the self-loop term added and rectified, 1000 rows at a time.

  Grid point t stages rows 1000·t … 1000·t + 999 of the aggregated messages and of the self-loop term and writes back
  the same rows of their entrywise sum, each entry's maximum with zero. The three windows move together, so an entry
  of the output block is that function of the same entry of the two input arrays, and the fifty blocks tile the 50000 rows.
-/
import proofs.«140916_j89816356094415_2_alg».proof.Proof.Gen.KernelIdeal.Frame
import proofs.«140916_j89816356094415_2_alg».proof.Proof.Spec
import Idealize.ShloMosaic.Lib.Pipeline.Value
import Idealize.ShloMosaic.Lib.ValueIdx

set_option maxRecDepth 16384

noncomputable section

namespace Cert.KernelIdeal.Region3

open Cert.KernelIdeal Cert.KernelIdeal.Gen
open Idealize.ShloMosaic Idealize.ShloMosaic.TcCoe Idealize.SL.Sem Idealize.ShloMosaic.ValueIdx
open Idealize.ShloMosaic.Pipeline (Dat)
open Cert.Spec

theorem hz : (![0, 0] : Fin 2 → Nat) = fun _ => 0 := funext fun a => by fin_cases a <;> rfl

/-- The body's stored value at an index. -/
theorem pay_apply (x0 x1 : FVec Ideal S1000x256 .f32) (j : S1000x256.Idx) :
    k3_pay1 (F := Ideal) x0 x1 j = max (x0 j + x1 j) (Ideal.ofBits .f32 0x00000000#32) := by
  unfold k3_pay1
  show max (shapeCast S1000x256 x0 shapeCasts_S1000x256_S1000x256 j + shapeCast S1000x256 x1 shapeCasts_S1000x256_S1000x256 j)
      (Ideal.ofBits .f32 0x00000000#32) = _
  rw [shapeCast_self, shapeCast_self]

/-- An output block entry whose two operands are entries of whole arrays is the combined array's entry there. -/
theorem comb_at (x0 x1 : FVec Ideal S1000x256 .f32) (A B : FVec Ideal NF .f32) (j : S1000x256.Idx) (i : NF.Idx)
    (h0 : x0 j = A i) (h1 : x1 j = B i) : k3_pay1 (F := Ideal) x0 x1 j = combineRelu A B i := by
  rw [pay_apply, h0, h1]
  rfl

variable (V : (c : Dev nD) → (b : Ref sig .tc) → Buf (Elt Ideal) ((c : Thread nD τ).loc b)) (c : Dev nD)

/-- The printed index maps over the grid: every window's block t starts at row block t. -/
theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0 :=
  (by decide +kernel : ∀ t : Fin grid3.N, _)

/-- The aggregate's block entry is the aggregate at the output block's position. -/
theorem blk_a (t : Fin cfg3.N) (j : S1000x256.Idx) :
    iblk3 V c 0 t j = V c main_v82 (((cfg3.win 2).blk t).view.emb j) := by
  show V c main_v82 (((cfg3.win 0).blk t).view.emb j) = V c main_v82 (((cfg3.win 2).blk t).view.emb j)
  obtain ⟨e0, e1, e2, e3, e4, e5⟩ := idx_facts t
  refine congrArg (V c main_v82) (funext fun a => Fin.ext ?_)
  match a with
  | ⟨0, _⟩ => show win3_0.index t (0 : Fin 2) * 1000 + 1 * (j 0).val = win3_2.index t (0 : Fin 2) * 1000 + 1 * (j 0).val; omega
  | ⟨1, _⟩ => show win3_0.index t (1 : Fin 2) * 256 + 1 * (j 1).val = win3_2.index t (1 : Fin 2) * 256 + 1 * (j 1).val; omega

/-- The self-loop term's block entry is the term at the output block's position. -/
theorem blk_s (t : Fin cfg3.N) (j : S1000x256.Idx) :
    iblk3 V c 1 t j = V c main_v69_1 (((cfg3.win 2).blk t).view.emb j) := by
  show V c main_v69_1 (((cfg3.win 1).blk t).view.emb j) = V c main_v69_1 (((cfg3.win 2).blk t).view.emb j)
  obtain ⟨e0, e1, e2, e3, e4, e5⟩ := idx_facts t
  refine congrArg (V c main_v69_1) (funext fun a => Fin.ext ?_)
  match a with
  | ⟨0, _⟩ => show win3_1.index t (0 : Fin 2) * 1000 + 1 * (j 0).val = win3_2.index t (0 : Fin 2) * 1000 + 1 * (j 0).val; omega
  | ⟨1, _⟩ => show win3_1.index t (1 : Fin 2) * 256 + 1 * (j 1).val = win3_2.index t (1 : Fin 2) * 256 + 1 * (j 1).val; omega

/-- Point t writes back block t of the combined array. -/
theorem flushed2_eq (t : Fin cfg3.N) :
    (dat3 V c).flushed 2 t
      = ((cfg3.win 2).blk t).view.read (Elt Ideal) (combineRelu (V c main_v82) (V c main_v69_1)) := by
  show (cfg3.win 2).cut (grid3.coords t) ((dat3 V c).after 2 t) = _
  rw [after3_2]
  unfold out3_2
  rw [View.canon_unit_zero hz]
  simp only [View.ld_unit_zero (S := S1000x256) hz]
  refine funext fun (j : S1000x256.Idx) => ?_
  exact comb_at (iblk3 V c 0 t) (iblk3 V c 1 t) (V c main_v82) (V c main_v69_1) j (((cfg3.win 2).blk t).view.emb j)
    (blk_a V c t j) (blk_s V c t j)

theorem mem_blk2 (t : Fin cfg3.N) (i : S50000x256.Idx) :
    i ∈ ((cfg3.win 2).blk t).view.set ↔ ∀ a : Fin 2, win3_2.index t a * S1000x256.size a ≤ (i a).val
      ∧ (i a).val < win3_2.index t a * S1000x256.size a + S1000x256.size a := by
  show i ∈ ((View.whole main_v83).slice (win3_2.rect t)).set ↔ _
  rw [View.set_slice_whole, Rect.mem_set_unit]
  exact Iff.rfl

/-- Row r lies in the block of point r / 1000. -/
theorem cover2 (i : S50000x256.Idx) :
    ∃ t : Fin cfg3.N, (cfg3.win 2).flush t = true ∧ i ∈ ((cfg3.win 2).blk t).view.set := by
  have hi0 : (i 0).val < 50000 := (i 0).isLt
  have hi1 : (i 1).val < 256 := (i 1).isLt
  have hlt : (i 0).val / 1000 < 50 := by omega
  refine ⟨⟨(i 0).val / 1000, hlt⟩, flush3_2 _, ?_⟩
  rw [mem_blk2]
  obtain ⟨-, -, -, -, e0, e1⟩ := idx_facts ⟨(i 0).val / 1000, hlt⟩
  have e0' : win3_2.index ⟨(i 0).val / 1000, hlt⟩ (0 : Fin 2) = (i 0).val / 1000 := e0
  intro a
  match a with
  | ⟨0, _⟩ =>
    show win3_2.index ⟨(i 0).val / 1000, hlt⟩ (0 : Fin 2) * 1000 ≤ (i 0).val
      ∧ (i 0).val < win3_2.index ⟨(i 0).val / 1000, hlt⟩ (0 : Fin 2) * 1000 + 1000
    omega
  | ⟨1, _⟩ =>
    show win3_2.index ⟨(i 0).val / 1000, hlt⟩ (1 : Fin 2) * 256 ≤ (i 1).val
      ∧ (i 1).val < win3_2.index ⟨(i 0).val / 1000, hlt⟩ (1 : Fin 2) * 256 + 256
    omega

/-- After the region the output array is the combined array. -/
theorem out2 : (dat3 V c).arrAt 2 cfg3.N = combineRelu (V c main_v82) (V c main_v69_1) :=
  (dat3 V c).arrAt_eq_of_cover 2 _ (fun t _ => flushed2_eq V c t) cover2

end Cert.KernelIdeal.Region3

end
-- ==== Proof.Region0.lean ====
/-
  Region 0: a block of 1000 rows of a dense projection and of its self-loop term.

  Grid point t stages rows 1000·t … 1000·t + 999 of the layer's input, the whole weight matrix, the same rows of the
  column of squared inverse square-root degrees and the bias row, and writes back the same rows of two arrays: the
  product of the input rows with the weights, and that product scaled row by row by the degree column plus the bias.
  At the exact values the rounding of the operands to bfloat16 is the identity and the product into a zero accumulator is
  the sum over the inner axis. The fifty blocks tile the 50000 rows, so after the region the first array is the whole
  product and the second is the product times the degree column plus the bias, entry by entry.
-/
import proofs.«140916_j89816356094415_2_alg».proof.Proof.Gen.KernelIdeal.Frame
import proofs.«140916_j89816356094415_2_alg».proof.Proof.Gen.ReferenceIdeal
import proofs.«140916_j89816356094415_2_alg».proof.Proof.LibPlainDot
import proofs.«140916_j89816356094415_2_alg».proof.Proof.Spec
import Idealize.ShloMosaic.Lib.Pipeline.Value
import Idealize.ShloMosaic.Lib.ValueIdx

set_option maxRecDepth 16384

noncomputable section

namespace Cert.KernelIdeal.Region0

open Cert.KernelIdeal Cert.KernelIdeal.Gen
open Idealize.ShloMosaic Idealize.ShloMosaic.TcCoe Idealize.SL.Sem Idealize.ShloMosaic.ValueIdx
open Idealize.ShloMosaic.Pipeline (Dat)
open Cert.Spec
open scoped BigOperators

theorem hz : (![0, 0] : Fin 2 → Nat) = fun _ => 0 := funext fun a => by fin_cases a <;> rfl

/-- The whole projection: the host's product of the two whole arrays. -/
abbrev proj (X : FVec Ideal ⟨2, ![50000, 1152]⟩ .f32) (W : FVec Ideal ⟨2, ![1152, 256]⟩ .f32) : FVec Ideal NF .f32 :=
  Host.dotGeneral (F := Ideal) Cert.ReferenceIdeal.dot_S50000x1152_S1152x256_S50000x256_1_0_0_1_n_n none X W

/-! ## The body's two stored values at an index -/

/-- The product block at (p, q): the sum over the inner axis. -/
theorem pay1_apply (x0 : FVec Ideal S1000x1152 .f32) (x1 : FVec Ideal S1152x256 .f32) (p : Fin 1000) (q : Fin 256) :
    k0_pay1 (F := Ideal) x0 x1 (ix2 p q) = ∑ k : Fin 1152, x0 (ix2 p k) * x1 (ix2 k q) := by
  unfold k0_pay1
  exact Cert.Lib.PlainDot.matmul_zero_apply dot_S1000x1152_S1152x256_S1000x256_1_0_0_1_n_n_wf none _ _ p q

/-- The self-loop block at (p, q): the product entry times the degree column's row p, plus the bias at q. -/
theorem pay2_apply (x0 : FVec Ideal S1000x1152 .f32) (x1 : FVec Ideal S1152x256 .f32) (x2 : FVec Ideal S1000x1 .f32)
    (x3 : FVec Ideal S1x256 .f32) (p : Fin 1000) (q : Fin 256) :
    k0_pay2 (F := Ideal) x0 x1 x2 x3 (ix2 p q)
      = (∑ k : Fin 1152, x0 (ix2 p k) * x1 (ix2 k q)) * x2 (ix2 p (0 : Fin 1)) + x3 (ix2 (0 : Fin 1) q) := by
  unfold k0_pay2
  show k0_pay1 (F := Ideal) x0 x1 (ix2 p q)
      * broadcastTo S1000x256 (shapeCast S1000x1 x2 shapeCasts_S1000x1_S1000x1) broadcasts_S1000x1_S1000x256 (ix2 p q)
      + broadcastTo S1000x256 (shapeCast S1x256 x3 shapeCasts_S1x256_S1x256) broadcasts_S1x256_S1000x256 (ix2 p q) = _
  rw [pay1_apply, Cert.Lib.Keepdims.bcastCol_apply, Cert.Lib.Rows.bcastRow_apply, shapeCast_self, shapeCast_self]

/-- A product block whose operand rows are rows of whole arrays is the whole product at the corresponding row. -/
theorem prod_at (x0 : FVec Ideal S1000x1152 .f32) (x1 : FVec Ideal S1152x256 .f32)
    (X : FVec Ideal ⟨2, ![50000, 1152]⟩ .f32) (W : FVec Ideal ⟨2, ![1152, 256]⟩ .f32)
    (r : Fin 50000) (p : Fin 1000) (q : Fin 256)
    (h0 : ∀ k : Fin 1152, x0 (ix2 p k) = X (ix2 r k)) (h1 : ∀ k : Fin 1152, x1 (ix2 k q) = W (ix2 k q)) :
    (∑ k : Fin 1152, x0 (ix2 p k) * x1 (ix2 k q)) = proj X W (ix2 r q) := by
  refine (Finset.sum_congr rfl fun k _ => ?_).trans
    (Cert.Lib.PlainDot.dotGeneral_apply Cert.ReferenceIdeal.Gen.dot_S50000x1152_S1152x256_S50000x256_1_0_0_1_n_n_wf none X W r q).symm
  rw [h0 k, h1 k]

/-! ## The windows' blocks -/

variable (V : (c : Dev nD) → (b : Ref sig .tc) → Buf (Elt Ideal) ((c : Thread nD τ).loc b)) (c : Dev nD)

/-- The printed index maps over the grid: a row-blocked window's block t starts at row block t, the whole-array
    windows stay at block 0. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-- The input block at point t holds rows 1000·t … of the input array. -/
theorem blk_x (t : Fin cfg0.N) (p : Fin 1000) (k : Fin 1152) (r : Fin 50000) (hr : r.val = t.val * 1000 + p.val) :
    iblk0 V c 0 t (ix2 p k) = V c main_arg0 (ix2 r k) := by
  show V c main_arg0 (((cfg0.win 0).blk t).view.emb (ix2 p k)) = V c main_arg0 (ix2 r k)
  obtain ⟨e0, e1, -⟩ := idx_facts t
  refine congrArg (V c main_arg0) (funext fun a => Fin.ext ?_)
  match a with
  | ⟨0, _⟩ => show win0_0.index t (0 : Fin 2) * 1000 + 1 * p.val = r.val; omega
  | ⟨1, _⟩ => show win0_0.index t (1 : Fin 2) * 1152 + 1 * k.val = k.val; omega

/-- The weight block at every point is the whole weight matrix. -/
theorem blk_w (t : Fin cfg0.N) (k : Fin 1152) (q : Fin 256) :
    iblk0 V c 1 t (ix2 k q) = V c main_arg4 (ix2 k q) := by
  show V c main_arg4 (((cfg0.win 1).blk t).view.emb (ix2 k q)) = V c main_arg4 (ix2 k q)
  obtain ⟨-, -, e0, e1, -⟩ := idx_facts t
  refine congrArg (V c main_arg4) (funext fun a => Fin.ext ?_)
  match a with
  | ⟨0, _⟩ => show win0_1.index t (0 : Fin 2) * 1152 + 1 * k.val = k.val; omega
  | ⟨1, _⟩ => show win0_1.index t (1 : Fin 2) * 256 + 1 * q.val = q.val; omega

/-- The degree-column block at point t holds rows 1000·t … of the column. -/
theorem blk_d (t : Fin cfg0.N) (p : Fin 1000) (r : Fin 50000) (hr : r.val = t.val * 1000 + p.val) :
    iblk0 V c 2 t (ix2 p (0 : Fin 1)) = V c main_v11 (ix2 r (0 : Fin 1)) := by
  show V c main_v11 (((cfg0.win 2).blk t).view.emb (ix2 p (0 : Fin 1))) = V c main_v11 (ix2 r (0 : Fin 1))
  obtain ⟨-, -, -, -, e0, e1, -⟩ := idx_facts t
  refine congrArg (V c main_v11) (funext fun a => Fin.ext ?_)
  match a with
  | ⟨0, _⟩ => show win0_2.index t (0 : Fin 2) * 1000 + 1 * p.val = r.val; omega
  | ⟨1, _⟩ => show win0_2.index t (1 : Fin 2) * 1 + 1 * 0 = 0; omega

/-- The bias block at every point is the whole bias row. -/
theorem blk_b (t : Fin cfg0.N) (q : Fin 256) :
    iblk0 V c 3 t (ix2 (0 : Fin 1) q) = V c main_v28 (ix2 (0 : Fin 1) q) := by
  show V c main_v28 (((cfg0.win 3).blk t).view.emb (ix2 (0 : Fin 1) q)) = V c main_v28 (ix2 (0 : Fin 1) q)
  obtain ⟨-, -, -, -, -, -, e0, e1, -⟩ := idx_facts t
  refine congrArg (V c main_v28) (funext fun a => Fin.ext ?_)
  match a with
  | ⟨0, _⟩ => show win0_3.index t (0 : Fin 2) * 1 + 1 * 0 = 0; omega
  | ⟨1, _⟩ => show win0_3.index t (1 : Fin 2) * 256 + 1 * q.val = q.val; omega

/-! ## What a point writes back -/

/-- Point t writes back block t of the whole product. -/
theorem flushed4_eq (t : Fin cfg0.N) :
    (dat0 V c).flushed 4 t
      = ((cfg0.win 4).blk t).view.read (Elt Ideal) (proj (V c main_arg0) (V c main_arg4)) := by
  show (cfg0.win 4).cut (grid0.coords t) ((dat0 V c).after 4 t) = _
  rw [after0_4]
  unfold out0_4
  rw [View.canon_unit_zero hz]
  simp only [View.ld_unit_zero (S := S1000x1152) hz, View.ld_unit_zero (S := S1152x256) hz]
  refine funext fun (j : S1000x256.Idx) => ?_
  obtain ⟨p, q, rfl⟩ : ∃ (p : Fin 1000) (q : Fin 256), j = ix2 p q := ⟨j 0, j 1, eq_ix2 j⟩
  have ht : t.val < 50 := t.isLt
  have he : ((cfg0.win 4).blk t).view.emb (ix2 p q) = ix2 (⟨t.val * 1000 + p.val, by omega⟩ : Fin 50000) q := by
    obtain ⟨-, -, -, -, -, -, -, -, e0, e1, -⟩ := idx_facts t
    refine funext fun a => Fin.ext ?_
    match a with
    | ⟨0, _⟩ => show win0_4.index t (0 : Fin 2) * 1000 + 1 * p.val = t.val * 1000 + p.val; omega
    | ⟨1, _⟩ => show win0_4.index t (1 : Fin 2) * 256 + 1 * q.val = q.val; omega
  show k0_pay1 (F := Ideal) (iblk0 V c 0 t) (iblk0 V c 1 t) (ix2 p q)
      = proj (V c main_arg0) (V c main_arg4) (((cfg0.win 4).blk t).view.emb (ix2 p q))
  rw [he, pay1_apply]
  exact prod_at (iblk0 V c 0 t) (iblk0 V c 1 t) (V c main_arg0) (V c main_arg4) ⟨t.val * 1000 + p.val, by omega⟩ p q
    (fun k => blk_x V c t p k _ rfl) (fun k => blk_w V c t k q)

/-- Point t writes back block t of the self-loop term of the whole product. -/
theorem flushed5_eq (t : Fin cfg0.N) :
    (dat0 V c).flushed 5 t
      = ((cfg0.win 5).blk t).view.read (Elt Ideal)
          (selfTerm (proj (V c main_arg0) (V c main_arg4)) (V c main_v11) (V c main_v28)) := by
  show (cfg0.win 5).cut (grid0.coords t) ((dat0 V c).after 5 t) = _
  rw [after0_5]
  unfold out0_5
  rw [View.canon_unit_zero hz]
  simp only [View.ld_unit_zero (S := S1000x1152) hz, View.ld_unit_zero (S := S1152x256) hz,
    View.ld_unit_zero (S := S1000x1) hz, View.ld_unit_zero (S := S1x256) hz]
  refine funext fun (j : S1000x256.Idx) => ?_
  obtain ⟨p, q, rfl⟩ : ∃ (p : Fin 1000) (q : Fin 256), j = ix2 p q := ⟨j 0, j 1, eq_ix2 j⟩
  have ht : t.val < 50 := t.isLt
  have he : ((cfg0.win 5).blk t).view.emb (ix2 p q) = ix2 (⟨t.val * 1000 + p.val, by omega⟩ : Fin 50000) q := by
    obtain ⟨-, -, -, -, -, -, -, -, -, -, e0, e1⟩ := idx_facts t
    refine funext fun a => Fin.ext ?_
    match a with
    | ⟨0, _⟩ => show win0_5.index t (0 : Fin 2) * 1000 + 1 * p.val = t.val * 1000 + p.val; omega
    | ⟨1, _⟩ => show win0_5.index t (1 : Fin 2) * 256 + 1 * q.val = q.val; omega
  show k0_pay2 (F := Ideal) (iblk0 V c 0 t) (iblk0 V c 1 t) (iblk0 V c 2 t) (iblk0 V c 3 t) (ix2 p q)
      = selfTerm (proj (V c main_arg0) (V c main_arg4)) (V c main_v11) (V c main_v28)
          (((cfg0.win 5).blk t).view.emb (ix2 p q))
  rw [he, pay2_apply, selfTerm_apply,
    prod_at (iblk0 V c 0 t) (iblk0 V c 1 t) (V c main_arg0) (V c main_arg4) ⟨t.val * 1000 + p.val, by omega⟩ p q
      (fun k => blk_x V c t p k _ rfl) (fun k => blk_w V c t k q),
    blk_d V c t p ⟨t.val * 1000 + p.val, by omega⟩ rfl, blk_b V c t q]

/-! ## The blocks tile the arrays -/

theorem mem_blk4 (t : Fin cfg0.N) (i : S50000x256.Idx) :
    i ∈ ((cfg0.win 4).blk t).view.set ↔ ∀ a : Fin 2, win0_4.index t a * S1000x256.size a ≤ (i a).val
      ∧ (i a).val < win0_4.index t a * S1000x256.size a + S1000x256.size a := by
  show i ∈ ((View.whole main_v29_0).slice (win0_4.rect t)).set ↔ _
  rw [View.set_slice_whole, Rect.mem_set_unit]
  exact Iff.rfl

theorem mem_blk5 (t : Fin cfg0.N) (i : S50000x256.Idx) :
    i ∈ ((cfg0.win 5).blk t).view.set ↔ ∀ a : Fin 2, win0_5.index t a * S1000x256.size a ≤ (i a).val
      ∧ (i a).val < win0_5.index t a * S1000x256.size a + S1000x256.size a := by
  show i ∈ ((View.whole main_v29_1).slice (win0_5.rect t)).set ↔ _
  rw [View.set_slice_whole, Rect.mem_set_unit]
  exact Iff.rfl

/-- Row r lies in the block of point r / 1000. -/
theorem cover4 (i : S50000x256.Idx) :
    ∃ t : Fin cfg0.N, (cfg0.win 4).flush t = true ∧ i ∈ ((cfg0.win 4).blk t).view.set := by
  have hi0 : (i 0).val < 50000 := (i 0).isLt
  have hi1 : (i 1).val < 256 := (i 1).isLt
  have hlt : (i 0).val / 1000 < 50 := by omega
  refine ⟨⟨(i 0).val / 1000, hlt⟩, flush0_4 _, ?_⟩
  rw [mem_blk4]
  obtain ⟨-, -, -, -, -, -, -, -, e0, e1, -⟩ := idx_facts ⟨(i 0).val / 1000, hlt⟩
  have e0' : win0_4.index ⟨(i 0).val / 1000, hlt⟩ (0 : Fin 2) = (i 0).val / 1000 := e0
  intro a
  match a with
  | ⟨0, _⟩ =>
    show win0_4.index ⟨(i 0).val / 1000, hlt⟩ (0 : Fin 2) * 1000 ≤ (i 0).val
      ∧ (i 0).val < win0_4.index ⟨(i 0).val / 1000, hlt⟩ (0 : Fin 2) * 1000 + 1000
    omega
  | ⟨1, _⟩ =>
    show win0_4.index ⟨(i 0).val / 1000, hlt⟩ (1 : Fin 2) * 256 ≤ (i 1).val
      ∧ (i 1).val < win0_4.index ⟨(i 0).val / 1000, hlt⟩ (1 : Fin 2) * 256 + 256
    omega

theorem cover5 (i : S50000x256.Idx) :
    ∃ t : Fin cfg0.N, (cfg0.win 5).flush t = true ∧ i ∈ ((cfg0.win 5).blk t).view.set := by
  have hi0 : (i 0).val < 50000 := (i 0).isLt
  have hi1 : (i 1).val < 256 := (i 1).isLt
  have hlt : (i 0).val / 1000 < 50 := by omega
  refine ⟨⟨(i 0).val / 1000, hlt⟩, flush0_5 _, ?_⟩
  rw [mem_blk5]
  obtain ⟨-, -, -, -, -, -, -, -, -, -, e0, e1⟩ := idx_facts ⟨(i 0).val / 1000, hlt⟩
  have e0' : win0_5.index ⟨(i 0).val / 1000, hlt⟩ (0 : Fin 2) = (i 0).val / 1000 := e0
  intro a
  match a with
  | ⟨0, _⟩ =>
    show win0_5.index ⟨(i 0).val / 1000, hlt⟩ (0 : Fin 2) * 1000 ≤ (i 0).val
      ∧ (i 0).val < win0_5.index ⟨(i 0).val / 1000, hlt⟩ (0 : Fin 2) * 1000 + 1000
    omega
  | ⟨1, _⟩ =>
    show win0_5.index ⟨(i 0).val / 1000, hlt⟩ (1 : Fin 2) * 256 ≤ (i 1).val
      ∧ (i 1).val < win0_5.index ⟨(i 0).val / 1000, hlt⟩ (1 : Fin 2) * 256 + 256
    omega

/-! ## The arrays after the region -/

/-- After the region the first output array is the whole product. -/
theorem out4 : (dat0 V c).arrAt 4 cfg0.N = proj (V c main_arg0) (V c main_arg4) :=
  (dat0 V c).arrAt_eq_of_cover 4 _ (fun t _ => flushed4_eq V c t) cover4

/-- After the region the second output array is the self-loop term of the whole product. -/
theorem out5 : (dat0 V c).arrAt 5 cfg0.N
    = selfTerm (proj (V c main_arg0) (V c main_arg4)) (V c main_v11) (V c main_v28) :=
  (dat0 V c).arrAt_eq_of_cover 5 _ (fun t _ => flushed5_eq V c t) cover5

end Cert.KernelIdeal.Region0

end
-- ==== Proof.Region1.lean ====
/-
  Region 1: the aggregate and the self-loop term added and rectified, 1000 rows at a time.

  Grid point t stages rows 1000·t … 1000·t + 999 of the aggregated messages and of the self-loop term and writes back
  the same rows of their entrywise sum, each entry's maximum with zero. The three windows move together, so an entry
  of the output block is that function of the same entry of the two input arrays, and the fifty blocks tile the 50000 rows.
-/
import proofs.«140916_j89816356094415_2_alg».proof.Proof.Gen.KernelIdeal.Frame
import proofs.«140916_j89816356094415_2_alg».proof.Proof.Spec
import Idealize.ShloMosaic.Lib.Pipeline.Value
import Idealize.ShloMosaic.Lib.ValueIdx

set_option maxRecDepth 16384

noncomputable section

namespace Cert.KernelIdeal.Region1

open Cert.KernelIdeal Cert.KernelIdeal.Gen
open Idealize.ShloMosaic Idealize.ShloMosaic.TcCoe Idealize.SL.Sem Idealize.ShloMosaic.ValueIdx
open Idealize.ShloMosaic.Pipeline (Dat)
open Cert.Spec

theorem hz : (![0, 0] : Fin 2 → Nat) = fun _ => 0 := funext fun a => by fin_cases a <;> rfl

/-- The body's stored value at an index. -/
theorem pay_apply (x0 x1 : FVec Ideal S1000x256 .f32) (j : S1000x256.Idx) :
    k1_pay1 (F := Ideal) x0 x1 j = max (x0 j + x1 j) (Ideal.ofBits .f32 0x00000000#32) := by
  unfold k1_pay1
  show max (shapeCast S1000x256 x0 shapeCasts_S1000x256_S1000x256 j + shapeCast S1000x256 x1 shapeCasts_S1000x256_S1000x256 j)
      (Ideal.ofBits .f32 0x00000000#32) = _
  rw [shapeCast_self, shapeCast_self]

/-- An output block entry whose two operands are entries of whole arrays is the combined array's entry there. -/
theorem comb_at (x0 x1 : FVec Ideal S1000x256 .f32) (A B : FVec Ideal NF .f32) (j : S1000x256.Idx) (i : NF.Idx)
    (h0 : x0 j = A i) (h1 : x1 j = B i) : k1_pay1 (F := Ideal) x0 x1 j = combineRelu A B i := by
  rw [pay_apply, h0, h1]
  rfl

variable (V : (c : Dev nD) → (b : Ref sig .tc) → Buf (Elt Ideal) ((c : Thread nD τ).loc b)) (c : Dev nD)

/-- The printed index maps over the grid: every window's block t starts at row block t. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- The aggregate's block entry is the aggregate at the output block's position. -/
theorem blk_a (t : Fin cfg1.N) (j : S1000x256.Idx) :
    iblk1 V c 0 t j = V c main_v42 (((cfg1.win 2).blk t).view.emb j) := by
  show V c main_v42 (((cfg1.win 0).blk t).view.emb j) = V c main_v42 (((cfg1.win 2).blk t).view.emb j)
  obtain ⟨e0, e1, e2, e3, e4, e5⟩ := idx_facts t
  refine congrArg (V c main_v42) (funext fun a => Fin.ext ?_)
  match a with
  | ⟨0, _⟩ => show win1_0.index t (0 : Fin 2) * 1000 + 1 * (j 0).val = win1_2.index t (0 : Fin 2) * 1000 + 1 * (j 0).val; omega
  | ⟨1, _⟩ => show win1_0.index t (1 : Fin 2) * 256 + 1 * (j 1).val = win1_2.index t (1 : Fin 2) * 256 + 1 * (j 1).val; omega

/-- The self-loop term's block entry is the term at the output block's position. -/
theorem blk_s (t : Fin cfg1.N) (j : S1000x256.Idx) :
    iblk1 V c 1 t j = V c main_v29_1 (((cfg1.win 2).blk t).view.emb j) := by
  show V c main_v29_1 (((cfg1.win 1).blk t).view.emb j) = V c main_v29_1 (((cfg1.win 2).blk t).view.emb j)
  obtain ⟨e0, e1, e2, e3, e4, e5⟩ := idx_facts t
  refine congrArg (V c main_v29_1) (funext fun a => Fin.ext ?_)
  match a with
  | ⟨0, _⟩ => show win1_1.index t (0 : Fin 2) * 1000 + 1 * (j 0).val = win1_2.index t (0 : Fin 2) * 1000 + 1 * (j 0).val; omega
  | ⟨1, _⟩ => show win1_1.index t (1 : Fin 2) * 256 + 1 * (j 1).val = win1_2.index t (1 : Fin 2) * 256 + 1 * (j 1).val; omega

/-- Point t writes back block t of the combined array. -/
theorem flushed2_eq (t : Fin cfg1.N) :
    (dat1 V c).flushed 2 t
      = ((cfg1.win 2).blk t).view.read (Elt Ideal) (combineRelu (V c main_v42) (V c main_v29_1)) := by
  show (cfg1.win 2).cut (grid1.coords t) ((dat1 V c).after 2 t) = _
  rw [after1_2]
  unfold out1_2
  rw [View.canon_unit_zero hz]
  simp only [View.ld_unit_zero (S := S1000x256) hz]
  refine funext fun (j : S1000x256.Idx) => ?_
  exact comb_at (iblk1 V c 0 t) (iblk1 V c 1 t) (V c main_v42) (V c main_v29_1) j (((cfg1.win 2).blk t).view.emb j)
    (blk_a V c t j) (blk_s V c t j)

theorem mem_blk2 (t : Fin cfg1.N) (i : S50000x256.Idx) :
    i ∈ ((cfg1.win 2).blk t).view.set ↔ ∀ a : Fin 2, win1_2.index t a * S1000x256.size a ≤ (i a).val
      ∧ (i a).val < win1_2.index t a * S1000x256.size a + S1000x256.size a := by
  show i ∈ ((View.whole main_v43).slice (win1_2.rect t)).set ↔ _
  rw [View.set_slice_whole, Rect.mem_set_unit]
  exact Iff.rfl

/-- Row r lies in the block of point r / 1000. -/
theorem cover2 (i : S50000x256.Idx) :
    ∃ t : Fin cfg1.N, (cfg1.win 2).flush t = true ∧ i ∈ ((cfg1.win 2).blk t).view.set := by
  have hi0 : (i 0).val < 50000 := (i 0).isLt
  have hi1 : (i 1).val < 256 := (i 1).isLt
  have hlt : (i 0).val / 1000 < 50 := by omega
  refine ⟨⟨(i 0).val / 1000, hlt⟩, flush1_2 _, ?_⟩
  rw [mem_blk2]
  obtain ⟨-, -, -, -, e0, e1⟩ := idx_facts ⟨(i 0).val / 1000, hlt⟩
  have e0' : win1_2.index ⟨(i 0).val / 1000, hlt⟩ (0 : Fin 2) = (i 0).val / 1000 := e0
  intro a
  match a with
  | ⟨0, _⟩ =>
    show win1_2.index ⟨(i 0).val / 1000, hlt⟩ (0 : Fin 2) * 1000 ≤ (i 0).val
      ∧ (i 0).val < win1_2.index ⟨(i 0).val / 1000, hlt⟩ (0 : Fin 2) * 1000 + 1000
    omega
  | ⟨1, _⟩ =>
    show win1_2.index ⟨(i 0).val / 1000, hlt⟩ (1 : Fin 2) * 256 ≤ (i 1).val
      ∧ (i 1).val < win1_2.index ⟨(i 0).val / 1000, hlt⟩ (1 : Fin 2) * 256 + 256
    omega

/-- After the region the output array is the combined array. -/
theorem out2 : (dat1 V c).arrAt 2 cfg1.N = combineRelu (V c main_v42) (V c main_v29_1) :=
  (dat1 V c).arrAt_eq_of_cover 2 _ (fun t _ => flushed2_eq V c t) cover2

end Cert.KernelIdeal.Region1

end
-- ==== Proof.KLayer1.lean ====
/-
  Layer 1 of the network in the pipelined program, read through the fold of its segments.

  A stretch of host operations computes, from the edge list and the edge weights, the per-edge normalisation, the
  column of squared inverse square-root degrees and the bias row; a region writes the dense projection of the layer's
  input and its self-loop term; a stretch gathers the projection's rows along the edges, scales them and sums them
  into the target nodes; a last region adds the self-loop term and rectifies. Each value is the one
  the plain program computes for the same layer, the epilogue by the associativity of addition.
-/
import proofs.«140916_j89816356094415_2_alg».proof.Proof.Gen.KernelIdeal.Frame
import proofs.«140916_j89816356094415_2_alg».proof.Proof.Gen.ReferenceIdeal.Read
import proofs.«140916_j89816356094415_2_alg».proof.Proof.Region0
import proofs.«140916_j89816356094415_2_alg».proof.Proof.Region1
import proofs.«140916_j89816356094415_2_alg».proof.Proof.KPre1
import proofs.«140916_j89816356094415_2_alg».proof.Proof.KPre2
set_option maxRecDepth 16384

noncomputable section

namespace Cert.KernelIdeal.KLayer1

open Cert.KernelIdeal Cert.KernelIdeal.Gen
open Idealize.ShloMosaic Idealize.ShloMosaic.TcCoe Idealize.SL.Sem Idealize.ShloMosaic.StableHlo
open Cert.ReferenceIdeal.Read
open Cert.Spec

variable (m : (ℓ : Loc nD τ sig) → Buf (Elt Ideal) ℓ) (ρ : Dev nD → PrngReg) (c : Dev nD)

set_option quotPrecheck false
local notation "a0" => m ((c : Thread nD τ).loc main_arg0)
local notation "a1" => m ((c : Thread nD τ).loc main_arg1)
local notation "a2" => m ((c : Thread nD τ).loc main_arg2)
local notation "a3" => m ((c : Thread nD τ).loc main_arg3)
local notation "a4" => m ((c : Thread nD τ).loc main_arg4)
local notation "a5" => m ((c : Thread nD τ).loc main_arg5)
local notation "a6" => m ((c : Thread nD τ).loc main_arg6)
local notation "a7" => m ((c : Thread nD τ).loc main_arg7)
local notation "a8" => m ((c : Thread nD τ).loc main_arg8)
local notation "a9" => m ((c : Thread nD τ).loc main_arg9)
local notation "a10" => m ((c : Thread nD τ).loc main_arg10)
local notation "a11" => m ((c : Thread nD τ).loc main_arg11)

/-! ## The normalisation, the degree column and the bias row -/

set_option maxHeartbeats 4000000 in
theorem w_norm : W1 m ρ c (Proc.devRef .tc main_v27) = val_main_v26 (F := Ideal) a1 a2 := by
  show StableHlo.after hostOps0 (W0 m ρ c) (Proc.devRef .tc main_v27) = _
  after_results_simp
  rfl

set_option maxHeartbeats 4000000 in
theorem w_d : W1 m ρ c (Proc.devRef .tc main_v11) = shapeCast S50000x1 (val_main_v40 (F := Ideal) a1 a2) shapeCasts_S50000_S50000x1 := by
  show StableHlo.after hostOps0 (W0 m ρ c) (Proc.devRef .tc main_v11) = _
  after_results_simp
  rfl

theorem w_b : W1 m ρ c (Proc.devRef .tc main_v28) = shapeCast S1x256 a5 shapeCasts_S256_S1x256 := by
  show StableHlo.after hostOps0 (W0 m ρ c) (Proc.devRef .tc main_v28) = _
  after_results_simp
  rfl

/-! ## The projection and its self-loop term -/

theorem wx : W1 m ρ c (Proc.devRef .tc main_arg0) = a0 := KPre2.at1_arg0 m ρ c

theorem w_h : W2 m ρ c (Proc.devRef .tc main_v29_0) = val_main_v4 (F := Ideal) a0 a4 := by
  refine (W2_arr m ρ c 4).trans ((Region0.out4 (V1 m ρ) c).trans ?_)
  show Region0.proj (W1 m ρ c (Proc.devRef .tc main_arg0)) (W1 m ρ c (Proc.devRef .tc main_arg4)) = _
  rw [wx m ρ c, KPre2.at1_arg4 m ρ c]
  rfl

theorem w_s : W2 m ρ c (Proc.devRef .tc main_v29_1) = selfTerm (val_main_v4 (F := Ideal) a0 a4) (shapeCast S50000x1 (val_main_v40 (F := Ideal) a1 a2) shapeCasts_S50000_S50000x1) (shapeCast S1x256 a5 shapeCasts_S256_S1x256) := by
  refine (W2_arr m ρ c 5).trans ((Region0.out5 (V1 m ρ) c).trans ?_)
  show selfTerm (Region0.proj (W1 m ρ c (Proc.devRef .tc main_arg0)) (W1 m ρ c (Proc.devRef .tc main_arg4)))
      (W1 m ρ c (Proc.devRef .tc main_v11)) (W1 m ρ c (Proc.devRef .tc main_v28)) = _
  rw [wx m ρ c, KPre2.at1_arg4 m ρ c, w_d m ρ c, w_b m ρ c]
  rfl

/-! ## The aggregate -/

theorem w_norm' : W2 m ρ c (Proc.devRef .tc main_v27) = val_main_v26 (F := Ideal) a1 a2 :=
  (W2_of_ne m ρ c main_v27 (by decide)).trans (w_norm m ρ c)

set_option maxHeartbeats 4000000 in
theorem w_agg : W3 m ρ c (Proc.devRef .tc main_v42) = val_main_v39 (F := Ideal) a0 a1 a2 a4 := by
  show StableHlo.after hostOps1 (W2 m ρ c) (Proc.devRef .tc main_v42) = _
  after_results_simp
  rw [w_norm' m ρ c, KPre1.at2_v1 m ρ c, KPre1.at2_v3 m ρ c, w_h m ρ c]
  rfl

theorem w_s' : W3 m ρ c (Proc.devRef .tc main_v29_1) = selfTerm (val_main_v4 (F := Ideal) a0 a4) (shapeCast S50000x1 (val_main_v40 (F := Ideal) a1 a2) shapeCasts_S50000_S50000x1) (shapeCast S1x256 a5 shapeCasts_S256_S1x256) := by
  refine Eq.trans ?_ (w_s m ρ c)
  show StableHlo.after hostOps1 (W2 m ρ c) (Proc.devRef .tc main_v29_1) = _
  after_results_simp

/-! ## The layer's output -/

theorem out : W4 m ρ c (Proc.devRef .tc main_v43) = val_main_v48 (F := Ideal) a0 a1 a2 a4 a5 := by
  refine (W4_arr m ρ c 2).trans ((Region1.out2 (V3 m ρ) c).trans ?_)
  show combineRelu (W3 m ρ c (Proc.devRef .tc main_v42)) (W3 m ρ c (Proc.devRef .tc main_v29_1)) = _
  rw [w_agg m ρ c, w_s' m ρ c]
  refine (Cert.Spec.epilogue_relu_eq (val_main_v39 (F := Ideal) a0 a1 a2 a4) (val_main_v4 (F := Ideal) a0 a4) (val_main_v40 (F := Ideal) a1 a2) a5 shapeCasts_S50000_S50000x1 shapeCasts_S256_S1x256
      Cert.ReferenceIdeal.Gen.bcast_S50000x1_S50000x256_0_1 Cert.ReferenceIdeal.Gen.bcast_S50000_S50000x1_0
      Cert.ReferenceIdeal.Gen.bcast_S1x256_S50000x256_0_1 Cert.ReferenceIdeal.Gen.bcast_S256_S1x256_1 Cert.ReferenceIdeal.Gen.bcast_S_S50000x256).trans ?_
  rfl

end Cert.KernelIdeal.KLayer1

end
-- ==== Proof.KLayer2.lean ====
/-
  Layer 2 of the network in the pipelined program, read through the fold of its segments.

  A stretch of host operations computes, from the edge list and the edge weights, the per-edge normalisation, the
  column of squared inverse square-root degrees and the bias row; a region writes the dense projection of the layer's
  input and its self-loop term; a stretch gathers the projection's rows along the edges, scales them and sums them
  into the target nodes; a last region adds the self-loop term and rectifies. Each value is the one
  the plain program computes for the same layer, the epilogue by the associativity of addition.
-/
import proofs.«140916_j89816356094415_2_alg».proof.Proof.Gen.KernelIdeal.Frame
import proofs.«140916_j89816356094415_2_alg».proof.Proof.Gen.ReferenceIdeal.Read
import proofs.«140916_j89816356094415_2_alg».proof.Proof.Region2
import proofs.«140916_j89816356094415_2_alg».proof.Proof.Region3
import proofs.«140916_j89816356094415_2_alg».proof.Proof.KPre1
import proofs.«140916_j89816356094415_2_alg».proof.Proof.KPre2
import proofs.«140916_j89816356094415_2_alg».proof.Proof.KLayer1
set_option maxRecDepth 16384

noncomputable section

namespace Cert.KernelIdeal.KLayer2

open Cert.KernelIdeal Cert.KernelIdeal.Gen
open Idealize.ShloMosaic Idealize.ShloMosaic.TcCoe Idealize.SL.Sem Idealize.ShloMosaic.StableHlo
open Cert.ReferenceIdeal.Read
open Cert.Spec

variable (m : (ℓ : Loc nD τ sig) → Buf (Elt Ideal) ℓ) (ρ : Dev nD → PrngReg) (c : Dev nD)

set_option quotPrecheck false
local notation "a0" => m ((c : Thread nD τ).loc main_arg0)
local notation "a1" => m ((c : Thread nD τ).loc main_arg1)
local notation "a2" => m ((c : Thread nD τ).loc main_arg2)
local notation "a3" => m ((c : Thread nD τ).loc main_arg3)
local notation "a4" => m ((c : Thread nD τ).loc main_arg4)
local notation "a5" => m ((c : Thread nD τ).loc main_arg5)
local notation "a6" => m ((c : Thread nD τ).loc main_arg6)
local notation "a7" => m ((c : Thread nD τ).loc main_arg7)
local notation "a8" => m ((c : Thread nD τ).loc main_arg8)
local notation "a9" => m ((c : Thread nD τ).loc main_arg9)
local notation "a10" => m ((c : Thread nD τ).loc main_arg10)
local notation "a11" => m ((c : Thread nD τ).loc main_arg11)

/-! ## The normalisation, the degree column and the bias row -/

set_option maxHeartbeats 4000000 in
theorem w_norm : W5 m ρ c (Proc.devRef .tc main_v67) = val_main_v71 (F := Ideal) a1 a2 := by
  show StableHlo.after hostOps2 (W4 m ρ c) (Proc.devRef .tc main_v67) = _
  after_results_simp
  rw [KPre1.at4_v1 m ρ c, KPre1.at4_v3 m ρ c, KPre2.at4_arg2 m ρ c]
  rfl

set_option maxHeartbeats 4000000 in
theorem w_d : W5 m ρ c (Proc.devRef .tc main_v51) = shapeCast S50000x1 (val_main_v85 (F := Ideal) a1 a2) shapeCasts_S50000_S50000x1 := by
  show StableHlo.after hostOps2 (W4 m ρ c) (Proc.devRef .tc main_v51) = _
  after_results_simp
  rw [KPre1.at4_v3 m ρ c, KPre2.at4_arg2 m ρ c]
  rfl

theorem w_b : W5 m ρ c (Proc.devRef .tc main_v68) = shapeCast S1x256 a7 shapeCasts_S256_S1x256 := by
  show StableHlo.after hostOps2 (W4 m ρ c) (Proc.devRef .tc main_v68) = _
  after_results_simp
  rw [KPre2.at4_arg7 m ρ c]
  rfl

/-! ## The projection and its self-loop term -/

theorem wx : W5 m ρ c (Proc.devRef .tc main_v43) = val_main_v48 (F := Ideal) a0 a1 a2 a4 a5 := by
  refine Eq.trans ?_ (KLayer1.out m ρ c)
  show StableHlo.after hostOps2 (W4 m ρ c) (Proc.devRef .tc main_v43) = _
  after_results_simp

theorem w_h : W6 m ρ c (Proc.devRef .tc main_v69_0) = val_main_v49 (F := Ideal) a0 a1 a2 a4 a5 a6 := by
  refine (W6_arr m ρ c 4).trans ((Region2.out4 (V5 m ρ) c).trans ?_)
  show Region2.proj (W5 m ρ c (Proc.devRef .tc main_v43)) (W5 m ρ c (Proc.devRef .tc main_arg6)) = _
  rw [wx m ρ c, KPre2.at5_arg6 m ρ c]
  rfl

theorem w_s : W6 m ρ c (Proc.devRef .tc main_v69_1) = selfTerm (val_main_v49 (F := Ideal) a0 a1 a2 a4 a5 a6) (shapeCast S50000x1 (val_main_v85 (F := Ideal) a1 a2) shapeCasts_S50000_S50000x1) (shapeCast S1x256 a7 shapeCasts_S256_S1x256) := by
  refine (W6_arr m ρ c 5).trans ((Region2.out5 (V5 m ρ) c).trans ?_)
  show selfTerm (Region2.proj (W5 m ρ c (Proc.devRef .tc main_v43)) (W5 m ρ c (Proc.devRef .tc main_arg6)))
      (W5 m ρ c (Proc.devRef .tc main_v51)) (W5 m ρ c (Proc.devRef .tc main_v68)) = _
  rw [wx m ρ c, KPre2.at5_arg6 m ρ c, w_d m ρ c, w_b m ρ c]
  rfl

/-! ## The aggregate -/

theorem w_norm' : W6 m ρ c (Proc.devRef .tc main_v67) = val_main_v71 (F := Ideal) a1 a2 :=
  (W6_of_ne m ρ c main_v67 (by decide)).trans (w_norm m ρ c)

set_option maxHeartbeats 4000000 in
theorem w_agg : W7 m ρ c (Proc.devRef .tc main_v82) = val_main_v84 (F := Ideal) a0 a1 a2 a4 a5 a6 := by
  show StableHlo.after hostOps3 (W6 m ρ c) (Proc.devRef .tc main_v82) = _
  after_results_simp
  rw [w_norm' m ρ c, KPre1.at6_v1 m ρ c, KPre1.at6_v3 m ρ c, w_h m ρ c]
  rfl

theorem w_s' : W7 m ρ c (Proc.devRef .tc main_v69_1) = selfTerm (val_main_v49 (F := Ideal) a0 a1 a2 a4 a5 a6) (shapeCast S50000x1 (val_main_v85 (F := Ideal) a1 a2) shapeCasts_S50000_S50000x1) (shapeCast S1x256 a7 shapeCasts_S256_S1x256) := by
  refine Eq.trans ?_ (w_s m ρ c)
  show StableHlo.after hostOps3 (W6 m ρ c) (Proc.devRef .tc main_v69_1) = _
  after_results_simp

/-! ## The layer's output -/

theorem out : W8 m ρ c (Proc.devRef .tc main_v83) = val_main_v93 (F := Ideal) a0 a1 a2 a4 a5 a6 a7 := by
  refine (W8_arr m ρ c 2).trans ((Region3.out2 (V7 m ρ) c).trans ?_)
  show combineRelu (W7 m ρ c (Proc.devRef .tc main_v82)) (W7 m ρ c (Proc.devRef .tc main_v69_1)) = _
  rw [w_agg m ρ c, w_s' m ρ c]
  refine (Cert.Spec.epilogue_relu_eq (val_main_v84 (F := Ideal) a0 a1 a2 a4 a5 a6) (val_main_v49 (F := Ideal) a0 a1 a2 a4 a5 a6) (val_main_v85 (F := Ideal) a1 a2) a7 shapeCasts_S50000_S50000x1 shapeCasts_S256_S1x256
      Cert.ReferenceIdeal.Gen.bcast_S50000x1_S50000x256_0_1 Cert.ReferenceIdeal.Gen.bcast_S50000_S50000x1_0
      Cert.ReferenceIdeal.Gen.bcast_S1x256_S50000x256_0_1 Cert.ReferenceIdeal.Gen.bcast_S256_S1x256_1 Cert.ReferenceIdeal.Gen.bcast_S_S50000x256).trans ?_
  rfl

end Cert.KernelIdeal.KLayer2

end
-- ==== Proof.KLayer3.lean ====
/-
  Layer 3 of the network in the pipelined program, read through the fold of its segments.

  A stretch of host operations computes, from the edge list and the edge weights, the per-edge normalisation, the
  column of squared inverse square-root degrees and the bias row; a region writes the dense projection of the layer's
  input and its self-loop term; a stretch gathers the projection's rows along the edges, scales them and sums them
  into the target nodes; a last region adds the self-loop term. Each value is the one
  the plain program computes for the same layer, the epilogue by the associativity of addition.
-/
import proofs.«140916_j89816356094415_2_alg».proof.Proof.Gen.KernelIdeal.Frame
import proofs.«140916_j89816356094415_2_alg».proof.Proof.Gen.ReferenceIdeal.Read
import proofs.«140916_j89816356094415_2_alg».proof.Proof.Region4
import proofs.«140916_j89816356094415_2_alg».proof.Proof.Region5
import proofs.«140916_j89816356094415_2_alg».proof.Proof.KPre1
import proofs.«140916_j89816356094415_2_alg».proof.Proof.KPre2
import proofs.«140916_j89816356094415_2_alg».proof.Proof.KLayer2
set_option maxRecDepth 16384

noncomputable section

namespace Cert.KernelIdeal.KLayer3

open Cert.KernelIdeal Cert.KernelIdeal.Gen
open Idealize.ShloMosaic Idealize.ShloMosaic.TcCoe Idealize.SL.Sem Idealize.ShloMosaic.StableHlo
open Cert.ReferenceIdeal.Read
open Cert.Spec

variable (m : (ℓ : Loc nD τ sig) → Buf (Elt Ideal) ℓ) (ρ : Dev nD → PrngReg) (c : Dev nD)

set_option quotPrecheck false
local notation "a0" => m ((c : Thread nD τ).loc main_arg0)
local notation "a1" => m ((c : Thread nD τ).loc main_arg1)
local notation "a2" => m ((c : Thread nD τ).loc main_arg2)
local notation "a3" => m ((c : Thread nD τ).loc main_arg3)
local notation "a4" => m ((c : Thread nD τ).loc main_arg4)
local notation "a5" => m ((c : Thread nD τ).loc main_arg5)
local notation "a6" => m ((c : Thread nD τ).loc main_arg6)
local notation "a7" => m ((c : Thread nD τ).loc main_arg7)
local notation "a8" => m ((c : Thread nD τ).loc main_arg8)
local notation "a9" => m ((c : Thread nD τ).loc main_arg9)
local notation "a10" => m ((c : Thread nD τ).loc main_arg10)
local notation "a11" => m ((c : Thread nD τ).loc main_arg11)

/-! ## The normalisation, the degree column and the bias row -/

set_option maxHeartbeats 4000000 in
theorem w_norm : W9 m ρ c (Proc.devRef .tc main_v107) = val_main_v116 (F := Ideal) a1 a2 := by
  show StableHlo.after hostOps4 (W8 m ρ c) (Proc.devRef .tc main_v107) = _
  after_results_simp
  rw [KPre1.at8_v1 m ρ c, KPre1.at8_v3 m ρ c, KPre2.at8_arg2 m ρ c]
  rfl

set_option maxHeartbeats 4000000 in
theorem w_d : W9 m ρ c (Proc.devRef .tc main_v91) = shapeCast S50000x1 (val_main_v130 (F := Ideal) a1 a2) shapeCasts_S50000_S50000x1 := by
  show StableHlo.after hostOps4 (W8 m ρ c) (Proc.devRef .tc main_v91) = _
  after_results_simp
  rw [KPre1.at8_v3 m ρ c, KPre2.at8_arg2 m ρ c]
  rfl

theorem w_b : W9 m ρ c (Proc.devRef .tc main_v108) = shapeCast S1x256 a9 shapeCasts_S256_S1x256 := by
  show StableHlo.after hostOps4 (W8 m ρ c) (Proc.devRef .tc main_v108) = _
  after_results_simp
  rw [KPre2.at8_arg9 m ρ c]
  rfl

/-! ## The projection and its self-loop term -/

theorem wx : W9 m ρ c (Proc.devRef .tc main_v83) = val_main_v93 (F := Ideal) a0 a1 a2 a4 a5 a6 a7 := by
  refine Eq.trans ?_ (KLayer2.out m ρ c)
  show StableHlo.after hostOps4 (W8 m ρ c) (Proc.devRef .tc main_v83) = _
  after_results_simp

theorem w_h : W10 m ρ c (Proc.devRef .tc main_v109_0) = val_main_v94 (F := Ideal) a0 a1 a2 a4 a5 a6 a7 a8 := by
  refine (W10_arr m ρ c 4).trans ((Region4.out4 (V9 m ρ) c).trans ?_)
  show Region4.proj (W9 m ρ c (Proc.devRef .tc main_v83)) (W9 m ρ c (Proc.devRef .tc main_arg8)) = _
  rw [wx m ρ c, KPre2.at9_arg8 m ρ c]
  rfl

theorem w_s : W10 m ρ c (Proc.devRef .tc main_v109_1) = selfTerm (val_main_v94 (F := Ideal) a0 a1 a2 a4 a5 a6 a7 a8) (shapeCast S50000x1 (val_main_v130 (F := Ideal) a1 a2) shapeCasts_S50000_S50000x1) (shapeCast S1x256 a9 shapeCasts_S256_S1x256) := by
  refine (W10_arr m ρ c 5).trans ((Region4.out5 (V9 m ρ) c).trans ?_)
  show selfTerm (Region4.proj (W9 m ρ c (Proc.devRef .tc main_v83)) (W9 m ρ c (Proc.devRef .tc main_arg8)))
      (W9 m ρ c (Proc.devRef .tc main_v91)) (W9 m ρ c (Proc.devRef .tc main_v108)) = _
  rw [wx m ρ c, KPre2.at9_arg8 m ρ c, w_d m ρ c, w_b m ρ c]
  rfl

/-! ## The aggregate -/

theorem w_norm' : W10 m ρ c (Proc.devRef .tc main_v107) = val_main_v116 (F := Ideal) a1 a2 :=
  (W10_of_ne m ρ c main_v107 (by decide)).trans (w_norm m ρ c)

set_option maxHeartbeats 4000000 in
theorem w_agg : W11 m ρ c (Proc.devRef .tc main_v122) = val_main_v129 (F := Ideal) a0 a1 a2 a4 a5 a6 a7 a8 := by
  show StableHlo.after hostOps5 (W10 m ρ c) (Proc.devRef .tc main_v122) = _
  after_results_simp
  rw [w_norm' m ρ c, KPre1.at10_v1 m ρ c, KPre1.at10_v3 m ρ c, w_h m ρ c]
  rfl

theorem w_s' : W11 m ρ c (Proc.devRef .tc main_v109_1) = selfTerm (val_main_v94 (F := Ideal) a0 a1 a2 a4 a5 a6 a7 a8) (shapeCast S50000x1 (val_main_v130 (F := Ideal) a1 a2) shapeCasts_S50000_S50000x1) (shapeCast S1x256 a9 shapeCasts_S256_S1x256) := by
  refine Eq.trans ?_ (w_s m ρ c)
  show StableHlo.after hostOps5 (W10 m ρ c) (Proc.devRef .tc main_v109_1) = _
  after_results_simp

/-! ## The layer's output -/

theorem out : W12 m ρ c (Proc.devRef .tc main_v123) = val_main_v137 (F := Ideal) a0 a1 a2 a4 a5 a6 a7 a8 a9 := by
  refine (W12_arr m ρ c 2).trans ((Region5.out2 (V11 m ρ) c).trans ?_)
  show combine (W11 m ρ c (Proc.devRef .tc main_v122)) (W11 m ρ c (Proc.devRef .tc main_v109_1)) = _
  rw [w_agg m ρ c, w_s' m ρ c]
  refine (Cert.Spec.epilogue_eq (val_main_v129 (F := Ideal) a0 a1 a2 a4 a5 a6 a7 a8) (val_main_v94 (F := Ideal) a0 a1 a2 a4 a5 a6 a7 a8) (val_main_v130 (F := Ideal) a1 a2) a9 shapeCasts_S50000_S50000x1 shapeCasts_S256_S1x256
      Cert.ReferenceIdeal.Gen.bcast_S50000x1_S50000x256_0_1 Cert.ReferenceIdeal.Gen.bcast_S50000_S50000x1_0
      Cert.ReferenceIdeal.Gen.bcast_S1x256_S50000x256_0_1 Cert.ReferenceIdeal.Gen.bcast_S256_S1x256_1).trans ?_
  rfl

end Cert.KernelIdeal.KLayer3

end
-- ==== Proof.KPre3.lean ====
/-
  Values that ride unchanged through the fold of the program's segments: the graph assignment and the classifier's weights and bias.

  A stretch of host operations leaves a buffer it does not write as it found it, and a pipelined region leaves every
  buffer that is not one of its arrays as it found it; so a value computed early, or an argument, is read later at what
  it was when written.
-/
import proofs.«140916_j89816356094415_2_alg».proof.Proof.Gen.KernelIdeal.Frame
import proofs.«140916_j89816356094415_2_alg».proof.Proof.Gen.ReferenceIdeal.Read

set_option maxRecDepth 16384

noncomputable section

namespace Cert.KernelIdeal.KPre3

open Cert.KernelIdeal Cert.KernelIdeal.Gen
open Idealize.ShloMosaic Idealize.ShloMosaic.TcCoe Idealize.SL.Sem Idealize.ShloMosaic.StableHlo
open Cert.ReferenceIdeal.Read

variable (m : (ℓ : Loc nD τ sig) → Buf (Elt Ideal) ℓ) (ρ : Dev nD → PrngReg) (c : Dev nD)

set_option quotPrecheck false
local notation "a0" => m ((c : Thread nD τ).loc main_arg0)
local notation "a1" => m ((c : Thread nD τ).loc main_arg1)
local notation "a2" => m ((c : Thread nD τ).loc main_arg2)
local notation "a3" => m ((c : Thread nD τ).loc main_arg3)
local notation "a4" => m ((c : Thread nD τ).loc main_arg4)
local notation "a5" => m ((c : Thread nD τ).loc main_arg5)
local notation "a6" => m ((c : Thread nD τ).loc main_arg6)
local notation "a7" => m ((c : Thread nD τ).loc main_arg7)
local notation "a8" => m ((c : Thread nD τ).loc main_arg8)
local notation "a9" => m ((c : Thread nD τ).loc main_arg9)
local notation "a10" => m ((c : Thread nD τ).loc main_arg10)
local notation "a11" => m ((c : Thread nD τ).loc main_arg11)

/-! ### `main_arg3` through the fold -/

theorem at1_arg3 : W1 m ρ c (Proc.devRef .tc main_arg3) = a3 := by
  show StableHlo.after hostOps0 (W0 m ρ c) (Proc.devRef .tc main_arg3) = _
  after_results_simp
  try rfl

theorem at2_arg3 : W2 m ρ c (Proc.devRef .tc main_arg3) = a3 :=
  (W2_of_ne m ρ c main_arg3 (by decide)).trans (at1_arg3 m ρ c)

theorem at3_arg3 : W3 m ρ c (Proc.devRef .tc main_arg3) = a3 := by
  refine Eq.trans ?_ (at2_arg3 m ρ c)
  show StableHlo.after hostOps1 (W2 m ρ c) (Proc.devRef .tc main_arg3) = _
  after_results_simp

theorem at4_arg3 : W4 m ρ c (Proc.devRef .tc main_arg3) = a3 :=
  (W4_of_ne m ρ c main_arg3 (by decide)).trans (at3_arg3 m ρ c)

theorem at5_arg3 : W5 m ρ c (Proc.devRef .tc main_arg3) = a3 := by
  refine Eq.trans ?_ (at4_arg3 m ρ c)
  show StableHlo.after hostOps2 (W4 m ρ c) (Proc.devRef .tc main_arg3) = _
  after_results_simp

theorem at6_arg3 : W6 m ρ c (Proc.devRef .tc main_arg3) = a3 :=
  (W6_of_ne m ρ c main_arg3 (by decide)).trans (at5_arg3 m ρ c)

theorem at7_arg3 : W7 m ρ c (Proc.devRef .tc main_arg3) = a3 := by
  refine Eq.trans ?_ (at6_arg3 m ρ c)
  show StableHlo.after hostOps3 (W6 m ρ c) (Proc.devRef .tc main_arg3) = _
  after_results_simp

theorem at8_arg3 : W8 m ρ c (Proc.devRef .tc main_arg3) = a3 :=
  (W8_of_ne m ρ c main_arg3 (by decide)).trans (at7_arg3 m ρ c)

theorem at9_arg3 : W9 m ρ c (Proc.devRef .tc main_arg3) = a3 := by
  refine Eq.trans ?_ (at8_arg3 m ρ c)
  show StableHlo.after hostOps4 (W8 m ρ c) (Proc.devRef .tc main_arg3) = _
  after_results_simp

theorem at10_arg3 : W10 m ρ c (Proc.devRef .tc main_arg3) = a3 :=
  (W10_of_ne m ρ c main_arg3 (by decide)).trans (at9_arg3 m ρ c)

theorem at11_arg3 : W11 m ρ c (Proc.devRef .tc main_arg3) = a3 := by
  refine Eq.trans ?_ (at10_arg3 m ρ c)
  show StableHlo.after hostOps5 (W10 m ρ c) (Proc.devRef .tc main_arg3) = _
  after_results_simp

theorem at12_arg3 : W12 m ρ c (Proc.devRef .tc main_arg3) = a3 :=
  (W12_of_ne m ρ c main_arg3 (by decide)).trans (at11_arg3 m ρ c)

/-! ### `main_arg10` through the fold -/

theorem at1_arg10 : W1 m ρ c (Proc.devRef .tc main_arg10) = a10 := by
  show StableHlo.after hostOps0 (W0 m ρ c) (Proc.devRef .tc main_arg10) = _
  after_results_simp
  try rfl

theorem at2_arg10 : W2 m ρ c (Proc.devRef .tc main_arg10) = a10 :=
  (W2_of_ne m ρ c main_arg10 (by decide)).trans (at1_arg10 m ρ c)

theorem at3_arg10 : W3 m ρ c (Proc.devRef .tc main_arg10) = a10 := by
  refine Eq.trans ?_ (at2_arg10 m ρ c)
  show StableHlo.after hostOps1 (W2 m ρ c) (Proc.devRef .tc main_arg10) = _
  after_results_simp

theorem at4_arg10 : W4 m ρ c (Proc.devRef .tc main_arg10) = a10 :=
  (W4_of_ne m ρ c main_arg10 (by decide)).trans (at3_arg10 m ρ c)

theorem at5_arg10 : W5 m ρ c (Proc.devRef .tc main_arg10) = a10 := by
  refine Eq.trans ?_ (at4_arg10 m ρ c)
  show StableHlo.after hostOps2 (W4 m ρ c) (Proc.devRef .tc main_arg10) = _
  after_results_simp

theorem at6_arg10 : W6 m ρ c (Proc.devRef .tc main_arg10) = a10 :=
  (W6_of_ne m ρ c main_arg10 (by decide)).trans (at5_arg10 m ρ c)

theorem at7_arg10 : W7 m ρ c (Proc.devRef .tc main_arg10) = a10 := by
  refine Eq.trans ?_ (at6_arg10 m ρ c)
  show StableHlo.after hostOps3 (W6 m ρ c) (Proc.devRef .tc main_arg10) = _
  after_results_simp

theorem at8_arg10 : W8 m ρ c (Proc.devRef .tc main_arg10) = a10 :=
  (W8_of_ne m ρ c main_arg10 (by decide)).trans (at7_arg10 m ρ c)

theorem at9_arg10 : W9 m ρ c (Proc.devRef .tc main_arg10) = a10 := by
  refine Eq.trans ?_ (at8_arg10 m ρ c)
  show StableHlo.after hostOps4 (W8 m ρ c) (Proc.devRef .tc main_arg10) = _
  after_results_simp

theorem at10_arg10 : W10 m ρ c (Proc.devRef .tc main_arg10) = a10 :=
  (W10_of_ne m ρ c main_arg10 (by decide)).trans (at9_arg10 m ρ c)

theorem at11_arg10 : W11 m ρ c (Proc.devRef .tc main_arg10) = a10 := by
  refine Eq.trans ?_ (at10_arg10 m ρ c)
  show StableHlo.after hostOps5 (W10 m ρ c) (Proc.devRef .tc main_arg10) = _
  after_results_simp

theorem at12_arg10 : W12 m ρ c (Proc.devRef .tc main_arg10) = a10 :=
  (W12_of_ne m ρ c main_arg10 (by decide)).trans (at11_arg10 m ρ c)

/-! ### `main_arg11` through the fold -/

theorem at1_arg11 : W1 m ρ c (Proc.devRef .tc main_arg11) = a11 := by
  show StableHlo.after hostOps0 (W0 m ρ c) (Proc.devRef .tc main_arg11) = _
  after_results_simp
  try rfl

theorem at2_arg11 : W2 m ρ c (Proc.devRef .tc main_arg11) = a11 :=
  (W2_of_ne m ρ c main_arg11 (by decide)).trans (at1_arg11 m ρ c)

theorem at3_arg11 : W3 m ρ c (Proc.devRef .tc main_arg11) = a11 := by
  refine Eq.trans ?_ (at2_arg11 m ρ c)
  show StableHlo.after hostOps1 (W2 m ρ c) (Proc.devRef .tc main_arg11) = _
  after_results_simp

theorem at4_arg11 : W4 m ρ c (Proc.devRef .tc main_arg11) = a11 :=
  (W4_of_ne m ρ c main_arg11 (by decide)).trans (at3_arg11 m ρ c)

theorem at5_arg11 : W5 m ρ c (Proc.devRef .tc main_arg11) = a11 := by
  refine Eq.trans ?_ (at4_arg11 m ρ c)
  show StableHlo.after hostOps2 (W4 m ρ c) (Proc.devRef .tc main_arg11) = _
  after_results_simp

theorem at6_arg11 : W6 m ρ c (Proc.devRef .tc main_arg11) = a11 :=
  (W6_of_ne m ρ c main_arg11 (by decide)).trans (at5_arg11 m ρ c)

theorem at7_arg11 : W7 m ρ c (Proc.devRef .tc main_arg11) = a11 := by
  refine Eq.trans ?_ (at6_arg11 m ρ c)
  show StableHlo.after hostOps3 (W6 m ρ c) (Proc.devRef .tc main_arg11) = _
  after_results_simp

theorem at8_arg11 : W8 m ρ c (Proc.devRef .tc main_arg11) = a11 :=
  (W8_of_ne m ρ c main_arg11 (by decide)).trans (at7_arg11 m ρ c)

theorem at9_arg11 : W9 m ρ c (Proc.devRef .tc main_arg11) = a11 := by
  refine Eq.trans ?_ (at8_arg11 m ρ c)
  show StableHlo.after hostOps4 (W8 m ρ c) (Proc.devRef .tc main_arg11) = _
  after_results_simp

theorem at10_arg11 : W10 m ρ c (Proc.devRef .tc main_arg11) = a11 :=
  (W10_of_ne m ρ c main_arg11 (by decide)).trans (at9_arg11 m ρ c)

theorem at11_arg11 : W11 m ρ c (Proc.devRef .tc main_arg11) = a11 := by
  refine Eq.trans ?_ (at10_arg11 m ρ c)
  show StableHlo.after hostOps5 (W10 m ρ c) (Proc.devRef .tc main_arg11) = _
  after_results_simp

theorem at12_arg11 : W12 m ρ c (Proc.devRef .tc main_arg11) = a11 :=
  (W12_of_ne m ρ c main_arg11 (by decide)).trans (at11_arg11 m ρ c)

end Cert.KernelIdeal.KPre3

end
-- ==== Proof.KTail.lean ====
/-
  The pooling and the classifier in the pipelined program, read through the fold of its segments.

  After the last region the node features are the third layer's output; the closing stretch of host operations sums them
  per graph, divides by the graph sizes and applies the classifier. These are the plain program's closing operations
  applied to the same arrays, so the result buffer ends at the plain program's result as a function of the arguments.
-/
import proofs.«140916_j89816356094415_2_alg».proof.Proof.Gen.KernelIdeal.Frame
import proofs.«140916_j89816356094415_2_alg».proof.Proof.Gen.ReferenceIdeal.Read
import proofs.«140916_j89816356094415_2_alg».proof.Proof.KLayer3
import proofs.«140916_j89816356094415_2_alg».proof.Proof.KPre3
set_option maxRecDepth 16384

noncomputable section

namespace Cert.KernelIdeal.KTail

open Cert.KernelIdeal Cert.KernelIdeal.Gen
open Idealize.ShloMosaic Idealize.ShloMosaic.TcCoe Idealize.SL.Sem Idealize.ShloMosaic.StableHlo
open Cert.ReferenceIdeal.Read

variable (m : (ℓ : Loc nD τ sig) → Buf (Elt Ideal) ℓ) (ρ : Dev nD → PrngReg) (c : Dev nD)

set_option quotPrecheck false
local notation "a0" => m ((c : Thread nD τ).loc main_arg0)
local notation "a1" => m ((c : Thread nD τ).loc main_arg1)
local notation "a2" => m ((c : Thread nD τ).loc main_arg2)
local notation "a3" => m ((c : Thread nD τ).loc main_arg3)
local notation "a4" => m ((c : Thread nD τ).loc main_arg4)
local notation "a5" => m ((c : Thread nD τ).loc main_arg5)
local notation "a6" => m ((c : Thread nD τ).loc main_arg6)
local notation "a7" => m ((c : Thread nD τ).loc main_arg7)
local notation "a8" => m ((c : Thread nD τ).loc main_arg8)
local notation "a9" => m ((c : Thread nD τ).loc main_arg9)
local notation "a10" => m ((c : Thread nD τ).loc main_arg10)
local notation "a11" => m ((c : Thread nD τ).loc main_arg11)

set_option maxHeartbeats 4000000 in
/-- The result buffer at the fold's last boundary is the plain program's result term of the arguments. -/
theorem result : W13 m ρ c (Proc.devRef .tc main_v139) = val_main_v153 (F := Ideal) a0 a1 a2 a3 a4 a5 a6 a7 a8 a9 a10 a11 := by
  show StableHlo.after hostOps6 (W12 m ρ c) (Proc.devRef .tc main_v139) = _
  after_results_simp
  rw [KLayer3.out m ρ c, KPre3.at12_arg3 m ρ c, KPre3.at12_arg10 m ρ c, KPre3.at12_arg11 m ρ c]
  rfl

end Cert.KernelIdeal.KTail

end
-- ==== Proof.lean ====
/-
  A three-layer graph convolution with mean pooling and a linear classifier: the pipelined program against the plain one.

  Each layer multiplies the node features by a weight matrix, gathers the product's rows along the edges, scales them
  by the symmetric degree normalisation, sums them into the target nodes, and adds the self-loop term
  (the product row scaled by the squared inverse square-root degree) and the bias; the first two layers then rectify.
  The pipelined program computes the product and the self-loop term plus bias in one region (1000 rows per grid
  point, operands rounded to bfloat16 on the way into the product) and adds the aggregate in a second region; the
  plain program adds the scaled product to the aggregate first and the bias last. At the exact values the rounding
  is the identity, a product into a zero accumulator is the plain sum over the inner axis, and the two groupings
  A + (H·d + b) and (A + H·d) + b agree by the associativity of addition on the extended reals — no entry needs to
  be finite. Everything else (the degree sums, the gathers and scatters along the edges, the pooling, the classifier)
  is the same operations applied to equal arrays.

  The three frames are the generated ones (the plain program's is its generated run with the result dropped); the
  idealization rewrote nothing, so there is nothing to preserve beyond the program's own text.
-/
import proofs.«140916_j89816356094415_2_alg».proof.Defs
import proofs.«140916_j89816356094415_2_alg».proof.Proof.Gen.Kernel.Frame
import proofs.«140916_j89816356094415_2_alg».proof.Proof.Gen.KernelIdeal.Frame
import proofs.«140916_j89816356094415_2_alg».proof.Proof.Gen.ReferenceIdeal.Read
import proofs.«140916_j89816356094415_2_alg».proof.Proof.Gen.Pre_finite_inputs
import proofs.«140916_j89816356094415_2_alg».proof.Proof.KRun
import proofs.«140916_j89816356094415_2_alg».proof.Proof.KTail

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both idealized programs end with the result at the plain program's result term of the (agreeing) arguments. -/
theorem algebraic : Cert.algebraic_KernelIdeal_ReferenceIdeal := by
  intro m ρ m' ρ' _ hagree
  refine ⟨fun c => Cert.ReferenceIdeal.Read.val_main_v153 (F := Ideal)
      (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))
      (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)), ?_, ?_⟩
  · exact (θ_run Cert.KernelIdeal.defs _ _).mono
      (fun r h c => ⟨(h c).1.trans (Cert.KernelIdeal.KTail.result m ρ c), (h c).2⟩)
      (Cert.KernelIdeal.KRun.run m ρ)
  · refine (θ_run Cert.ReferenceIdeal.defs _ _).mono (fun r h c => ⟨?_, (h c).2⟩)
      (Cert.ReferenceIdeal.Value.run (F := Ideal) m' ρ')
    obtain ⟨h0, h1, h2, h3, h4, h5, h6, h7, h8, h9, h10, h11⟩ := hagree c
    refine (h c).1.trans ((Cert.ReferenceIdeal.Read.val_main_v153_eq m' c).trans ?_)
    rw [h0, h1, h2, h3, h4, h5, h6, h7, h8, h9, h10, h11]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
